-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x8 : Shape := ⟨2, ![1600000, 8]⟩
abbrev S3x32x32 : Shape := ⟨3, ![3, 32, 32]⟩
abbrev S3x32 : Shape := ⟨2, ![3, 32]⟩
abbrev S3x8x32 : Shape := ⟨3, ![3, 8, 32]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S3x32x32 : S_.BroadcastsInDim S3x32x32 (![] : Fin 0 → Fin S3x32x32.rank)
  reducesTo_S3x32x32_S_d0_1_2 : S3x32x32.ReducesTo [0, 1, 2] S_
  bcast_S_S3x32 : S_.BroadcastsInDim S3x32 (![] : Fin 0 → Fin S3x32.rank)
  reducesTo_S3x32_S_d0_1 : S3x32.ReducesTo [0, 1] S_
  bcast_S_S3x8x32 : S_.BroadcastsInDim S3x8x32 (![] : Fin 0 → Fin S3x8x32.rank)
  reducesTo_S3x8x32_S_d0_1_2 : S3x8x32.ReducesTo [0, 1, 2] S_

variable [Facts]

def fn_part1 {F : FTy → Type} [FloatOps F] (main_arg4 : FVec F S3x8x32 .f32) (main_arg5 : FVec F S3x32 .f32) (main_v13 : IVec S_ 1) (main_v16 : IVec S3x32 1) : IVec S_ 1 :=
  let main_c_5 : IVec S_ 1 := constantI S_ 1 1#1
  let main_v17 : IVec S_ 1 := (fun x v => Host.reduce IntOp.andi x v reducesTo_S3x32_S_d0_1 h_S_) main_v16 main_c_5
  let main_v18 : IVec S_ 1 := andi main_v13 main_v17
  let main_v19 : FVec F S3x8x32 .f32 := Host.absf main_arg4
  let main_cst_6 : FVec F S_ .f32 := constant S_ .f32 0x7F800000#32
  let main_v20 : FVec F S3x8x32 .f32 := broadcastInDim S3x8x32 ![] bcast_S_S3x8x32 main_cst_6
  let main_v21 : IVec S3x8x32 1 := cmpf .olt main_v19 main_v20
  let main_c_7 : IVec S_ 1 := constantI S_ 1 1#1
  let main_v22 : IVec S_ 1 := (fun x v => Host.reduce IntOp.andi x v reducesTo_S3x8x32_S_d0_1_2 h_S_) main_v21 main_c_7
  let main_v23 : IVec S_ 1 := andi main_v18 main_v22
  let main_v24 : FVec F S3x32 .f32 := Host.absf main_arg5
  let main_cst_8 : FVec F S_ .f32 := constant S_ .f32 0x7F800000#32
  let main_v25 : FVec F S3x32 .f32 := broadcastInDim S3x32 ![] bcast_S_S3x32 main_cst_8
  let main_v26 : IVec S3x32 1 := cmpf .olt main_v24 main_v25
  let main_c_9 : IVec S_ 1 := constantI S_ 1 1#1
  let main_v27 : IVec S_ 1 := (fun x v => Host.reduce IntOp.andi x v reducesTo_S3x32_S_d0_1 h_S_) main_v26 main_c_9
  let main_v28 : IVec S_ 1 := andi main_v23 main_v27
  main_v28

def fn {F : FTy → Type} [FloatOps F] (main_arg0 : FVec F S100000x32 .f32) (main_arg1 : FVec F S1600000x8 .f32) (main_arg2 : FVec F S3x32x32 .f32) (main_arg3 : FVec F S3x32 .f32) (main_arg4 : FVec F S3x8x32 .f32) (main_arg5 : FVec F S3x32 .f32) (main_arg6 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x8 .f32 := Host.absf main_arg1
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S3x32x32 .f32 := Host.absf main_arg2
  let main_cst_2 : FVec F S_ .f32 := constant S_ .f32 0x7F800000#32
  let main_v10 : FVec F S3x32x32 .f32 := broadcastInDim S3x32x32 ![] bcast_S_S3x32x32 main_cst_2
  let main_v11 : IVec S3x32x32 1 := cmpf .olt main_v9 main_v10
  let main_c_3 : IVec S_ 1 := constantI S_ 1 1#1
  let main_v12 : IVec S_ 1 := (fun x v => Host.reduce IntOp.andi x v reducesTo_S3x32x32_S_d0_1_2 h_S_) main_v11 main_c_3
  let main_v13 : IVec S_ 1 := andi main_v8 main_v12
  let main_v14 : FVec F S3x32 .f32 := Host.absf main_arg3
  let main_cst_4 : FVec F S_ .f32 := constant S_ .f32 0x7F800000#32
  let main_v15 : FVec F S3x32 .f32 := broadcastInDim S3x32 ![] bcast_S_S3x32 main_cst_4
  let main_v16 : IVec S3x32 1 := cmpf .olt main_v14 main_v15
  fn_part1 (F := F) main_arg4 main_arg5 main_v13 main_v16
-- ==== Kernel.lean ====
abbrev S100000x32 : Shape := ⟨2, ![100000, 32]⟩
abbrev S1600000x8 : Shape := ⟨2, ![1600000, 8]⟩
abbrev S3x32x32 : Shape := ⟨3, ![3, 32, 32]⟩
abbrev S3x32 : Shape := ⟨2, ![3, 32]⟩
abbrev S3x8x32 : Shape := ⟨3, ![3, 8, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x8x32 : Shape := ⟨3, ![1, 8, 32]⟩
abbrev S8x32 : Shape := ⟨2, ![8, 32]⟩
abbrev S1x32 : Shape := ⟨2, ![1, 32]⟩
abbrev S32 : Shape := ⟨1, ![32]⟩
abbrev S3200x8 : Shape := ⟨2, ![3200, 8]⟩
abbrev S3200x32 : Shape := ⟨2, ![3200, 32]⟩
abbrev S1x32x32 : Shape := ⟨3, ![1, 32, 32]⟩
abbrev S32x32 : Shape := ⟨2, ![32, 32]⟩
abbrev S2000x32 : Shape := ⟨2, ![2000, 32]⟩

abbrev nBuf : Space → Nat
  | .hbm => 86
  | .vmem => 48
  | .smem => 0
  | _ => 0

abbrev bufTy : (tb : Table) → Fin (tcTables nBuf tb) → BufTy
  | .hbm, ⟨0, _⟩ => ⟨S100000x32, .f32⟩
  | .hbm, ⟨1, _⟩ => ⟨S1600000x8, .f32⟩
  | .hbm, ⟨2, _⟩ => ⟨S3x32x32, .f32⟩
  | .hbm, ⟨3, _⟩ => ⟨S3x32, .f32⟩
  | .hbm, ⟨4, _⟩ => ⟨S3x8x32, .f32⟩
  | .hbm, ⟨5, _⟩ => ⟨S3x32, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x32, .f32⟩
  | .hbm, ⟨20, _⟩ => ⟨S1x8x32, .f32⟩
  | .hbm, ⟨21, _⟩ => ⟨S8x32, .f32⟩
  | .hbm, ⟨22, _⟩ => ⟨S1x32, .f32⟩
  | .hbm, ⟨23, _⟩ => ⟨S32, .f32⟩
  | .hbm, ⟨24, _⟩ => ⟨S1x32, .f32⟩
  | .hbm, ⟨25, _⟩ => ⟨S1600000x32, .f32⟩
  | .hbm, ⟨26, _⟩ => ⟨S_, .f32⟩
  | .hbm, ⟨27, _⟩ => ⟨S100000x32, .f32⟩
  | .hbm, ⟨28, _⟩ => ⟨S1600000x1, .i32⟩
  | .hbm, ⟨29, _⟩ => ⟨S100000x32, .f32⟩
  | .hbm, ⟨30, _⟩ => ⟨S1x32x32, .f32⟩
  | .hbm, ⟨31, _⟩ => ⟨S32x32, .f32⟩
  | .hbm, ⟨32, _⟩ => ⟨S1x32, .f32⟩
  | .hbm, ⟨33, _⟩ => ⟨S32, .f32⟩
  | .hbm, ⟨34, _⟩ => ⟨S1x32, .f32⟩
  | .hbm, ⟨35, _⟩ => ⟨S100000x32, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x32, .f32⟩
  | .hbm, ⟨45, _⟩ => ⟨S1x8x32, .f32⟩
  | .hbm, ⟨46, _⟩ => ⟨S8x32, .f32⟩
  | .hbm, ⟨47, _⟩ => ⟨S1x32, .f32⟩
  | .hbm, ⟨48, _⟩ => ⟨S32, .f32⟩
  | .hbm, ⟨49, _⟩ => ⟨S1x32, .f32⟩
  | .hbm, ⟨50, _⟩ => ⟨S1600000x32, .f32⟩
  | .hbm, ⟨51, _⟩ => ⟨S_, .f32⟩
  | .hbm, ⟨52, _⟩ => ⟨S100000x32, .f32⟩
  | .hbm, ⟨53, _⟩ => ⟨S1600000x1, .i32⟩
  | .hbm, ⟨54, _⟩ => ⟨S100000x32, .f32⟩
  | .hbm, ⟨55, _⟩ => ⟨S1x32x32, .f32⟩
  | .hbm, ⟨56, _⟩ => ⟨S32x32, .f32⟩
  | .hbm, ⟨57, _⟩ => ⟨S1x32, .f32⟩
  | .hbm, ⟨58, _⟩ => ⟨S32, .f32⟩
  | .hbm, ⟨59, _⟩ => ⟨S1x32, .f32⟩
  | .hbm, ⟨60, _⟩ => ⟨S100000x32, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x32, .f32⟩
  | .hbm, ⟨70, _⟩ => ⟨S1x8x32, .f32⟩
  | .hbm, ⟨71, _⟩ => ⟨S8x32, .f32⟩
  | .hbm, ⟨72, _⟩ => ⟨S1x32, .f32⟩
  | .hbm, ⟨73, _⟩ => ⟨S32, .f32⟩
  | .hbm, ⟨74, _⟩ => ⟨S1x32, .f32⟩
  | .hbm, ⟨75, _⟩ => ⟨S1600000x32, .f32⟩
  | .hbm, ⟨76, _⟩ => ⟨S_, .f32⟩
  | .hbm, ⟨77, _⟩ => ⟨S100000x32, .f32⟩
  | .hbm, ⟨78, _⟩ => ⟨S1600000x1, .i32⟩
  | .hbm, ⟨79, _⟩ => ⟨S100000x32, .f32⟩
  | .hbm, ⟨80, _⟩ => ⟨S1x32x32, .f32⟩
  | .hbm, ⟨81, _⟩ => ⟨S32x32, .f32⟩
  | .hbm, ⟨82, _⟩ => ⟨S1x32, .f32⟩
  | .hbm, ⟨83, _⟩ => ⟨S32, .f32⟩
  | .hbm, ⟨84, _⟩ => ⟨S1x32, .f32⟩
  | .hbm, ⟨85, _⟩ => ⟨S100000x32, .f32⟩
  | .local _ .vmem, ⟨0, _⟩ => ⟨S3200x8, .f32⟩
  | .local _ .vmem, ⟨1, _⟩ => ⟨S3200x8, .f32⟩
  | .local _ .vmem, ⟨2, _⟩ => ⟨S3200x32, .f32⟩
  | .local _ .vmem, ⟨3, _⟩ => ⟨S3200x32, .f32⟩
  | .local _ .vmem, ⟨4, _⟩ => ⟨S8x32, .f32⟩
  | .local _ .vmem, ⟨5, _⟩ => ⟨S1x32, .f32⟩
  | .local _ .vmem, ⟨6, _⟩ => ⟨S3200x32, .f32⟩
  | .local _ .vmem, ⟨7, _⟩ => ⟨S3200x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S32x32, .f32⟩
  | .local _ .vmem, ⟨13, _⟩ => ⟨S1x32, .f32⟩
  | .local _ .vmem, ⟨14, _⟩ => ⟨S2000x32, .f32⟩
  | .local _ .vmem, ⟨15, _⟩ => ⟨S2000x32, .f32⟩
  | .local _ .vmem, ⟨16, _⟩ => ⟨S3200x8, .f32⟩
  | .local _ .vmem, ⟨17, _⟩ => ⟨S3200x8, .f32⟩
  | .local _ .vmem, ⟨18, _⟩ => ⟨S3200x32, .f32⟩
  | .local _ .vmem, ⟨19, _⟩ => ⟨S3200x32, .f32⟩
  | .local _ .vmem, ⟨20, _⟩ => ⟨S8x32, .f32⟩
  | .local _ .vmem, ⟨21, _⟩ => ⟨S1x32, .f32⟩
  | .local _ .vmem, ⟨22, _⟩ => ⟨S3200x32, .f32⟩
  | .local _ .vmem, ⟨23, _⟩ => ⟨S3200x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S32x32, .f32⟩
  | .local _ .vmem, ⟨29, _⟩ => ⟨S1x32, .f32⟩
  | .local _ .vmem, ⟨30, _⟩ => ⟨S2000x32, .f32⟩
  | .local _ .vmem, ⟨31, _⟩ => ⟨S2000x32, .f32⟩
  | .local _ .vmem, ⟨32, _⟩ => ⟨S3200x8, .f32⟩
  | .local _ .vmem, ⟨33, _⟩ => ⟨S3200x8, .f32⟩
  | .local _ .vmem, ⟨34, _⟩ => ⟨S3200x32, .f32⟩
  | .local _ .vmem, ⟨35, _⟩ => ⟨S3200x32, .f32⟩
  | .local _ .vmem, ⟨36, _⟩ => ⟨S8x32, .f32⟩
  | .local _ .vmem, ⟨37, _⟩ => ⟨S1x32, .f32⟩
  | .local _ .vmem, ⟨38, _⟩ => ⟨S3200x32, .f32⟩
  | .local _ .vmem, ⟨39, _⟩ => ⟨S3200x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | .local _ .vmem, ⟨44, _⟩ => ⟨S32x32, .f32⟩
  | .local _ .vmem, ⟨45, _⟩ => ⟨S1x32, .f32⟩
  | .local _ .vmem, ⟨46, _⟩ => ⟨S2000x32, .f32⟩
  | .local _ .vmem, ⟨47, _⟩ => ⟨S2000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_v48 : Ref sig .tc := ⟨.hbm, 62, rfl⟩
abbrev main_v49 : Ref sig .tc := ⟨.hbm, 63, rfl⟩
abbrev main_c_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3200x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3200x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3200x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S3200x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x8x32_S1x8x32_0_0_0 : S3x8x32.Slices ![0, 0, 0] S1x8x32
  shapeCasts_S1x8x32_S8x32 : S1x8x32.ShapeCasts S8x32
  slices_S3x32_S1x32_0_0 : S3x32.Slices ![0, 0] S1x32
  shapeCasts_S1x32_S32 : S1x32.ShapeCasts S32
  shapeCasts_S32_S1x32 : S32.ShapeCasts S1x32
  inb_S3200x8_S3200x8_0_0 : ∀ a, (![0, 0] : Fin 2 → Nat) a + S3200x8.size a ≤ S3200x8.size a
  h_S3200x8 : 0 < S3200x8.numel
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S3200x32 : S1x32.Broadcasts S3200x32
  inb_S3200x32_S3200x32_0_0 : ∀ a, (![0, 0] : Fin 2 → Nat) a + S3200x32.size a ≤ S3200x32.size a
  h_S3200x32 : 0 < S3200x32.numel
  shapeCasts_S3200x32_S3200x32 : S3200x32.ShapeCasts S3200x32
  bcast_S_S100000x32 : S_.BroadcastsInDim S100000x32 (![] : Fin 0 → Fin S100000x32.rank)
  slices_S3x32x32_S1x32x32_0_0_0 : S3x32x32.Slices ![0, 0, 0] S1x32x32
  shapeCasts_S1x32x32_S32x32 : S1x32x32.ShapeCasts S32x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  broadcasts_S1x32_S2000x32 : S1x32.Broadcasts S2000x32
  slices_S3x8x32_S1x8x32_1_0_0 : S3x8x32.Slices ![1, 0, 0] S1x8x32
  slices_S3x32_S1x32_1_0 : S3x32.Slices ![1, 0] S1x32
  slices_S3x32x32_S1x32x32_1_0_0 : S3x32x32.Slices ![1, 0, 0] S1x32x32
  slices_S3x8x32_S1x8x32_2_0_0 : S3x8x32.Slices ![2, 0, 0] S1x8x32
  slices_S3x32_S1x32_2_0 : S3x32.Slices ![2, 0] S1x32
  slices_S3x32x32_S1x32x32_2_0_0 : S3x32x32.Slices ![2, 0, 0] S1x32x32
  gather_S100000x32_S1600000x1_S1600000x32_1_0_n_n_0_1_132_wf : GatherDims.WF S100000x32 S1600000x1 S1600000x32 [1] [0] [] [0] [] 1 ![1, 32]
  dot_S3200x8_S8x32_S3200x32_1_0_0_1_n_n_wf : DotDims.WF S3200x8 S8x32 S3200x32 [1] [0] [0] [1] [] []
  scatter_S100000x32_S1600000x1_S1600000x32_1_0_0_1_wf : ScatterDims.WF S100000x32 S1600000x1 S1600000x32 [1] [0] [0] 1
  dot_S2000x32_S32x32_S2000x32_1_0_0_1_n_n_wf : DotDims.WF S2000x32 S32x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x8.size a ≤ S1600000x8.size a
  hwx0_0 : ∀ i : grid0.Coords, EltTy.bits .f32 = 32 ∨ (Rect.block (s := S1600000x8) S3200x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x32.size a ≤ S1600000x32.size a
  hwx0_1 : ∀ i : grid0.Coords, EltTy.bits .f32 = 32 ∨ (Rect.block (s := S1600000x32) S3200x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x32.size a ≤ S1600000x32.size a
  hwx0_4 : ∀ i : grid0.Coords, EltTy.bits .f32 = 32 ∨ (Rect.block (s := S1600000x32) S3200x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S100000x32.size a
  hwx1_4 : ∀ i : grid1.Coords, EltTy.bits .f32 = 32 ∨ (Rect.block (s := S100000x32) S2000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x8.size a ≤ S1600000x8.size a
  hwx2_0 : ∀ i : grid2.Coords, EltTy.bits .f32 = 32 ∨ (Rect.block (s := S1600000x8) S3200x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x32.size a ≤ S1600000x32.size a
  hwx2_1 : ∀ i : grid2.Coords, EltTy.bits .f32 = 32 ∨ (Rect.block (s := S1600000x32) S3200x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x32.size a ≤ S8x32.size a
  hwx2_2 : ∀ i : grid2.Coords, EltTy.bits .f32 = 32 ∨ (Rect.block (s := S8x32) S8x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3200x32.size a ≤ S1600000x32.size a
  hwx2_4 : ∀ i : grid2.Coords, EltTy.bits .f32 = 32 ∨ (Rect.block (s := S1600000x32) S3200x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x32.size a ≤ S100000x32.size a
  hwx3_4 : ∀ i : grid3.Coords, EltTy.bits .f32 = 32 ∨ (Rect.block (s := S100000x32) S2000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3200x8.size a ≤ S1600000x8.size a
  hwx4_0 : ∀ i : grid4.Coords, EltTy.bits .f32 = 32 ∨ (Rect.block (s := S1600000x8) S3200x8.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3200x32.size a ≤ S1600000x32.size a
  hwx4_1 : ∀ i : grid4.Coords, EltTy.bits .f32 = 32 ∨ (Rect.block (s := S1600000x32) S3200x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8x32.size a ≤ S8x32.size a
  hwx4_2 : ∀ i : grid4.Coords, EltTy.bits .f32 = 32 ∨ (Rect.block (s := S8x32) S8x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S3200x32.size a ≤ S1600000x32.size a
  hwx4_4 : ∀ i : grid4.Coords, EltTy.bits .f32 = 32 ∨ (Rect.block (s := S1600000x32) S3200x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S100000x32.size a
  hwx5_1 : ∀ i : grid5.Coords, EltTy.bits .f32 = 32 ∨ (Rect.block (s := S100000x32) S2000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .f32 = 32 ∨ (Rect.block (s := S32x32) S32x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x32.size a ≤ S100000x32.size a
  hwx5_4 : ∀ i : grid5.Coords, EltTy.bits .f32 = 32 ∨ (Rect.block (s := S100000x32) S2000x32.size (cc5_transform_4 i) (hinb5_4 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S3200x8_S8x32_S3200x32_1_0_0_1_n_n : DotDims S3200x8 S8x32 S3200x32 where
  lhsContracting := [1]
  rhsContracting := [0]
  lhsNonContracting := [0]
  rhsNonContracting := [1]
  lhsBatch := []
  rhsBatch := []
  wf := dot_S3200x8_S8x32_S3200x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf

abbrev win0_0 : Pipeline.Window sig grid0 :=
  Pipeline.Window.ofSpec (Memref.whole main_arg1) S3200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3200x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S3200x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S3200x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S3200x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S8x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S3200x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v25) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S2000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S3200x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S3200x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S8x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S3200x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v47) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S2000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x32 : Shape := ⟨2, ![100000, 32]⟩
abbrev S1600000x8 : Shape := ⟨2, ![1600000, 8]⟩
abbrev S3x32x32 : Shape := ⟨3, ![3, 32, 32]⟩
abbrev S3x32 : Shape := ⟨2, ![3, 32]⟩
abbrev S3x8x32 : Shape := ⟨3, ![3, 8, 32]⟩
abbrev S2x1600000 : Shape := ⟨2, ![2, 1600000]⟩
abbrev S1x1600000 : Shape := ⟨2, ![1, 1600000]⟩
abbrev S1600000 : Shape := ⟨1, ![1600000]⟩
abbrev S1x8x32 : Shape := ⟨3, ![1, 8, 32]⟩
abbrev S8x32 : Shape := ⟨2, ![8, 32]⟩
abbrev S1600000x32 : Shape := ⟨2, ![1600000, 32]⟩
abbrev S1x32 : Shape := ⟨2, ![1, 32]⟩
abbrev S32 : Shape := ⟨1, ![32]⟩
abbrev S_ : Shape := ⟨0, ![]⟩
abbrev S1600000x1 : Shape := ⟨2, ![1600000, 1]⟩
abbrev S1x32x32 : Shape := ⟨3, ![1, 32, 32]⟩
abbrev S32x32 : Shape := ⟨2, ![32, 32]⟩

abbrev nBuf : Space → Nat
  | .hbm => 146
  | .vmem => 0
  | .smem => 0
  | _ => 0

abbrev hbmTy0_0 (i : Nat) : BufTy := match i % 128 with
  | 0 => ⟨S100000x32, .f32⟩
  | 1 => ⟨S1600000x8, .f32⟩
  | 2 => ⟨S3x32x32, .f32⟩
  | 3 => ⟨S3x32, .f32⟩
  | 4 => ⟨S3x8x32, .f32⟩
  | 5 => ⟨S3x32, .f32⟩
  | 6 => ⟨S2x1600000, .i32⟩
  | 7 => ⟨S1x1600000, .i32⟩
  | 8 => ⟨S1600000, .i32⟩
  | 9 => ⟨S1x1600000, .i32⟩
  | 10 => ⟨S1600000, .i32⟩
  | 11 => ⟨S1x8x32, .f32⟩
  | 12 => ⟨S8x32, .f32⟩
  | 13 => ⟨S1600000x32, .f32⟩
  | 14 => ⟨S1x32, .f32⟩
  | 15 => ⟨S32, .f32⟩
  | 16 => ⟨S1x32, .f32⟩
  | 17 => ⟨S1600000x32, .f32⟩
  | 18 => ⟨S1600000x32, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x32, .f32⟩
  | 28 => ⟨S1600000x32, .f32⟩
  | 29 => ⟨S_, .f32⟩
  | 30 => ⟨S1600000x32, .f32⟩
  | 31 => ⟨S1600000x32, .f32⟩
  | 32 => ⟨S_, .f32⟩
  | 33 => ⟨S100000x32, .f32⟩
  | 34 => ⟨S1600000x1, .i32⟩
  | 35 => ⟨S100000x32, .f32⟩
  | 36 => ⟨S_, .f32⟩
  | 37 => ⟨S100000x32, .f32⟩
  | 38 => ⟨S100000x32, .f32⟩
  | 39 => ⟨S100000x32, .f32⟩
  | 40 => ⟨S1x32x32, .f32⟩
  | 41 => ⟨S32x32, .f32⟩
  | 42 => ⟨S100000x32, .f32⟩
  | 43 => ⟨S1x32, .f32⟩
  | 44 => ⟨S32, .f32⟩
  | 45 => ⟨S1x32, .f32⟩
  | 46 => ⟨S100000x32, .f32⟩
  | 47 => ⟨S100000x32, .f32⟩
  | 48 => ⟨S_, .f32⟩
  | 49 => ⟨S_, .f32⟩
  | 50 => ⟨S100000x32, .f32⟩
  | 51 => ⟨S100000x32, .i1⟩
  | 52 => ⟨S_, .f32⟩
  | 53 => ⟨S100000x32, .f32⟩
  | 54 => ⟨S100000x32, .f32⟩
  | 55 => ⟨S100000x32, .f32⟩
  | 56 => ⟨S1x8x32, .f32⟩
  | 57 => ⟨S8x32, .f32⟩
  | 58 => ⟨S1600000x32, .f32⟩
  | 59 => ⟨S1x32, .f32⟩
  | 60 => ⟨S32, .f32⟩
  | 61 => ⟨S1x32, .f32⟩
  | 62 => ⟨S1600000x32, .f32⟩
  | 63 => ⟨S1600000x32, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x32, .f32⟩
  | 73 => ⟨S1600000x32, .f32⟩
  | 74 => ⟨S_, .f32⟩
  | 75 => ⟨S1600000x32, .f32⟩
  | 76 => ⟨S1600000x32, .f32⟩
  | 77 => ⟨S_, .f32⟩
  | 78 => ⟨S100000x32, .f32⟩
  | 79 => ⟨S1600000x1, .i32⟩
  | 80 => ⟨S100000x32, .f32⟩
  | 81 => ⟨S_, .f32⟩
  | 82 => ⟨S100000x32, .f32⟩
  | 83 => ⟨S100000x32, .f32⟩
  | 84 => ⟨S100000x32, .f32⟩
  | 85 => ⟨S1x32x32, .f32⟩
  | 86 => ⟨S32x32, .f32⟩
  | 87 => ⟨S100000x32, .f32⟩
  | 88 => ⟨S1x32, .f32⟩
  | 89 => ⟨S32, .f32⟩
  | 90 => ⟨S1x32, .f32⟩
  | 91 => ⟨S100000x32, .f32⟩
  | 92 => ⟨S100000x32, .f32⟩
  | 93 => ⟨S_, .f32⟩
  | 94 => ⟨S_, .f32⟩
  | 95 => ⟨S100000x32, .f32⟩
  | 96 => ⟨S100000x32, .i1⟩
  | 97 => ⟨S_, .f32⟩
  | 98 => ⟨S100000x32, .f32⟩
  | 99 => ⟨S100000x32, .f32⟩
  | 100 => ⟨S100000x32, .f32⟩
  | 101 => ⟨S1x8x32, .f32⟩
  | 102 => ⟨S8x32, .f32⟩
  | 103 => ⟨S1600000x32, .f32⟩
  | 104 => ⟨S1x32, .f32⟩
  | 105 => ⟨S32, .f32⟩
  | 106 => ⟨S1x32, .f32⟩
  | 107 => ⟨S1600000x32, .f32⟩
  | 108 => ⟨S1600000x32, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x32, .f32⟩
  | 118 => ⟨S1600000x32, .f32⟩
  | 119 => ⟨S_, .f32⟩
  | 120 => ⟨S1600000x32, .f32⟩
  | 121 => ⟨S1600000x32, .f32⟩
  | 122 => ⟨S_, .f32⟩
  | 123 => ⟨S100000x32, .f32⟩
  | 124 => ⟨S1600000x1, .i32⟩
  | 125 => ⟨S100000x32, .f32⟩
  | 126 => ⟨S_, .f32⟩
  | 127 => ⟨S100000x32, .f32⟩
  | _ => ⟨S100000x32, .f32⟩

abbrev hbmTy0_1 (i : Nat) : BufTy := match i % 128 with
  | 0 => ⟨S100000x32, .f32⟩
  | 1 => ⟨S100000x32, .f32⟩
  | 2 => ⟨S1x32x32, .f32⟩
  | 3 => ⟨S32x32, .f32⟩
  | 4 => ⟨S100000x32, .f32⟩
  | 5 => ⟨S1x32, .f32⟩
  | 6 => ⟨S32, .f32⟩
  | 7 => ⟨S1x32, .f32⟩
  | 8 => ⟨S100000x32, .f32⟩
  | 9 => ⟨S100000x32, .f32⟩
  | 10 => ⟨S_, .f32⟩
  | 11 => ⟨S_, .f32⟩
  | 12 => ⟨S100000x32, .f32⟩
  | 13 => ⟨S100000x32, .i1⟩
  | 14 => ⟨S_, .f32⟩
  | 15 => ⟨S100000x32, .f32⟩
  | 16 => ⟨S100000x32, .f32⟩
  | 17 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_3 : Ref sig .tc := ⟨.hbm, 64, rfl⟩
abbrev main_v44 : Ref sig .tc := ⟨.hbm, 65, rfl⟩
abbrev main_v45 : Ref sig .tc := ⟨.hbm, 66, rfl⟩
abbrev main_c_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call2_cst : Ref sig .tc := ⟨.hbm, 74, rfl⟩
abbrev main_call2_v0 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_7 : Ref sig .tc := ⟨.hbm, 93, rfl⟩
abbrev main_call3_cst : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_8 : Ref sig .tc := ⟨.hbm, 109, rfl⟩
abbrev main_v76 : Ref sig .tc := ⟨.hbm, 110, rfl⟩
abbrev main_v77 : Ref sig .tc := ⟨.hbm, 111, rfl⟩
abbrev main_c_9 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call4_cst : Ref sig .tc := ⟨.hbm, 119, rfl⟩
abbrev main_call4_v0 : Ref sig .tc := ⟨.hbm, 120, rfl⟩
abbrev main_v84 : Ref sig .tc := ⟨.hbm, 121, rfl⟩
abbrev main_cst_10 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_11 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_12 : Ref sig .tc := ⟨.hbm, 138, rfl⟩
abbrev main_call5_cst : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v99 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x8x32_S1x8x32_0_0_0 : S3x8x32.Slices ![0, 0, 0] S1x8x32
  shapeCasts_S1x8x32_S8x32 : S1x8x32.ShapeCasts S8x32
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x32 : S_.BroadcastsInDim S1600000x32 (![] : Fin 0 → Fin S1600000x32.rank)
  bcast_S_S100000x32 : S_.BroadcastsInDim S100000x32 (![] : Fin 0 → Fin S100000x32.rank)
  slices_S3x32x32_S1x32x32_0_0_0 : S3x32x32.Slices ![0, 0, 0] S1x32x32
  shapeCasts_S1x32x32_S32x32 : S1x32x32.ShapeCasts S32x32
  bcast_S1x32_S100000x32_0_1 : S1x32.BroadcastsInDim S100000x32 (![0, 1] : Fin 2 → Fin S100000x32.rank)
  slices_S3x8x32_S1x8x32_1_0_0 : S3x8x32.Slices ![1, 0, 0] S1x8x32
  slices_S3x32_S1x32_1_0 : S3x32.Slices ![1, 0] S1x32
  slices_S3x32x32_S1x32x32_1_0_0 : S3x32x32.Slices ![1, 0, 0] S1x32x32
  slices_S3x8x32_S1x8x32_2_0_0 : S3x8x32.Slices ![2, 0, 0] S1x8x32
  slices_S3x32_S1x32_2_0 : S3x32.Slices ![2, 0] S1x32
  slices_S3x32x32_S1x32x32_2_0_0 : S3x32x32.Slices ![2, 0, 0] S1x32x32
  dot_S1600000x8_S8x32_S1600000x32_1_0_0_1_n_n_wf : DotDims.WF S1600000x8 S8x32 S1600000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def dot_S1600000x8_S8x32_S1600000x32_1_0_0_1_n_n : DotDims S1600000x8 S8x32 S1600000x32 where
  lhsContracting := [1]
  rhsContracting := [0]
  lhsNonContracting := [0]
  rhsNonContracting := [1]
  lhsBatch := []
  rhsBatch := []
  wf := dot_S1600000x8_S8x32_S1600000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KRun.lean ====
/-
  THE IDEALIZED KERNEL PROGRAM'S RUN, WITH ITS RESULT NAMED.

  The program is twelve segments: six stretches of host operations, each followed by one pipelined kernel. Run from
  any memory, every weakly fair execution ends, and each unscoped buffer then holds what the twelve segments, folded in
  order over the launch memory, leave in it: the host stretches as their operations' results, a kernel's arrays as what
  its write-backs leave. The result buffer is read at that fold; the seven arguments come back as launched.
-/
import proofs.«112617_j57896159150675_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every unscoped buffer at the last boundary's contents. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result buffer at the fold, and the seven arguments as launched. -/
theorem run_out : θ_run defs (onTc (τ := τ) (main (F := F))) ⟨m, fun _ => 0, ρ⟩ (fun r => ∀ c : Dev nD,
      r.2.mem ((c.tc : Thread nD τ).loc main_v69) = W12 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v69 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)
    (run_fold m ρ)

end Cert.KernelIdeal.Hand

end
-- ==== Proof.RefTerms.lean ====
/-
  THE REFERENCE'S LAYER, AS ITS HOST OPERATIONS COMPOSE.

  The reference program is three layers one after the other. A layer reads the node features X, the edge features,
  the two rows of the edge table and slab o of each stacked parameter, and computes

    msg  =  max( gather(X, source) + ( ea · We[o] + be[o] ), 0 )            one row per edge
    agg  =  zeros, with row e of msg added into row target(e)                 one row per node
    X'   =  h if h ≥ 0, else 0.01 · h,   where h = ( 1 · X + agg ) · W[o] + b[o]

  Each piece below is the printed operations' composed term, whole arrays in, whole array out; gathering by source and
  adding by target stay the host's own operations and are never opened.
-/
import proofs.«112617_j57896159150675_1_alg».proof.ReferenceIdeal
import proofs.«112617_j57896159150675_1_alg».proof.Proof.Gen.ReferenceIdeal

noncomputable section

namespace Cert.ReferenceIdeal.Hand

open Idealize.ShloMosaic Cert.ReferenceIdeal Cert.ReferenceIdeal.Facts₀

variable {F : FTy → Type} [FloatOps F]

/-- Row o of the [2, E] edge table, as a vector of E node numbers. -/
def idxRow (o : Nat) (hs : S2x1600000.Slices ![o, 0] S1x1600000) (ei : IVec S2x1600000 32) : IVec S1600000 32 :=
  shapeCast S1600000 (extractStridedSlice S1x1600000 ![o, 0] ei hs) shapeCasts_S1x1600000_S1600000

/-- The source column: a negative node number wrapped round by the number of nodes, laid out as [E, 1]. -/
def srcIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The target column, laid out as [E, 1]. -/
def dstIdx (t : IVec S1600000 32) : IVec S1600000x1 32 :=
  broadcastInDim S1600000x1 ![0] bcast_S1600000_S1600000x1_0 t

/-- The all-zero node array the messages are added into. -/
def zerosN : FVec F S100000x32 .f32 :=
  broadcastInDim S100000x32 ![] bcast_S_S100000x32 (constant (F := F) S_ .f32 0x00000000#32)

/-- Slab o of the stacked edge matrices, as an [8, 32] matrix. -/
def WeSlab (o : Nat) (h : S3x8x32.Slices ![o, 0, 0] S1x8x32) (We : FVec F S3x8x32 .f32) : FVec F S8x32 .f32 :=
  shapeCast S8x32 (extractStridedSlice S1x8x32 ![o, 0, 0] We h) shapeCasts_S1x8x32_S8x32

/-- Slab o of the stacked node matrices, as a [32, 32] matrix. -/
def WSlab (o : Nat) (h : S3x32x32.Slices ![o, 0, 0] S1x32x32) (W : FVec F S3x32x32 .f32) : FVec F S32x32 .f32 :=
  shapeCast S32x32 (extractStridedSlice S1x32x32 ![o, 0, 0] W h) shapeCasts_S1x32x32_S32x32

/-- Row o of a stacked bias, as a vector of 32. -/
def vecRow (o : Nat) (h : S3x32.Slices ![o, 0] S1x32) (b : FVec F S3x32 .f32) : FVec F S32 .f32 :=
  shapeCast S32 (extractStridedSlice S1x32 ![o, 0] b h) shapeCasts_S1x32_S32

/-- The messages: gathered features plus embedded edge features, cut off below at zero. -/
def msg (ea : FVec F S1600000x8 .f32) (Wl : FVec F S8x32 .f32) (bl : FVec F S32 .f32) (G : FVec F S1600000x32 .f32) :
    FVec F S1600000x32 .f32 :=
  maximumf
    (addf G
      (addf (Host.dotGeneral dot_S1600000x8_S8x32_S1600000x32_1_0_0_1_n_n none ea Wl)
        (broadcastInDim S1600000x32 ![0, 1] bcast_S1x32_S1600000x32_0_1 (broadcastInDim S1x32 ![1] bcast_S32_S1x32_1 bl))))
    (broadcastInDim S1600000x32 ![] bcast_S_S1600000x32 (constant (F := F) S_ .f32 0x00000000#32))

/-- The node stage before its cut-off: (1 · X + agg) through the node matrix, plus the bias. -/
def lin (Wl : FVec F S32x32 .f32) (bl : FVec F S32 .f32) (X A : FVec F S100000x32 .f32) : FVec F S100000x32 .f32 :=
  addf
    (Host.dotGeneral dot_S100000x32_S32x32_S100000x32_1_0_0_1_n_n none
      (addf (mulf (broadcastInDim S100000x32 ![] bcast_S_S100000x32 (constant (F := F) S_ .f32 0x3F800000#32)) X) A) Wl)
    (broadcastInDim S100000x32 ![0, 1] bcast_S1x32_S100000x32_0_1 (broadcastInDim S1x32 ![1] bcast_S32_S1x32_1 bl))

/-- The leaky cut-off as the reference spells it: h where h ≥ 0, 0.01 · h elsewhere. -/
def act (h : FVec F S100000x32 .f32) : FVec F S100000x32 .f32 :=
  select (cmpf .oge h (zerosN (F := F))) h
    (mulf (broadcastInDim S100000x32 ![] bcast_S_S100000x32 (id (constant (F := F) S_ .f32 0x3C23D70A#32))) h)

/-- One layer: from the node features X to the next node features. -/
def layer (o : Nat) (hWe : S3x8x32.Slices ![o, 0, 0] S1x8x32) (hbe : S3x32.Slices ![o, 0] S1x32)
    (hW : S3x32x32.Slices ![o, 0, 0] S1x32x32) (hb : S3x32.Slices ![o, 0] S1x32)
    (ea : FVec F S1600000x8 .f32) (W : FVec F S3x32x32 .f32) (b : FVec F S3x32 .f32) (We : FVec F S3x8x32 .f32)
    (be : FVec F S3x32 .f32) (s t : IVec S1600000 32) (X : FVec F S100000x32 .f32) : FVec F S100000x32 .f32 :=
  act (lin (WSlab o hW W) (vecRow o hb b) X
    (Host.scatterAdd scatter_S100000x32_S1600000x1_S1600000x32_1_0_0_1 (zerosN (F := F)) (dstIdx t)
      (msg ea (WeSlab o hWe We) (vecRow o hbe be)
        (Host.gather gather_S100000x32_S1600000x1_S1600000x32_1_0_n_n_0_1_132 X (srcIdx s)))))

/-- The whole network: three layers, slabs 0, 1, 2. Arguments in the program's order. -/
def net (x : FVec F S100000x32 .f32) (ea : FVec F S1600000x8 .f32) (W : FVec F S3x32x32 .f32) (b : FVec F S3x32 .f32)
    (We : FVec F S3x8x32 .f32) (be : FVec F S3x32 .f32) (ei : IVec S2x1600000 32) : FVec F S100000x32 .f32 :=
  let s := idxRow 0 slices_S2x1600000_S1x1600000_0_0 ei
  let t := idxRow 1 slices_S2x1600000_S1x1600000_1_0 ei
  layer 2 slices_S3x8x32_S1x8x32_2_0_0 slices_S3x32_S1x32_2_0 slices_S3x32x32_S1x32x32_2_0_0 slices_S3x32_S1x32_2_0 ea W b We be s t
    (layer 1 slices_S3x8x32_S1x8x32_1_0_0 slices_S3x32_S1x32_1_0 slices_S3x32x32_S1x32x32_1_0_0 slices_S3x32_S1x32_1_0 ea W b We be s t
      (layer 0 slices_S3x8x32_S1x8x32_0_0_0 slices_S3x32_S1x32_0_0 slices_S3x32x32_S1x32x32_0_0_0 slices_S3x32_S1x32_0_0 ea W b We be s t x))

end Cert.ReferenceIdeal.Hand

end
-- ==== Proof.KHost.lean ====
/-
  THE HOST STRETCHES BETWEEN THE KERNELS, READ ONE AT A TIME.

  Before an edge kernel the host gathers the current node features by source node and cuts the layer's slab of the edge
  matrix and its bias row out of the stacked parameters; before a node kernel it adds the messages into an all-zero node
  array by target node and cuts out the layer's node matrix and bias row. Each stretch is read from contents that are a
  variable: what it leaves in a buffer is a small term over the few buffers it reads, and a buffer it does not write
  keeps its contents. The terms are spelt as the reference's own, so that the two programs' layers can be compared piece
  by piece; the gather and the scatter-add are never opened.
-/
import proofs.«112617_j57896159150675_1_alg».proof.Proof.Gen.KernelIdeal.Launch
import proofs.«112617_j57896159150675_1_alg».proof.Proof.RefTerms
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-! ## What each stretch leaves in the buffers the next kernel reads -/

attribute [local irreducible] Host.gather Host.scatterAdd in
/-- The first stretch leaves the edges' source nodes, row 0 of the edge table, as a vector. -/
theorem h0_v1 (V : Valuation τ sig (Elt F)) :
    after hostOps0 V (main_v1 : DevRef τ sig)
      = Cert.ReferenceIdeal.Hand.idxRow 0 Cert.ReferenceIdeal.Facts₀.slices_S2x1600000_S1x1600000_0_0 (V (main_arg6 : DevRef τ sig)) := by
  after_results
  rfl
attribute [local irreducible] Host.gather Host.scatterAdd in
/-- … and the edges' target nodes, row 1. -/
theorem h0_v3 (V : Valuation τ sig (Elt F)) :
    after hostOps0 V (main_v3 : DevRef τ sig)
      = Cert.ReferenceIdeal.Hand.idxRow 1 Cert.ReferenceIdeal.Facts₀.slices_S2x1600000_S1x1600000_1_0 (V (main_arg6 : DevRef τ sig)) := by
  after_results
  rfl
attribute [local irreducible] Host.gather Host.scatterAdd in
/-- The node features gathered by source node. -/
theorem h0_v10 (V : Valuation τ sig (Elt F)) :
    after hostOps0 V (main_v10 : DevRef τ sig)
      = Host.gather Cert.ReferenceIdeal.gather_S100000x32_S1600000x1_S1600000x32_1_0_n_n_0_1_132 (V (main_arg0 : DevRef τ sig))
          (Cert.ReferenceIdeal.Hand.srcIdx (Cert.ReferenceIdeal.Hand.idxRow 0 Cert.ReferenceIdeal.Facts₀.slices_S2x1600000_S1x1600000_0_0 (V (main_arg6 : DevRef τ sig)))) := by
  after_results
  rfl
attribute [local irreducible] Host.gather Host.scatterAdd in
/-- Slab 0 of the edge matrices. -/
theorem h0_v12 (V : Valuation τ sig (Elt F)) :
    after hostOps0 V (main_v12 : DevRef τ sig)
      = Cert.ReferenceIdeal.Hand.WeSlab 0 Cert.ReferenceIdeal.Facts₀.slices_S3x8x32_S1x8x32_0_0_0 (V (main_arg4 : DevRef τ sig)) := by
  after_results
  rfl
attribute [local irreducible] Host.gather Host.scatterAdd in
/-- Row 0 of the edge biases, as a [1, 32] row. -/
theorem h0_v15 (V : Valuation τ sig (Elt F)) :
    after hostOps0 V (main_v15 : DevRef τ sig)
      = shapeCast S1x32 (Cert.ReferenceIdeal.Hand.vecRow 0 Cert.ReferenceIdeal.Facts₀.slices_S3x32_S1x32_0_0 (V (main_arg5 : DevRef τ sig))) shapeCasts_S32_S1x32 := by
  after_results
  rfl
attribute [local irreducible] Host.gather Host.scatterAdd in
/-- Layer 0: the messages added into an all-zero node array by target node. -/
theorem h1_agg (V : Valuation τ sig (Elt F)) :
    after hostOps1 V (main_v19 : DevRef τ sig)
      = Host.scatterAdd Cert.ReferenceIdeal.scatter_S100000x32_S1600000x1_S1600000x32_1_0_0_1 (Cert.ReferenceIdeal.Hand.zerosN (F := F))
          (Cert.ReferenceIdeal.Hand.dstIdx (V (main_v3 : DevRef τ sig))) (V (main_v16 : DevRef τ sig)) := by
  after_results
  rfl
attribute [local irreducible] Host.gather Host.scatterAdd in
/-- Slab 0 of the node matrices. -/
theorem h1_W (V : Valuation τ sig (Elt F)) :
    after hostOps1 V (main_v21 : DevRef τ sig)
      = Cert.ReferenceIdeal.Hand.WSlab 0 Cert.ReferenceIdeal.Facts₀.slices_S3x32x32_S1x32x32_0_0_0 (V (main_arg2 : DevRef τ sig)) := by
  after_results
  rfl
attribute [local irreducible] Host.gather Host.scatterAdd in
/-- Row 0 of the node biases, as a [1, 32] row. -/
theorem h1_b (V : Valuation τ sig (Elt F)) :
    after hostOps1 V (main_v24 : DevRef τ sig)
      = shapeCast S1x32 (Cert.ReferenceIdeal.Hand.vecRow 0 Cert.ReferenceIdeal.Facts₀.slices_S3x32_S1x32_0_0 (V (main_arg3 : DevRef τ sig))) shapeCasts_S32_S1x32 := by
  after_results
  rfl
attribute [local irreducible] Host.gather Host.scatterAdd in
/-- Layer 1: the node features gathered by source node. -/
theorem h2_g (V : Valuation τ sig (Elt F)) :
    after hostOps2 V (main_v32 : DevRef τ sig)
      = Host.gather Cert.ReferenceIdeal.gather_S100000x32_S1600000x1_S1600000x32_1_0_n_n_0_1_132 (V (main_v25 : DevRef τ sig)) (Cert.ReferenceIdeal.Hand.srcIdx (V (main_v1 : DevRef τ sig))) := by
  after_results
  rfl
attribute [local irreducible] Host.gather Host.scatterAdd in
/-- Slab 1 of the edge matrices. -/
theorem h2_We (V : Valuation τ sig (Elt F)) :
    after hostOps2 V (main_v34 : DevRef τ sig)
      = Cert.ReferenceIdeal.Hand.WeSlab 1 Cert.ReferenceIdeal.Facts₀.slices_S3x8x32_S1x8x32_1_0_0 (V (main_arg4 : DevRef τ sig)) := by
  after_results
  rfl
attribute [local irreducible] Host.gather Host.scatterAdd in
/-- Row 1 of the edge biases, as a [1, 32] row. -/
theorem h2_be (V : Valuation τ sig (Elt F)) :
    after hostOps2 V (main_v37 : DevRef τ sig)
      = shapeCast S1x32 (Cert.ReferenceIdeal.Hand.vecRow 1 Cert.ReferenceIdeal.Facts₀.slices_S3x32_S1x32_1_0 (V (main_arg5 : DevRef τ sig))) shapeCasts_S32_S1x32 := by
  after_results
  rfl
attribute [local irreducible] Host.gather Host.scatterAdd in
/-- Layer 1: the messages added into an all-zero node array by target node. -/
theorem h3_agg (V : Valuation τ sig (Elt F)) :
    after hostOps3 V (main_v41 : DevRef τ sig)
      = Host.scatterAdd Cert.ReferenceIdeal.scatter_S100000x32_S1600000x1_S1600000x32_1_0_0_1 (Cert.ReferenceIdeal.Hand.zerosN (F := F))
          (Cert.ReferenceIdeal.Hand.dstIdx (V (main_v3 : DevRef τ sig))) (V (main_v38 : DevRef τ sig)) := by
  after_results
  rfl
attribute [local irreducible] Host.gather Host.scatterAdd in
/-- Slab 1 of the node matrices. -/
theorem h3_W (V : Valuation τ sig (Elt F)) :
    after hostOps3 V (main_v43 : DevRef τ sig)
      = Cert.ReferenceIdeal.Hand.WSlab 1 Cert.ReferenceIdeal.Facts₀.slices_S3x32x32_S1x32x32_1_0_0 (V (main_arg2 : DevRef τ sig)) := by
  after_results
  rfl
attribute [local irreducible] Host.gather Host.scatterAdd in
/-- Row 1 of the node biases, as a [1, 32] row. -/
theorem h3_b (V : Valuation τ sig (Elt F)) :
    after hostOps3 V (main_v46 : DevRef τ sig)
      = shapeCast S1x32 (Cert.ReferenceIdeal.Hand.vecRow 1 Cert.ReferenceIdeal.Facts₀.slices_S3x32_S1x32_1_0 (V (main_arg3 : DevRef τ sig))) shapeCasts_S32_S1x32 := by
  after_results
  rfl
attribute [local irreducible] Host.gather Host.scatterAdd in
/-- Layer 2: the node features gathered by source node. -/
theorem h4_g (V : Valuation τ sig (Elt F)) :
    after hostOps4 V (main_v54 : DevRef τ sig)
      = Host.gather Cert.ReferenceIdeal.gather_S100000x32_S1600000x1_S1600000x32_1_0_n_n_0_1_132 (V (main_v47 : DevRef τ sig)) (Cert.ReferenceIdeal.Hand.srcIdx (V (main_v1 : DevRef τ sig))) := by
  after_results
  rfl
attribute [local irreducible] Host.gather Host.scatterAdd in
/-- Slab 2 of the edge matrices. -/
theorem h4_We (V : Valuation τ sig (Elt F)) :
    after hostOps4 V (main_v56 : DevRef τ sig)
      = Cert.ReferenceIdeal.Hand.WeSlab 2 Cert.ReferenceIdeal.Facts₀.slices_S3x8x32_S1x8x32_2_0_0 (V (main_arg4 : DevRef τ sig)) := by
  after_results
  rfl
attribute [local irreducible] Host.gather Host.scatterAdd in
/-- Row 2 of the edge biases, as a [1, 32] row. -/
theorem h4_be (V : Valuation τ sig (Elt F)) :
    after hostOps4 V (main_v59 : DevRef τ sig)
      = shapeCast S1x32 (Cert.ReferenceIdeal.Hand.vecRow 2 Cert.ReferenceIdeal.Facts₀.slices_S3x32_S1x32_2_0 (V (main_arg5 : DevRef τ sig))) shapeCasts_S32_S1x32 := by
  after_results
  rfl
attribute [local irreducible] Host.gather Host.scatterAdd in
/-- Layer 2: the messages added into an all-zero node array by target node. -/
theorem h5_agg (V : Valuation τ sig (Elt F)) :
    after hostOps5 V (main_v63 : DevRef τ sig)
      = Host.scatterAdd Cert.ReferenceIdeal.scatter_S100000x32_S1600000x1_S1600000x32_1_0_0_1 (Cert.ReferenceIdeal.Hand.zerosN (F := F))
          (Cert.ReferenceIdeal.Hand.dstIdx (V (main_v3 : DevRef τ sig))) (V (main_v60 : DevRef τ sig)) := by
  after_results
  rfl
attribute [local irreducible] Host.gather Host.scatterAdd in
/-- Slab 2 of the node matrices. -/
theorem h5_W (V : Valuation τ sig (Elt F)) :
    after hostOps5 V (main_v65 : DevRef τ sig)
      = Cert.ReferenceIdeal.Hand.WSlab 2 Cert.ReferenceIdeal.Facts₀.slices_S3x32x32_S1x32x32_2_0_0 (V (main_arg2 : DevRef τ sig)) := by
  after_results
  rfl
attribute [local irreducible] Host.gather Host.scatterAdd in
/-- Row 2 of the node biases, as a [1, 32] row. -/
theorem h5_b (V : Valuation τ sig (Elt F)) :
    after hostOps5 V (main_v68 : DevRef τ sig)
      = shapeCast S1x32 (Cert.ReferenceIdeal.Hand.vecRow 2 Cert.ReferenceIdeal.Facts₀.slices_S3x32_S1x32_2_0 (V (main_arg3 : DevRef τ sig))) shapeCasts_S32_S1x32 := by
  after_results
  rfl

/-! ## What each stretch writes, and that it keeps everything else -/

/-- The buffers stretch 0 writes. -/
abbrev wr0 : List (Ref sig .tc) := [main_v0, main_v1, main_v2, main_v3, main_c, main_v4, main_v5, main_c_0, main_v6, main_v7, main_v8, main_v9, main_v10, main_v11, main_v12, main_v13, main_v14, main_v15]
theorem hostOps0_writes : (hostOps0 : List (HloOp τ sig (Elt F))).Forall fun op => op.writes ⊆ (wr0.map (Proc.devRef (τ := τ) .tc)).toFinset := by
  simp only [hostOps0, List.Forall]
  repeat' apply And.intro
  all_goals (simp only [nullary_writes, unary_writes, binary_writes, ternary_writes, reshape_writes, Finset.singleton_subset_iff, List.mem_toFinset]; exact List.mem_map_of_mem (by decide))
/-- A buffer stretch 0 does not write keeps its contents. -/
theorem keepH0 (V : Valuation τ sig (Elt F)) (r : Ref sig .tc) (h : r ∉ wr0) :
    after hostOps0 V (Proc.devRef .tc r) = V (Proc.devRef .tc r) :=
  after_of_writes_sub hostOps0 V hostOps0_writes h

/-- The buffers stretch 1 writes. -/
abbrev wr1 : List (Ref sig .tc) := [main_cst, main_v17, main_v18, main_v19, main_v20, main_v21, main_v22, main_v23, main_v24]
theorem hostOps1_writes : (hostOps1 : List (HloOp τ sig (Elt F))).Forall fun op => op.writes ⊆ (wr1.map (Proc.devRef (τ := τ) .tc)).toFinset := by
  simp only [hostOps1, List.Forall]
  repeat' apply And.intro
  all_goals (simp only [nullary_writes, unary_writes, binary_writes, ternary_writes, reshape_writes, Finset.singleton_subset_iff, List.mem_toFinset]; exact List.mem_map_of_mem (by decide))
/-- A buffer stretch 1 does not write keeps its contents. -/
theorem keepH1 (V : Valuation τ sig (Elt F)) (r : Ref sig .tc) (h : r ∉ wr1) :
    after hostOps1 V (Proc.devRef .tc r) = V (Proc.devRef .tc r) :=
  after_of_writes_sub hostOps1 V hostOps1_writes h

/-- The buffers stretch 2 writes. -/
abbrev wr2 : List (Ref sig .tc) := [main_c_1, main_v26, main_v27, main_c_2, main_v28, main_v29, main_v30, main_v31, main_v32, main_v33, main_v34, main_v35, main_v36, main_v37]
theorem hostOps2_writes : (hostOps2 : List (HloOp τ sig (Elt F))).Forall fun op => op.writes ⊆ (wr2.map (Proc.devRef (τ := τ) .tc)).toFinset := by
  simp only [hostOps2, List.Forall]
  repeat' apply And.intro
  all_goals (simp only [nullary_writes, unary_writes, binary_writes, ternary_writes, reshape_writes, Finset.singleton_subset_iff, List.mem_toFinset]; exact List.mem_map_of_mem (by decide))
/-- A buffer stretch 2 does not write keeps its contents. -/
theorem keepH2 (V : Valuation τ sig (Elt F)) (r : Ref sig .tc) (h : r ∉ wr2) :
    after hostOps2 V (Proc.devRef .tc r) = V (Proc.devRef .tc r) :=
  after_of_writes_sub hostOps2 V hostOps2_writes h

/-- The buffers stretch 3 writes. -/
abbrev wr3 : List (Ref sig .tc) := [main_cst_3, main_v39, main_v40, main_v41, main_v42, main_v43, main_v44, main_v45, main_v46]
theorem hostOps3_writes : (hostOps3 : List (HloOp τ sig (Elt F))).Forall fun op => op.writes ⊆ (wr3.map (Proc.devRef (τ := τ) .tc)).toFinset := by
  simp only [hostOps3, List.Forall]
  repeat' apply And.intro
  all_goals (simp only [nullary_writes, unary_writes, binary_writes, ternary_writes, reshape_writes, Finset.singleton_subset_iff, List.mem_toFinset]; exact List.mem_map_of_mem (by decide))
/-- A buffer stretch 3 does not write keeps its contents. -/
theorem keepH3 (V : Valuation τ sig (Elt F)) (r : Ref sig .tc) (h : r ∉ wr3) :
    after hostOps3 V (Proc.devRef .tc r) = V (Proc.devRef .tc r) :=
  after_of_writes_sub hostOps3 V hostOps3_writes h

/-- The buffers stretch 4 writes. -/
abbrev wr4 : List (Ref sig .tc) := [main_c_4, main_v48, main_v49, main_c_5, main_v50, main_v51, main_v52, main_v53, main_v54, main_v55, main_v56, main_v57, main_v58, main_v59]
theorem hostOps4_writes : (hostOps4 : List (HloOp τ sig (Elt F))).Forall fun op => op.writes ⊆ (wr4.map (Proc.devRef (τ := τ) .tc)).toFinset := by
  simp only [hostOps4, List.Forall]
  repeat' apply And.intro
  all_goals (simp only [nullary_writes, unary_writes, binary_writes, ternary_writes, reshape_writes, Finset.singleton_subset_iff, List.mem_toFinset]; exact List.mem_map_of_mem (by decide))
/-- A buffer stretch 4 does not write keeps its contents. -/
theorem keepH4 (V : Valuation τ sig (Elt F)) (r : Ref sig .tc) (h : r ∉ wr4) :
    after hostOps4 V (Proc.devRef .tc r) = V (Proc.devRef .tc r) :=
  after_of_writes_sub hostOps4 V hostOps4_writes h

/-- The buffers stretch 5 writes. -/
abbrev wr5 : List (Ref sig .tc) := [main_cst_6, main_v61, main_v62, main_v63, main_v64, main_v65, main_v66, main_v67, main_v68]
theorem hostOps5_writes : (hostOps5 : List (HloOp τ sig (Elt F))).Forall fun op => op.writes ⊆ (wr5.map (Proc.devRef (τ := τ) .tc)).toFinset := by
  simp only [hostOps5, List.Forall]
  repeat' apply And.intro
  all_goals (simp only [nullary_writes, unary_writes, binary_writes, ternary_writes, reshape_writes, Finset.singleton_subset_iff, List.mem_toFinset]; exact List.mem_map_of_mem (by decide))
/-- A buffer stretch 5 does not write keeps its contents. -/
theorem keepH5 (V : Valuation τ sig (Elt F)) (r : Ref sig .tc) (h : r ∉ wr5) :
    after hostOps5 V (Proc.devRef .tc r) = V (Proc.devRef .tc r) :=
  after_of_writes_sub hostOps5 V hostOps5_writes h

end Cert.KernelIdeal.Hand

end
-- ==== Proof.Spec.lean ====
/-
  ONE MESSAGE-PASSING LAYER, ELEMENT BY ELEMENT.

  A layer of the network takes node features x : [N, 32], edge features ea : [E, 8], a source and a target node per
  edge, and four parameters (an [8, 32] edge matrix We with a bias row, a [32, 32] node matrix W with a bias row):

    message of edge e, channel d :  max( x[src e, d] + ( Σ_k ea[e, k] · We[k, d] + be[d] ), 0 )
    new feature of node n, channel d :  leaky( Σ_k ( x[n, k] + agg[n, k] ) · W[k, d] + b[d] )

  where agg[n, ·] is the sum of the messages of the edges whose target is n, and leaky(v) is v for v > 0 and
  v · 0.01 (the single-precision number nearest 0.01) otherwise. Gathering rows by source and summing rows by target
  are not opened here: only the two dense stages are written at an element, over any number of rows, so that the
  same two functions describe a block of rows and the whole array.
-/
import Idealize.ShloMosaic.PureOps.Ideal
import Idealize.ShloMosaic.Lib.ValueIdx

noncomputable section

open scoped BigOperators

namespace Cert.Gine

open Idealize.ShloMosaic Idealize.ShloMosaic.ValueIdx

/-- The number the zero word denotes. -/
abbrev zero32 : EReal := Ideal.ofBits .f32 0x00000000#32
/-- The single-precision number nearest 0.01: the slope below zero. -/
abbrev slope : EReal := Ideal.ofBits .f32 0x3C23D70A#32

/-- v above zero, v · slope otherwise. -/
def leaky (v : EReal) : EReal := if zero32 < v then v else v * slope

/-- The message of row e, channel d: the gathered feature plus the edge's embedded features, cut off below at zero. -/
def edgeAt {E : Nat} (ea : FVec Ideal ⟨2, ![E, 8]⟩ .f32) (xs : FVec Ideal ⟨2, ![E, 32]⟩ .f32)
    (We : FVec Ideal ⟨2, ![8, 32]⟩ .f32) (ber : FVec Ideal ⟨2, ![1, 32]⟩ .f32) (e : Fin E) (d : Fin 32) : EReal :=
  max (xs (ix2 e d) + ((∑ k : Fin 8, ea (ix2 e k) * We (ix2 k d)) + ber (ix2 (0 : Fin 1) d))) zero32

/-- The new feature of row n, channel d: the feature plus the summed messages, through the node matrix and bias,
    then the leaky cut-off. -/
def nodeAt {N : Nat} (x agg : FVec Ideal ⟨2, ![N, 32]⟩ .f32) (W : FVec Ideal ⟨2, ![32, 32]⟩ .f32)
    (br : FVec Ideal ⟨2, ![1, 32]⟩ .f32) (n : Fin N) (d : Fin 32) : EReal :=
  leaky ((∑ k : Fin 32, (x (ix2 n k) + agg (ix2 n k)) * W (ix2 k d)) + br (ix2 (0 : Fin 1) d))

/-- All the messages, as one array. -/
def edgeReg {E : Nat} (ea : FVec Ideal ⟨2, ![E, 8]⟩ .f32) (xs : FVec Ideal ⟨2, ![E, 32]⟩ .f32)
    (We : FVec Ideal ⟨2, ![8, 32]⟩ .f32) (ber : FVec Ideal ⟨2, ![1, 32]⟩ .f32) : FVec Ideal ⟨2, ![E, 32]⟩ .f32 :=
  fun i => edgeAt ea xs We ber (i 0) (i 1)

/-- All the new features, as one array. -/
def nodeReg {N : Nat} (x agg : FVec Ideal ⟨2, ![N, 32]⟩ .f32) (W : FVec Ideal ⟨2, ![32, 32]⟩ .f32)
    (br : FVec Ideal ⟨2, ![1, 32]⟩ .f32) : FVec Ideal ⟨2, ![N, 32]⟩ .f32 :=
  fun j => nodeAt x agg W br (j 0) (j 1)

theorem edgeReg_ix2 {E : Nat} (ea : FVec Ideal ⟨2, ![E, 8]⟩ .f32) (xs : FVec Ideal ⟨2, ![E, 32]⟩ .f32)
    (We : FVec Ideal ⟨2, ![8, 32]⟩ .f32) (ber : FVec Ideal ⟨2, ![1, 32]⟩ .f32) (e : Fin E) (d : Fin 32) :
    edgeReg ea xs We ber (ix2 e d) = edgeAt ea xs We ber e d := rfl

theorem nodeReg_ix2 {N : Nat} (x agg : FVec Ideal ⟨2, ![N, 32]⟩ .f32) (W : FVec Ideal ⟨2, ![32, 32]⟩ .f32)
    (br : FVec Ideal ⟨2, ![1, 32]⟩ .f32) (n : Fin N) (d : Fin 32) :
    nodeReg x agg W br (ix2 n d) = nodeAt x agg W br n d := rfl

end Cert.Gine

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«112617_j57896159150675_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.Bridge.lean ====
/-
  THE REFERENCE'S TWO DENSE STAGES ARE THE ELEMENT-LEVEL ONES.

  Over the extended reals the reference's message array — max(G + (ea · We + be), 0) with the bias vector broadcast
  down the rows — has at (e, d) the value  max( G(e,d) + ( Σ_k ea(e,k)·We(k,d) + be(d) ), 0 ): the host's dot is the plain
  sum over k, and a vector broadcast to a row and down the rows reads its entry d. The reference's node stage has at (n, d)
  the leaky cut-off of  Σ_k (1·X(n,k) + A(n,k))·W(k,d) + b(d);  1·x = x on every extended real, and the two spellings of
  the cut-off agree: where h > 0 both give h; at h = 0 one gives h = 0 and the other 0·c = 0; below zero c·h = h·c.
  No entry needs to be finite for any of this.
-/
import proofs.«112617_j57896159150675_1_alg».proof.Proof.Spec
import proofs.«112617_j57896159150675_1_alg».proof.Proof.RefTerms
import proofs.«112617_j57896159150675_1_alg».proof.Proof.LibRowReads

noncomputable section

open scoped BigOperators

namespace Cert.Bridge

open Idealize.ShloMosaic Idealize.ShloMosaic.ValueIdx Cert.ReferenceIdeal Cert.ReferenceIdeal.Facts₀
open Cert.ReferenceIdeal.Hand Cert.Gine

/-- The two spellings of the leaky cut-off agree on every extended real. -/
theorem leaky_eq (v : EReal) :
    Scalar.select (Ideal.cmp .oge v zero32) v (slope * v) = leaky v := by
  unfold leaky Scalar.select Ideal.cmp
  by_cases h1 : zero32 < v
  · rw [if_pos h1, decide_eq_true (le_of_lt h1)]; rfl
  · rw [if_neg h1]
    by_cases h2 : zero32 ≤ v
    · have hv : v = zero32 := le_antisymm (not_lt.mp h1) h2
      rw [decide_eq_true h2]
      show v = v * slope
      rw [hv]
      show zero32 = zero32 * slope
      rw [show zero32 = 0 from Ideal.ofBits_zero_f32, zero_mul]
    · rw [decide_eq_false h2]
      show slope * v = v * slope
      exact mul_comm _ _

/-- The reference's messages are the element-level messages, the bias vector laid as a row. -/
theorem msg_eq (ea : FVec Ideal S1600000x8 .f32) (Wl : FVec Ideal S8x32 .f32) (bl : FVec Ideal S32 .f32)
    (G : FVec Ideal S1600000x32 .f32) (h : S32.ShapeCasts S1x32) :
    msg (F := Ideal) ea Wl bl G = edgeReg ea G Wl (shapeCast S1x32 bl h) := by
  funext i
  obtain ⟨e, d, rfl⟩ : ∃ (e : Fin 1600000) (d : Fin 32), i = ix2 e d := ⟨i 0, i 1, eq_ix2 i⟩
  rw [edgeReg_ix2]
  unfold msg edgeAt
  rw [maximumf_apply, addf_apply, addf_apply,
    Cert.Lib.dotGeneral_at _ rfl rfl rfl rfl rfl rfl none ea Wl e d,
    Cert.Lib.bcastInDim_vecRows_apply bcast_S32_S1x32_1 bcast_S1x32_S1600000x32_0_1 bl e d,
    Cert.Lib.bcast_const_apply (φ := .f32) bcast_S_S1600000x32 0x00000000#32 (ix2 e d),
    shapeCast_a_1a_apply bl h (0 : Fin 1) d]

/-- The reference's node stage is the element-level one, the bias vector laid as a row. -/
theorem upd_eq (Wl : FVec Ideal S32x32 .f32) (bl : FVec Ideal S32 .f32) (X A : FVec Ideal S100000x32 .f32)
    (h : S32.ShapeCasts S1x32) :
    act (F := Ideal) (lin Wl bl X A) = nodeReg X A Wl (shapeCast S1x32 bl h) := by
  funext i
  obtain ⟨n, d, rfl⟩ : ∃ (n : Fin 100000) (d : Fin 32), i = ix2 n d := ⟨i 0, i 1, eq_ix2 i⟩
  rw [nodeReg_ix2]
  have hl : lin (F := Ideal) Wl bl X A (ix2 n d)
      = (∑ k : Fin 32, (X (ix2 n k) + A (ix2 n k)) * Wl (ix2 k d)) + shapeCast S1x32 bl h (ix2 (0 : Fin 1) d) := by
    unfold lin
    rw [addf_apply, Cert.Lib.dotGeneral_at _ rfl rfl rfl rfl rfl rfl none _ Wl n d,
      Cert.Lib.bcastInDim_vecRows_apply bcast_S32_S1x32_1 bcast_S1x32_S100000x32_0_1 bl n d,
      shapeCast_a_1a_apply bl h (0 : Fin 1) d]
    refine congrArg (· + bl (ix1 d)) (Finset.sum_congr rfl fun k _ => ?_)
    rw [addf_apply, mulf_apply, Cert.Lib.bcast_const_apply (φ := .f32) bcast_S_S100000x32 0x3F800000#32 (ix2 n k),
      Ideal.ofBits_one_f32, one_mul]
  unfold act nodeAt
  rw [select_apply, cmpf_apply, mulf_apply, hl]
  unfold zerosN
  rw [Cert.Lib.bcast_const_apply (φ := .f32) bcast_S_S100000x32 0x00000000#32 (ix2 n d), id_eq,
    Cert.Lib.bcast_const_apply (φ := .f32) bcast_S_S100000x32 0x3C23D70A#32 (ix2 n d)]
  exact leaky_eq _

end Cert.Bridge

end
-- ==== Proof.KChain.lean ====
/-
  THE KERNEL PROGRAM'S FOLD, READ A LAYER AT A TIME.

  The contents at the twelve segment boundaries are a fold over the launch memory. Five argument arrays and the two
  vectors of source and target nodes are written at most once, in the first stretch, and every later segment keeps
  them; the node features of a layer are kept from where they are made to where the layer's node kernel reads them.
  With that, a layer reads: the features gathered by source; the edge kernel's array of messages; the messages added
  by target into zeros; the node kernel's array of new features — and, the two kernels' arrays being the element-level
  dense stages, which are the reference's (the bias vector laid as a row either way), the layer is the reference's layer
  of the same arguments. Three layers in a row give the reference's network.
-/
import proofs.«112617_j57896159150675_1_alg».proof.Proof.KRun
import proofs.«112617_j57896159150675_1_alg».proof.Proof.KHost
import proofs.«112617_j57896159150675_1_alg».proof.Proof.Bridge

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## A kernel keeps every buffer but its output -/

/-- Kernel 0 leaves every buffer but its output as it found it: an input array is only read, any other buffer is
    not among its windows. -/
theorem keepR0 (c : Dev nD) (r : Ref sig .tc) (hr : r ≠ main_v16) :
    W2 m ρ c (Proc.devRef .tc r) = W1 m ρ c (Proc.devRef .tc r) := by
  by_cases h : ∃ w, Pipeline.arrRef spec0 w = r
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact (W2_arr m ρ c 3).trans (((dat0 (V1 m ρ) c).arrAt_in 3 rfl _).trans (A_eq0 (V1 m ρ) c 3))
    | ⟨4, _⟩ => exact absurd rfl hr
  · exact W2_of_ne m ρ c r fun w e => h ⟨w, e⟩

/-- Kernel 1 leaves every buffer but its output as it found it: an input array is only read, any other buffer is
    not among its windows. -/
theorem keepR1 (c : Dev nD) (r : Ref sig .tc) (hr : r ≠ main_v25) :
    W4 m ρ c (Proc.devRef .tc r) = W3 m ρ c (Proc.devRef .tc r) := by
  by_cases h : ∃ w, Pipeline.arrRef spec1 w = r
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact absurd rfl hr
  · exact W4_of_ne m ρ c r fun w e => h ⟨w, e⟩

/-- Kernel 2 leaves every buffer but its output as it found it: an input array is only read, any other buffer is
    not among its windows. -/
theorem keepR2 (c : Dev nD) (r : Ref sig .tc) (hr : r ≠ main_v38) :
    W6 m ρ c (Proc.devRef .tc r) = W5 m ρ c (Proc.devRef .tc r) := by
  by_cases h : ∃ w, Pipeline.arrRef spec2 w = r
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (W6_arr m ρ c 3).trans (((dat2 (V5 m ρ) c).arrAt_in 3 rfl _).trans (A_eq2 (V5 m ρ) c 3))
    | ⟨4, _⟩ => exact absurd rfl hr
  · exact W6_of_ne m ρ c r fun w e => h ⟨w, e⟩

/-- Kernel 3 leaves every buffer but its output as it found it: an input array is only read, any other buffer is
    not among its windows. -/
theorem keepR3 (c : Dev nD) (r : Ref sig .tc) (hr : r ≠ main_v47) :
    W8 m ρ c (Proc.devRef .tc r) = W7 m ρ c (Proc.devRef .tc r) := by
  by_cases h : ∃ w, Pipeline.arrRef spec3 w = r
  · obtain ⟨w, rfl⟩ := h
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (W8_arr m ρ c 3).trans (((dat3 (V7 m ρ) c).arrAt_in 3 rfl _).trans (A_eq3 (V7 m ρ) c 3))
    | ⟨4, _⟩ => exact absurd rfl hr
  · exact W8_of_ne m ρ c r fun w e => h ⟨w, e⟩

/-- Kernel 4 leaves every buffer but its output as it found it: an input array is only read, any other buffer is
    not among its windows. -/
theorem keepR4 (c : Dev nD) (r : Ref sig .tc) (hr : r ≠ main_v60) :
    W10 m ρ c (Proc.devRef .tc r) = W9 m ρ c (Proc.devRef .tc r) := by
  by_cases h : ∃ w, Pipeline.arrRef spec4 w = r
  · obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (W10_arr m ρ c 3).trans (((dat4 (V9 m ρ) c).arrAt_in 3 rfl _).trans (A_eq4 (V9 m ρ) c 3))
    | ⟨4, _⟩ => exact absurd rfl hr
  · exact W10_of_ne m ρ c r fun w e => h ⟨w, e⟩

/-- Kernel 5 leaves every buffer but its output as it found it: an input array is only read, any other buffer is
    not among its windows. -/
theorem keepR5 (c : Dev nD) (r : Ref sig .tc) (hr : r ≠ main_v69) :
    W12 m ρ c (Proc.devRef .tc r) = W11 m ρ c (Proc.devRef .tc r) := by
  by_cases h : ∃ w, Pipeline.arrRef spec5 w = r
  · obtain ⟨w, rfl⟩ := h
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact (W12_arr m ρ c 3).trans (((dat5 (V11 m ρ) c).arrAt_in 3 rfl _).trans (A_eq5 (V11 m ρ) c 3))
    | ⟨4, _⟩ => exact absurd rfl hr
  · exact W12_of_ne m ρ c r fun w e => h ⟨w, e⟩

/-! ## The buffers written at most once -/

/-- Five argument arrays and the vectors of source and target nodes: written at most once, in the first stretch. -/
abbrev stable : List (Ref sig .tc) := [main_arg1, main_arg2, main_arg3, main_arg4, main_arg5, main_v1, main_v3]

theorem st2 (c : Dev nD) (r : Ref sig .tc) (hr : r ∈ stable) : W2 m ρ c (Proc.devRef .tc r) = W1 m ρ c (Proc.devRef .tc r) :=
  keepR0 m ρ c r ((by decide : ∀ r ∈ stable, r ≠ main_v16) r hr)
theorem st3 (c : Dev nD) (r : Ref sig .tc) (hr : r ∈ stable) : W3 m ρ c (Proc.devRef .tc r) = W1 m ρ c (Proc.devRef .tc r) :=
  (keepH1 (W2 m ρ c) r ((by decide : ∀ r ∈ stable, r ∉ wr1) r hr)).trans (st2 m ρ c r hr)
theorem st4 (c : Dev nD) (r : Ref sig .tc) (hr : r ∈ stable) : W4 m ρ c (Proc.devRef .tc r) = W1 m ρ c (Proc.devRef .tc r) :=
  (keepR1 m ρ c r ((by decide : ∀ r ∈ stable, r ≠ main_v25) r hr)).trans (st3 m ρ c r hr)
theorem st5 (c : Dev nD) (r : Ref sig .tc) (hr : r ∈ stable) : W5 m ρ c (Proc.devRef .tc r) = W1 m ρ c (Proc.devRef .tc r) :=
  (keepH2 (W4 m ρ c) r ((by decide : ∀ r ∈ stable, r ∉ wr2) r hr)).trans (st4 m ρ c r hr)
theorem st6 (c : Dev nD) (r : Ref sig .tc) (hr : r ∈ stable) : W6 m ρ c (Proc.devRef .tc r) = W1 m ρ c (Proc.devRef .tc r) :=
  (keepR2 m ρ c r ((by decide : ∀ r ∈ stable, r ≠ main_v38) r hr)).trans (st5 m ρ c r hr)
theorem st7 (c : Dev nD) (r : Ref sig .tc) (hr : r ∈ stable) : W7 m ρ c (Proc.devRef .tc r) = W1 m ρ c (Proc.devRef .tc r) :=
  (keepH3 (W6 m ρ c) r ((by decide : ∀ r ∈ stable, r ∉ wr3) r hr)).trans (st6 m ρ c r hr)
theorem st8 (c : Dev nD) (r : Ref sig .tc) (hr : r ∈ stable) : W8 m ρ c (Proc.devRef .tc r) = W1 m ρ c (Proc.devRef .tc r) :=
  (keepR3 m ρ c r ((by decide : ∀ r ∈ stable, r ≠ main_v47) r hr)).trans (st7 m ρ c r hr)
theorem st9 (c : Dev nD) (r : Ref sig .tc) (hr : r ∈ stable) : W9 m ρ c (Proc.devRef .tc r) = W1 m ρ c (Proc.devRef .tc r) :=
  (keepH4 (W8 m ρ c) r ((by decide : ∀ r ∈ stable, r ∉ wr4) r hr)).trans (st8 m ρ c r hr)
theorem st10 (c : Dev nD) (r : Ref sig .tc) (hr : r ∈ stable) : W10 m ρ c (Proc.devRef .tc r) = W1 m ρ c (Proc.devRef .tc r) :=
  (keepR4 m ρ c r ((by decide : ∀ r ∈ stable, r ≠ main_v60) r hr)).trans (st9 m ρ c r hr)
theorem st11 (c : Dev nD) (r : Ref sig .tc) (hr : r ∈ stable) : W11 m ρ c (Proc.devRef .tc r) = W1 m ρ c (Proc.devRef .tc r) :=
  (keepH5 (W10 m ρ c) r ((by decide : ∀ r ∈ stable, r ∉ wr5) r hr)).trans (st10 m ρ c r hr)

/-- After the first stretch an argument array it does not write is as launched. -/
theorem w1_arg (c : Dev nD) (r : Ref sig .tc) (hr : r ∉ wr0) : W1 m ρ c (Proc.devRef .tc r) = m ((c : Thread nD τ).loc r) :=
  keepH0 (W0 m ρ c) r hr
/-- … and the two vectors are the edge table's rows. -/
theorem w1_s (c : Dev nD) : W1 m ρ c (Proc.devRef .tc main_v1) = (Cert.ReferenceIdeal.Hand.idxRow 0 Cert.ReferenceIdeal.Facts₀.slices_S2x1600000_S1x1600000_0_0 (m ((c : Thread nD τ).loc main_arg6))) := h0_v1 (W0 m ρ c)
theorem w1_t (c : Dev nD) : W1 m ρ c (Proc.devRef .tc main_v3) = (Cert.ReferenceIdeal.Hand.idxRow 1 Cert.ReferenceIdeal.Facts₀.slices_S2x1600000_S1x1600000_1_0 (m ((c : Thread nD τ).loc main_arg6))) := h0_v3 (W0 m ρ c)

/-! ## Congruences of the two dense stages -/

theorem edgeReg_congr {E : Nat} {ea ea' : FVec Ideal ⟨2, ![E, 8]⟩ .f32} {xs xs' : FVec Ideal ⟨2, ![E, 32]⟩ .f32}
    {We We' : FVec Ideal ⟨2, ![8, 32]⟩ .f32} {ber ber' : FVec Ideal ⟨2, ![1, 32]⟩ .f32}
    (h1 : ea = ea') (h2 : xs = xs') (h3 : We = We') (h4 : ber = ber') :
    Cert.Gine.edgeReg ea xs We ber = Cert.Gine.edgeReg ea' xs' We' ber' := by subst h1 h2 h3 h4; rfl

theorem nodeReg_congr {N : Nat} {x x' agg agg' : FVec Ideal ⟨2, ![N, 32]⟩ .f32}
    {W W' : FVec Ideal ⟨2, ![32, 32]⟩ .f32} {br br' : FVec Ideal ⟨2, ![1, 32]⟩ .f32}
    (h1 : x = x') (h2 : agg = agg') (h3 : W = W') (h4 : br = br') :
    Cert.Gine.nodeReg x agg W br = Cert.Gine.nodeReg x' agg' W' br' := by subst h1 h2 h3 h4; rfl

/-! ## The layers -/

/-- Layer 0: the node kernel's array is the reference's layer 0 of the features the layer starts from. -/
theorem layer0_out
    (hE : ∀ (V : (c : Dev nD) → (b : Ref sig .tc) → Buf (Elt Ideal) ((c : Thread nD τ).loc b)) (c : Dev nD),
      (dat0 (F := Ideal) V c).arrAt 4 cfg0.N = Cert.Gine.edgeReg (V c main_arg1) (V c main_v10) (V c main_v12) (V c main_v15))
    (hN : ∀ (V : (c : Dev nD) → (b : Ref sig .tc) → Buf (Elt Ideal) ((c : Thread nD τ).loc b)) (c : Dev nD),
      (dat1 (F := Ideal) V c).arrAt 4 cfg1.N = Cert.Gine.nodeReg (V c main_arg0) (V c main_v19) (V c main_v21) (V c main_v24))
    (c : Dev nD) :
    W4 m ρ c (Proc.devRef .tc main_v25)
      = Cert.ReferenceIdeal.Hand.layer (F := Ideal) 0 Cert.ReferenceIdeal.Facts₀.slices_S3x8x32_S1x8x32_0_0_0 Cert.ReferenceIdeal.Facts₀.slices_S3x32_S1x32_0_0 Cert.ReferenceIdeal.Facts₀.slices_S3x32x32_S1x32x32_0_0_0 Cert.ReferenceIdeal.Facts₀.slices_S3x32_S1x32_0_0
          (m ((c : Thread nD τ).loc main_arg1)) (m ((c : Thread nD τ).loc main_arg2)) (m ((c : Thread nD τ).loc main_arg3)) (m ((c : Thread nD τ).loc main_arg4)) (m ((c : Thread nD τ).loc main_arg5))
          (Cert.ReferenceIdeal.Hand.idxRow 0 Cert.ReferenceIdeal.Facts₀.slices_S2x1600000_S1x1600000_0_0 (m ((c : Thread nD τ).loc main_arg6))) (Cert.ReferenceIdeal.Hand.idxRow 1 Cert.ReferenceIdeal.Facts₀.slices_S2x1600000_S1x1600000_1_0 (m ((c : Thread nD τ).loc main_arg6))) (m ((c : Thread nD τ).loc main_arg0)) := by
  -- the messages: the edge kernel's array, of what the stretch before it leaves
  have hmsg : W2 m ρ c (Proc.devRef .tc main_v16)
      = Cert.ReferenceIdeal.Hand.msg (F := Ideal) (m ((c : Thread nD τ).loc main_arg1)) (Cert.ReferenceIdeal.Hand.WeSlab (F := Ideal) 0 Cert.ReferenceIdeal.Facts₀.slices_S3x8x32_S1x8x32_0_0_0 (m ((c : Thread nD τ).loc main_arg4))) (Cert.ReferenceIdeal.Hand.vecRow (F := Ideal) 0 Cert.ReferenceIdeal.Facts₀.slices_S3x32_S1x32_0_0 (m ((c : Thread nD τ).loc main_arg5)))
          (Host.gather Cert.ReferenceIdeal.gather_S100000x32_S1600000x1_S1600000x32_1_0_n_n_0_1_132 (m ((c : Thread nD τ).loc main_arg0)) (Cert.ReferenceIdeal.Hand.srcIdx (Cert.ReferenceIdeal.Hand.idxRow 0 Cert.ReferenceIdeal.Facts₀.slices_S2x1600000_S1x1600000_0_0 (m ((c : Thread nD τ).loc main_arg6))))) :=
    ((W2_arr m ρ c 4).trans (hE (V1 m ρ) c)).trans
      ((edgeReg_congr (w1_arg m ρ c main_arg1 (by decide)) (h0_v10 (W0 m ρ c)) (h0_v12 (W0 m ρ c)) (h0_v15 (W0 m ρ c))).trans
        (Cert.Bridge.msg_eq _ _ _ _ shapeCasts_S32_S1x32).symm)
  -- the summed messages, the node matrix and the bias row, of what the stretch before the node kernel leaves
  have hagg : W3 m ρ c (Proc.devRef .tc main_v19)
      = Host.scatterAdd Cert.ReferenceIdeal.scatter_S100000x32_S1600000x1_S1600000x32_1_0_0_1 (Cert.ReferenceIdeal.Hand.zerosN (F := Ideal)) (Cert.ReferenceIdeal.Hand.dstIdx (Cert.ReferenceIdeal.Hand.idxRow 1 Cert.ReferenceIdeal.Facts₀.slices_S2x1600000_S1x1600000_1_0 (m ((c : Thread nD τ).loc main_arg6))))
          (Cert.ReferenceIdeal.Hand.msg (F := Ideal) (m ((c : Thread nD τ).loc main_arg1)) (Cert.ReferenceIdeal.Hand.WeSlab (F := Ideal) 0 Cert.ReferenceIdeal.Facts₀.slices_S3x8x32_S1x8x32_0_0_0 (m ((c : Thread nD τ).loc main_arg4))) (Cert.ReferenceIdeal.Hand.vecRow (F := Ideal) 0 Cert.ReferenceIdeal.Facts₀.slices_S3x32_S1x32_0_0 (m ((c : Thread nD τ).loc main_arg5)))
            (Host.gather Cert.ReferenceIdeal.gather_S100000x32_S1600000x1_S1600000x32_1_0_n_n_0_1_132 (m ((c : Thread nD τ).loc main_arg0)) (Cert.ReferenceIdeal.Hand.srcIdx (Cert.ReferenceIdeal.Hand.idxRow 0 Cert.ReferenceIdeal.Facts₀.slices_S2x1600000_S1x1600000_0_0 (m ((c : Thread nD τ).loc main_arg6)))))) :=
    (h1_agg (W2 m ρ c)).trans
      (congr (congrArg (fun t u => Host.scatterAdd Cert.ReferenceIdeal.scatter_S100000x32_S1600000x1_S1600000x32_1_0_0_1 (Cert.ReferenceIdeal.Hand.zerosN (F := Ideal)) (Cert.ReferenceIdeal.Hand.dstIdx t) u) ((st2 m ρ c main_v3 (by decide)).trans (w1_t m ρ c))) hmsg)
  have hW : W3 m ρ c (Proc.devRef .tc main_v21) = Cert.ReferenceIdeal.Hand.WSlab (F := Ideal) 0 Cert.ReferenceIdeal.Facts₀.slices_S3x32x32_S1x32x32_0_0_0 (m ((c : Thread nD τ).loc main_arg2)) :=
    (h1_W (W2 m ρ c)).trans (congrArg (Cert.ReferenceIdeal.Hand.WSlab (F := Ideal) 0 Cert.ReferenceIdeal.Facts₀.slices_S3x32x32_S1x32x32_0_0_0) ((st2 m ρ c main_arg2 (by decide)).trans (w1_arg m ρ c main_arg2 (by decide))))
  have hbr : W3 m ρ c (Proc.devRef .tc main_v24) = shapeCast S1x32 (Cert.ReferenceIdeal.Hand.vecRow (F := Ideal) 0 Cert.ReferenceIdeal.Facts₀.slices_S3x32_S1x32_0_0 (m ((c : Thread nD τ).loc main_arg3))) shapeCasts_S32_S1x32 :=
    (h1_b (W2 m ρ c)).trans (congrArg (fun b => shapeCast S1x32 (Cert.ReferenceIdeal.Hand.vecRow (F := Ideal) 0 Cert.ReferenceIdeal.Facts₀.slices_S3x32_S1x32_0_0 b) shapeCasts_S32_S1x32) ((st2 m ρ c main_arg3 (by decide)).trans (w1_arg m ρ c main_arg3 (by decide))))
  have hx : W3 m ρ c (Proc.devRef .tc main_arg0) = (m ((c : Thread nD τ).loc main_arg0)) := ((keepH1 (W2 m ρ c) main_arg0 (by decide)).trans ((keepR0 m ρ c main_arg0 (by decide)).trans (keepH0 (W0 m ρ c) main_arg0 (by decide))))
  -- the node kernel's array, and the two dense stages back in the reference's spelling
  exact ((W4_arr m ρ c 4).trans (hN (V3 m ρ) c)).trans
    ((nodeReg_congr hx hagg hW hbr).trans (Cert.Bridge.upd_eq _ _ _ _ shapeCasts_S32_S1x32).symm)

/-- Layer 1: the node kernel's array is the reference's layer 1 of the features the layer starts from. -/
theorem layer1_out
    (hE : ∀ (V : (c : Dev nD) → (b : Ref sig .tc) → Buf (Elt Ideal) ((c : Thread nD τ).loc b)) (c : Dev nD),
      (dat2 (F := Ideal) V c).arrAt 4 cfg2.N = Cert.Gine.edgeReg (V c main_arg1) (V c main_v32) (V c main_v34) (V c main_v37))
    (hN : ∀ (V : (c : Dev nD) → (b : Ref sig .tc) → Buf (Elt Ideal) ((c : Thread nD τ).loc b)) (c : Dev nD),
      (dat3 (F := Ideal) V c).arrAt 4 cfg3.N = Cert.Gine.nodeReg (V c main_v25) (V c main_v41) (V c main_v43) (V c main_v46))
    (c : Dev nD) :
    W8 m ρ c (Proc.devRef .tc main_v47)
      = Cert.ReferenceIdeal.Hand.layer (F := Ideal) 1 Cert.ReferenceIdeal.Facts₀.slices_S3x8x32_S1x8x32_1_0_0 Cert.ReferenceIdeal.Facts₀.slices_S3x32_S1x32_1_0 Cert.ReferenceIdeal.Facts₀.slices_S3x32x32_S1x32x32_1_0_0 Cert.ReferenceIdeal.Facts₀.slices_S3x32_S1x32_1_0
          (m ((c : Thread nD τ).loc main_arg1)) (m ((c : Thread nD τ).loc main_arg2)) (m ((c : Thread nD τ).loc main_arg3)) (m ((c : Thread nD τ).loc main_arg4)) (m ((c : Thread nD τ).loc main_arg5))
          (Cert.ReferenceIdeal.Hand.idxRow 0 Cert.ReferenceIdeal.Facts₀.slices_S2x1600000_S1x1600000_0_0 (m ((c : Thread nD τ).loc main_arg6))) (Cert.ReferenceIdeal.Hand.idxRow 1 Cert.ReferenceIdeal.Facts₀.slices_S2x1600000_S1x1600000_1_0 (m ((c : Thread nD τ).loc main_arg6))) (W4 m ρ c (Proc.devRef .tc main_v25)) := by
  -- the messages: the edge kernel's array, of what the stretch before it leaves
  have hmsg : W6 m ρ c (Proc.devRef .tc main_v38)
      = Cert.ReferenceIdeal.Hand.msg (F := Ideal) (m ((c : Thread nD τ).loc main_arg1)) (Cert.ReferenceIdeal.Hand.WeSlab (F := Ideal) 1 Cert.ReferenceIdeal.Facts₀.slices_S3x8x32_S1x8x32_1_0_0 (m ((c : Thread nD τ).loc main_arg4))) (Cert.ReferenceIdeal.Hand.vecRow (F := Ideal) 1 Cert.ReferenceIdeal.Facts₀.slices_S3x32_S1x32_1_0 (m ((c : Thread nD τ).loc main_arg5)))
          (Host.gather Cert.ReferenceIdeal.gather_S100000x32_S1600000x1_S1600000x32_1_0_n_n_0_1_132 (W4 m ρ c (Proc.devRef .tc main_v25)) (Cert.ReferenceIdeal.Hand.srcIdx (Cert.ReferenceIdeal.Hand.idxRow 0 Cert.ReferenceIdeal.Facts₀.slices_S2x1600000_S1x1600000_0_0 (m ((c : Thread nD τ).loc main_arg6))))) :=
    ((W6_arr m ρ c 4).trans (hE (V5 m ρ) c)).trans
      ((edgeReg_congr ((st5 m ρ c main_arg1 (by decide)).trans (w1_arg m ρ c main_arg1 (by decide))) ((h2_g (W4 m ρ c)).trans (congrArg (fun s => Host.gather Cert.ReferenceIdeal.gather_S100000x32_S1600000x1_S1600000x32_1_0_n_n_0_1_132 (W4 m ρ c (Proc.devRef .tc main_v25)) (Cert.ReferenceIdeal.Hand.srcIdx s)) ((st4 m ρ c main_v1 (by decide)).trans (w1_s m ρ c)))) ((h2_We (W4 m ρ c)).trans (congrArg (Cert.ReferenceIdeal.Hand.WeSlab (F := Ideal) 1 Cert.ReferenceIdeal.Facts₀.slices_S3x8x32_S1x8x32_1_0_0) ((st4 m ρ c main_arg4 (by decide)).trans (w1_arg m ρ c main_arg4 (by decide))))) ((h2_be (W4 m ρ c)).trans (congrArg (fun b => shapeCast S1x32 (Cert.ReferenceIdeal.Hand.vecRow (F := Ideal) 1 Cert.ReferenceIdeal.Facts₀.slices_S3x32_S1x32_1_0 b) shapeCasts_S32_S1x32) ((st4 m ρ c main_arg5 (by decide)).trans (w1_arg m ρ c main_arg5 (by decide)))))).trans
        (Cert.Bridge.msg_eq _ _ _ _ shapeCasts_S32_S1x32).symm)
  -- the summed messages, the node matrix and the bias row, of what the stretch before the node kernel leaves
  have hagg : W7 m ρ c (Proc.devRef .tc main_v41)
      = Host.scatterAdd Cert.ReferenceIdeal.scatter_S100000x32_S1600000x1_S1600000x32_1_0_0_1 (Cert.ReferenceIdeal.Hand.zerosN (F := Ideal)) (Cert.ReferenceIdeal.Hand.dstIdx (Cert.ReferenceIdeal.Hand.idxRow 1 Cert.ReferenceIdeal.Facts₀.slices_S2x1600000_S1x1600000_1_0 (m ((c : Thread nD τ).loc main_arg6))))
          (Cert.ReferenceIdeal.Hand.msg (F := Ideal) (m ((c : Thread nD τ).loc main_arg1)) (Cert.ReferenceIdeal.Hand.WeSlab (F := Ideal) 1 Cert.ReferenceIdeal.Facts₀.slices_S3x8x32_S1x8x32_1_0_0 (m ((c : Thread nD τ).loc main_arg4))) (Cert.ReferenceIdeal.Hand.vecRow (F := Ideal) 1 Cert.ReferenceIdeal.Facts₀.slices_S3x32_S1x32_1_0 (m ((c : Thread nD τ).loc main_arg5)))
            (Host.gather Cert.ReferenceIdeal.gather_S100000x32_S1600000x1_S1600000x32_1_0_n_n_0_1_132 (W4 m ρ c (Proc.devRef .tc main_v25)) (Cert.ReferenceIdeal.Hand.srcIdx (Cert.ReferenceIdeal.Hand.idxRow 0 Cert.ReferenceIdeal.Facts₀.slices_S2x1600000_S1x1600000_0_0 (m ((c : Thread nD τ).loc main_arg6)))))) :=
    (h3_agg (W6 m ρ c)).trans
      (congr (congrArg (fun t u => Host.scatterAdd Cert.ReferenceIdeal.scatter_S100000x32_S1600000x1_S1600000x32_1_0_0_1 (Cert.ReferenceIdeal.Hand.zerosN (F := Ideal)) (Cert.ReferenceIdeal.Hand.dstIdx t) u) ((st6 m ρ c main_v3 (by decide)).trans (w1_t m ρ c))) hmsg)
  have hW : W7 m ρ c (Proc.devRef .tc main_v43) = Cert.ReferenceIdeal.Hand.WSlab (F := Ideal) 1 Cert.ReferenceIdeal.Facts₀.slices_S3x32x32_S1x32x32_1_0_0 (m ((c : Thread nD τ).loc main_arg2)) :=
    (h3_W (W6 m ρ c)).trans (congrArg (Cert.ReferenceIdeal.Hand.WSlab (F := Ideal) 1 Cert.ReferenceIdeal.Facts₀.slices_S3x32x32_S1x32x32_1_0_0) ((st6 m ρ c main_arg2 (by decide)).trans (w1_arg m ρ c main_arg2 (by decide))))
  have hbr : W7 m ρ c (Proc.devRef .tc main_v46) = shapeCast S1x32 (Cert.ReferenceIdeal.Hand.vecRow (F := Ideal) 1 Cert.ReferenceIdeal.Facts₀.slices_S3x32_S1x32_1_0 (m ((c : Thread nD τ).loc main_arg3))) shapeCasts_S32_S1x32 :=
    (h3_b (W6 m ρ c)).trans (congrArg (fun b => shapeCast S1x32 (Cert.ReferenceIdeal.Hand.vecRow (F := Ideal) 1 Cert.ReferenceIdeal.Facts₀.slices_S3x32_S1x32_1_0 b) shapeCasts_S32_S1x32) ((st6 m ρ c main_arg3 (by decide)).trans (w1_arg m ρ c main_arg3 (by decide))))
  have hx : W7 m ρ c (Proc.devRef .tc main_v25) = (W4 m ρ c (Proc.devRef .tc main_v25)) := ((keepH3 (W6 m ρ c) main_v25 (by decide)).trans ((keepR2 m ρ c main_v25 (by decide)).trans (keepH2 (W4 m ρ c) main_v25 (by decide))))
  -- the node kernel's array, and the two dense stages back in the reference's spelling
  exact ((W8_arr m ρ c 4).trans (hN (V7 m ρ) c)).trans
    ((nodeReg_congr hx hagg hW hbr).trans (Cert.Bridge.upd_eq _ _ _ _ shapeCasts_S32_S1x32).symm)

/-- Layer 2: the node kernel's array is the reference's layer 2 of the features the layer starts from. -/
theorem layer2_out
    (hE : ∀ (V : (c : Dev nD) → (b : Ref sig .tc) → Buf (Elt Ideal) ((c : Thread nD τ).loc b)) (c : Dev nD),
      (dat4 (F := Ideal) V c).arrAt 4 cfg4.N = Cert.Gine.edgeReg (V c main_arg1) (V c main_v54) (V c main_v56) (V c main_v59))
    (hN : ∀ (V : (c : Dev nD) → (b : Ref sig .tc) → Buf (Elt Ideal) ((c : Thread nD τ).loc b)) (c : Dev nD),
      (dat5 (F := Ideal) V c).arrAt 4 cfg5.N = Cert.Gine.nodeReg (V c main_v47) (V c main_v63) (V c main_v65) (V c main_v68))
    (c : Dev nD) :
    W12 m ρ c (Proc.devRef .tc main_v69)
      = Cert.ReferenceIdeal.Hand.layer (F := Ideal) 2 Cert.ReferenceIdeal.Facts₀.slices_S3x8x32_S1x8x32_2_0_0 Cert.ReferenceIdeal.Facts₀.slices_S3x32_S1x32_2_0 Cert.ReferenceIdeal.Facts₀.slices_S3x32x32_S1x32x32_2_0_0 Cert.ReferenceIdeal.Facts₀.slices_S3x32_S1x32_2_0
          (m ((c : Thread nD τ).loc main_arg1)) (m ((c : Thread nD τ).loc main_arg2)) (m ((c : Thread nD τ).loc main_arg3)) (m ((c : Thread nD τ).loc main_arg4)) (m ((c : Thread nD τ).loc main_arg5))
          (Cert.ReferenceIdeal.Hand.idxRow 0 Cert.ReferenceIdeal.Facts₀.slices_S2x1600000_S1x1600000_0_0 (m ((c : Thread nD τ).loc main_arg6))) (Cert.ReferenceIdeal.Hand.idxRow 1 Cert.ReferenceIdeal.Facts₀.slices_S2x1600000_S1x1600000_1_0 (m ((c : Thread nD τ).loc main_arg6))) (W8 m ρ c (Proc.devRef .tc main_v47)) := by
  -- the messages: the edge kernel's array, of what the stretch before it leaves
  have hmsg : W10 m ρ c (Proc.devRef .tc main_v60)
      = Cert.ReferenceIdeal.Hand.msg (F := Ideal) (m ((c : Thread nD τ).loc main_arg1)) (Cert.ReferenceIdeal.Hand.WeSlab (F := Ideal) 2 Cert.ReferenceIdeal.Facts₀.slices_S3x8x32_S1x8x32_2_0_0 (m ((c : Thread nD τ).loc main_arg4))) (Cert.ReferenceIdeal.Hand.vecRow (F := Ideal) 2 Cert.ReferenceIdeal.Facts₀.slices_S3x32_S1x32_2_0 (m ((c : Thread nD τ).loc main_arg5)))
          (Host.gather Cert.ReferenceIdeal.gather_S100000x32_S1600000x1_S1600000x32_1_0_n_n_0_1_132 (W8 m ρ c (Proc.devRef .tc main_v47)) (Cert.ReferenceIdeal.Hand.srcIdx (Cert.ReferenceIdeal.Hand.idxRow 0 Cert.ReferenceIdeal.Facts₀.slices_S2x1600000_S1x1600000_0_0 (m ((c : Thread nD τ).loc main_arg6))))) :=
    ((W10_arr m ρ c 4).trans (hE (V9 m ρ) c)).trans
      ((edgeReg_congr ((st9 m ρ c main_arg1 (by decide)).trans (w1_arg m ρ c main_arg1 (by decide))) ((h4_g (W8 m ρ c)).trans (congrArg (fun s => Host.gather Cert.ReferenceIdeal.gather_S100000x32_S1600000x1_S1600000x32_1_0_n_n_0_1_132 (W8 m ρ c (Proc.devRef .tc main_v47)) (Cert.ReferenceIdeal.Hand.srcIdx s)) ((st8 m ρ c main_v1 (by decide)).trans (w1_s m ρ c)))) ((h4_We (W8 m ρ c)).trans (congrArg (Cert.ReferenceIdeal.Hand.WeSlab (F := Ideal) 2 Cert.ReferenceIdeal.Facts₀.slices_S3x8x32_S1x8x32_2_0_0) ((st8 m ρ c main_arg4 (by decide)).trans (w1_arg m ρ c main_arg4 (by decide))))) ((h4_be (W8 m ρ c)).trans (congrArg (fun b => shapeCast S1x32 (Cert.ReferenceIdeal.Hand.vecRow (F := Ideal) 2 Cert.ReferenceIdeal.Facts₀.slices_S3x32_S1x32_2_0 b) shapeCasts_S32_S1x32) ((st8 m ρ c main_arg5 (by decide)).trans (w1_arg m ρ c main_arg5 (by decide)))))).trans
        (Cert.Bridge.msg_eq _ _ _ _ shapeCasts_S32_S1x32).symm)
  -- the summed messages, the node matrix and the bias row, of what the stretch before the node kernel leaves
  have hagg : W11 m ρ c (Proc.devRef .tc main_v63)
      = Host.scatterAdd Cert.ReferenceIdeal.scatter_S100000x32_S1600000x1_S1600000x32_1_0_0_1 (Cert.ReferenceIdeal.Hand.zerosN (F := Ideal)) (Cert.ReferenceIdeal.Hand.dstIdx (Cert.ReferenceIdeal.Hand.idxRow 1 Cert.ReferenceIdeal.Facts₀.slices_S2x1600000_S1x1600000_1_0 (m ((c : Thread nD τ).loc main_arg6))))
          (Cert.ReferenceIdeal.Hand.msg (F := Ideal) (m ((c : Thread nD τ).loc main_arg1)) (Cert.ReferenceIdeal.Hand.WeSlab (F := Ideal) 2 Cert.ReferenceIdeal.Facts₀.slices_S3x8x32_S1x8x32_2_0_0 (m ((c : Thread nD τ).loc main_arg4))) (Cert.ReferenceIdeal.Hand.vecRow (F := Ideal) 2 Cert.ReferenceIdeal.Facts₀.slices_S3x32_S1x32_2_0 (m ((c : Thread nD τ).loc main_arg5)))
            (Host.gather Cert.ReferenceIdeal.gather_S100000x32_S1600000x1_S1600000x32_1_0_n_n_0_1_132 (W8 m ρ c (Proc.devRef .tc main_v47)) (Cert.ReferenceIdeal.Hand.srcIdx (Cert.ReferenceIdeal.Hand.idxRow 0 Cert.ReferenceIdeal.Facts₀.slices_S2x1600000_S1x1600000_0_0 (m ((c : Thread nD τ).loc main_arg6)))))) :=
    (h5_agg (W10 m ρ c)).trans
      (congr (congrArg (fun t u => Host.scatterAdd Cert.ReferenceIdeal.scatter_S100000x32_S1600000x1_S1600000x32_1_0_0_1 (Cert.ReferenceIdeal.Hand.zerosN (F := Ideal)) (Cert.ReferenceIdeal.Hand.dstIdx t) u) ((st10 m ρ c main_v3 (by decide)).trans (w1_t m ρ c))) hmsg)
  have hW : W11 m ρ c (Proc.devRef .tc main_v65) = Cert.ReferenceIdeal.Hand.WSlab (F := Ideal) 2 Cert.ReferenceIdeal.Facts₀.slices_S3x32x32_S1x32x32_2_0_0 (m ((c : Thread nD τ).loc main_arg2)) :=
    (h5_W (W10 m ρ c)).trans (congrArg (Cert.ReferenceIdeal.Hand.WSlab (F := Ideal) 2 Cert.ReferenceIdeal.Facts₀.slices_S3x32x32_S1x32x32_2_0_0) ((st10 m ρ c main_arg2 (by decide)).trans (w1_arg m ρ c main_arg2 (by decide))))
  have hbr : W11 m ρ c (Proc.devRef .tc main_v68) = shapeCast S1x32 (Cert.ReferenceIdeal.Hand.vecRow (F := Ideal) 2 Cert.ReferenceIdeal.Facts₀.slices_S3x32_S1x32_2_0 (m ((c : Thread nD τ).loc main_arg3))) shapeCasts_S32_S1x32 :=
    (h5_b (W10 m ρ c)).trans (congrArg (fun b => shapeCast S1x32 (Cert.ReferenceIdeal.Hand.vecRow (F := Ideal) 2 Cert.ReferenceIdeal.Facts₀.slices_S3x32_S1x32_2_0 b) shapeCasts_S32_S1x32) ((st10 m ρ c main_arg3 (by decide)).trans (w1_arg m ρ c main_arg3 (by decide))))
  have hx : W11 m ρ c (Proc.devRef .tc main_v47) = (W8 m ρ c (Proc.devRef .tc main_v47)) := ((keepH5 (W10 m ρ c) main_v47 (by decide)).trans ((keepR4 m ρ c main_v47 (by decide)).trans (keepH4 (W8 m ρ c) main_v47 (by decide))))
  -- the node kernel's array, and the two dense stages back in the reference's spelling
  exact ((W12_arr m ρ c 4).trans (hN (V11 m ρ) c)).trans
    ((nodeReg_congr hx hagg hW hbr).trans (Cert.Bridge.upd_eq _ _ _ _ shapeCasts_S32_S1x32).symm)

/-- The result buffer at the last boundary is the reference's network of the launch arguments. -/
theorem fold_out
    (hE0 : ∀ V c, (dat0 (F := Ideal) V c).arrAt 4 cfg0.N = Cert.Gine.edgeReg (V c main_arg1) (V c main_v10) (V c main_v12) (V c main_v15))
    (hN1 : ∀ V c, (dat1 (F := Ideal) V c).arrAt 4 cfg1.N = Cert.Gine.nodeReg (V c main_arg0) (V c main_v19) (V c main_v21) (V c main_v24))
    (hE2 : ∀ V c, (dat2 (F := Ideal) V c).arrAt 4 cfg2.N = Cert.Gine.edgeReg (V c main_arg1) (V c main_v32) (V c main_v34) (V c main_v37))
    (hN3 : ∀ V c, (dat3 (F := Ideal) V c).arrAt 4 cfg3.N = Cert.Gine.nodeReg (V c main_v25) (V c main_v41) (V c main_v43) (V c main_v46))
    (hE4 : ∀ V c, (dat4 (F := Ideal) V c).arrAt 4 cfg4.N = Cert.Gine.edgeReg (V c main_arg1) (V c main_v54) (V c main_v56) (V c main_v59))
    (hN5 : ∀ V c, (dat5 (F := Ideal) V c).arrAt 4 cfg5.N = Cert.Gine.nodeReg (V c main_v47) (V c main_v63) (V c main_v65) (V c main_v68))
    (c : Dev nD) :
    W12 m ρ c (Proc.devRef .tc main_v69)
      = Cert.ReferenceIdeal.Hand.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [layer2_out m ρ hE4 hN5 c, layer1_out m ρ hE2 hN3 c, layer0_out m ρ hE0 hN1 c]
  rfl

end Cert.KernelIdeal.Hand

end
-- ==== Proof.EdgeBody.lean ====
/-
  THE EDGE STAGE'S BLOCK, ELEMENT BY ELEMENT.

  On a block of 3200 rows the edge stage stores max(xs + (ea · We + bias row), 0): the edge features' block times the
  [8, 32] matrix into a zero accumulator, the bias row repeated down the rows, the gathered features' block added, and
  the cut-off at zero. Read at row p, channel q that is the message of row p, channel q of the specification, with the
  block's rows in place of the array's: a change of float format is the identity on the extended reals, a cast to the
  same shape changes nothing, the product into a zero accumulator is the sum over the 8 edge features, and the repeated
  row reads the row. The stage is printed three times (once per layer); the three copies are the same term.

  Then the step from a block to the array: when a block's rows are rows b·3200 + p of the arrays and the matrix and
  the bias row are the arrays' own, the block's message at row p is the arrays' message at row b·3200 + p.
-/
import proofs.«112617_j57896159150675_1_alg».proof.Proof.Gen.KernelIdeal.Frame
import proofs.«112617_j57896159150675_1_alg».proof.Proof.Spec
import proofs.«112617_j57896159150675_1_alg».proof.Proof.LibRowReads
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

/-- The zero offsets of a whole-block access, as the constant function. -/
theorem zeroOff : (![0, 0] : Fin 2 → Nat) = fun _ => 0 := funext fun a => by fin_cases a <;> rfl

/-! ## The stage of layer 0 -/

/-- The stored value at row p, channel q of a block: the message of that row and channel. -/
theorem edgePay0_at (v0 : Vec Ideal S3200x8 .f32) (v2 : Vec Ideal S8x32 .f32) (v6 : Vec Ideal S1x32 .f32)
    (v10 : Vec Ideal S3200x32 .f32) (p : Fin 3200) (q : Fin 32) :
    Gen.k0_pay1 v0 v2 v6 v10 (ix2 p q) = Cert.Gine.edgeAt v0 v10 v2 v6 p q := by
  unfold Gen.k0_pay1
  simp only [maximumf_apply, addf_apply, broadcast_apply, shapeCast_self]
  rw [Cert.Lib.matmul_zero_at _ rfl rfl rfl rfl rfl rfl none _ _ p q, broadcastTo_1b_ab_apply]
  rfl

/-- What the stage leaves in the output block, from the four input blocks (edge features, gathered features, matrix,
    bias row): at row p, channel q, the message of that row and channel. The one store covers the block and the four
    loads read whole blocks. -/
theorem edgeOut0_at (x0 : Vec Ideal S3200x8 .f32) (x1 : Vec Ideal S3200x32 .f32) (x2 : Vec Ideal S8x32 .f32)
    (x3 : Vec Ideal S1x32 .f32) (p : Fin 3200) (q : Fin 32) :
    Gen.out0_4 x0 x1 x2 x3 (ix2 p q) = Cert.Gine.edgeAt x0 x1 x2 x3 p q := by
  unfold Gen.out0_4
  rw [View.canon_unit_zero zeroOff]
  simp only [View.ld_unit_zero (S := S3200x8) zeroOff, View.ld_unit_zero (S := S3200x32) zeroOff,
    View.ld_unit_zero (S := S8x32) zeroOff, View.ld_unit_zero (S := S1x32) zeroOff]
  exact edgePay0_at x0 x2 x3 x1 p q

/-! ## The stage of layer 1 -/

/-- The stored value at row p, channel q of a block: the message of that row and channel. -/
theorem edgePay2_at (v0 : Vec Ideal S3200x8 .f32) (v2 : Vec Ideal S8x32 .f32) (v6 : Vec Ideal S1x32 .f32)
    (v10 : Vec Ideal S3200x32 .f32) (p : Fin 3200) (q : Fin 32) :
    Gen.k2_pay1 v0 v2 v6 v10 (ix2 p q) = Cert.Gine.edgeAt v0 v10 v2 v6 p q := by
  unfold Gen.k2_pay1
  simp only [maximumf_apply, addf_apply, broadcast_apply, shapeCast_self]
  rw [Cert.Lib.matmul_zero_at _ rfl rfl rfl rfl rfl rfl none _ _ p q, broadcastTo_1b_ab_apply]
  rfl

/-- What the stage leaves in the output block, from the four input blocks (edge features, gathered features, matrix,
    bias row): at row p, channel q, the message of that row and channel. The one store covers the block and the four
    loads read whole blocks. -/
theorem edgeOut2_at (x0 : Vec Ideal S3200x8 .f32) (x1 : Vec Ideal S3200x32 .f32) (x2 : Vec Ideal S8x32 .f32)
    (x3 : Vec Ideal S1x32 .f32) (p : Fin 3200) (q : Fin 32) :
    Gen.out2_4 x0 x1 x2 x3 (ix2 p q) = Cert.Gine.edgeAt x0 x1 x2 x3 p q := by
  unfold Gen.out2_4
  rw [View.canon_unit_zero zeroOff]
  simp only [View.ld_unit_zero (S := S3200x8) zeroOff, View.ld_unit_zero (S := S3200x32) zeroOff,
    View.ld_unit_zero (S := S8x32) zeroOff, View.ld_unit_zero (S := S1x32) zeroOff]
  exact edgePay2_at x0 x2 x3 x1 p q

/-! ## The stage of layer 2 -/

/-- The stored value at row p, channel q of a block: the message of that row and channel. -/
theorem edgePay4_at (v0 : Vec Ideal S3200x8 .f32) (v2 : Vec Ideal S8x32 .f32) (v6 : Vec Ideal S1x32 .f32)
    (v10 : Vec Ideal S3200x32 .f32) (p : Fin 3200) (q : Fin 32) :
    Gen.k4_pay1 v0 v2 v6 v10 (ix2 p q) = Cert.Gine.edgeAt v0 v10 v2 v6 p q := by
  unfold Gen.k4_pay1
  simp only [maximumf_apply, addf_apply, broadcast_apply, shapeCast_self]
  rw [Cert.Lib.matmul_zero_at _ rfl rfl rfl rfl rfl rfl none _ _ p q, broadcastTo_1b_ab_apply]
  rfl

/-- What the stage leaves in the output block, from the four input blocks (edge features, gathered features, matrix,
    bias row): at row p, channel q, the message of that row and channel. The one store covers the block and the four
    loads read whole blocks. -/
theorem edgeOut4_at (x0 : Vec Ideal S3200x8 .f32) (x1 : Vec Ideal S3200x32 .f32) (x2 : Vec Ideal S8x32 .f32)
    (x3 : Vec Ideal S1x32 .f32) (p : Fin 3200) (q : Fin 32) :
    Gen.out4_4 x0 x1 x2 x3 (ix2 p q) = Cert.Gine.edgeAt x0 x1 x2 x3 p q := by
  unfold Gen.out4_4
  rw [View.canon_unit_zero zeroOff]
  simp only [View.ld_unit_zero (S := S3200x8) zeroOff, View.ld_unit_zero (S := S3200x32) zeroOff,
    View.ld_unit_zero (S := S8x32) zeroOff, View.ld_unit_zero (S := S1x32) zeroOff]
  exact edgePay4_at x0 x2 x3 x1 p q

/-! ## From a block's rows to the array's -/

/-- A block whose rows are rows b · 3200 + p of the arrays, with the arrays' own matrix and bias row, has at row p the
    message the arrays have at row e = b · 3200 + p. -/
theorem edgeAt_block {E : Nat} (A0 : FVec Ideal ⟨2, ![E, 8]⟩ .f32) (A1 : FVec Ideal ⟨2, ![E, 32]⟩ .f32)
    (A2 : FVec Ideal ⟨2, ![8, 32]⟩ .f32) (A3 : FVec Ideal ⟨2, ![1, 32]⟩ .f32)
    (x0 : FVec Ideal ⟨2, ![3200, 8]⟩ .f32) (x1 : FVec Ideal ⟨2, ![3200, 32]⟩ .f32)
    (x2 : FVec Ideal ⟨2, ![8, 32]⟩ .f32) (x3 : FVec Ideal ⟨2, ![1, 32]⟩ .f32) (p : Fin 3200) (q : Fin 32) (e : Fin E)
    (h0 : ∀ k : Fin 8, x0 (ix2 p k) = A0 (ix2 e k)) (h1 : x1 (ix2 p q) = A1 (ix2 e q))
    (h2 : ∀ k : Fin 8, x2 (ix2 k q) = A2 (ix2 k q)) (h3 : x3 (ix2 (0 : Fin 1) q) = A3 (ix2 (0 : Fin 1) q)) :
    Cert.Gine.edgeAt x0 x1 x2 x3 p q = Cert.Gine.edgeAt A0 A1 A2 A3 e q := by
  unfold Cert.Gine.edgeAt
  rw [h1, h3, Finset.sum_congr rfl fun k _ => by rw [h0 k, h2 k]]

end Cert.KernelIdeal.Hand

end
-- ==== Proof.EdgeReg0.lean ====
/-
  THE MESSAGES OF LAYER 0 AS ONE ARRAY.

  The edge stage of layer 0 runs over 500 grid points; point t reads rows 3200·t … 3200·t + 3199 of the edge features
  and of the gathered features, the whole [8, 32] matrix and the whole bias row, and writes back rows 3200·t … 3200·t + 3199
  of the messages. Each written block is the block of ONE whole-array function of the four arrays as the stage finds
  them — the message of row e, channel d — because a block's element sits at block index × block size + its coordinate
  in the block on each axis, and the block index on the row axis is t for the three row-blocked windows and 0 elsewhere.
  Row e is covered by point e / 3200, so after the last point the array holds that function everywhere.
-/
import proofs.«112617_j57896159150675_1_alg».proof.Proof.EdgeBody

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The five windows' arrays: edge features, gathered features, matrix, bias row, messages. -/
theorem edgeArrs0 : Pipeline.arrRef spec0 0 = main_arg1 ∧ Pipeline.arrRef spec0 1 = main_v10 ∧ Pipeline.arrRef spec0 2 = main_v12
    ∧ Pipeline.arrRef spec0 3 = main_v15 ∧ Pipeline.arrRef spec0 4 = main_v16 := ⟨rfl, rfl, rfl, rfl, rfl⟩

/-- The printed index maps over the grid: the row-blocked windows (edge features, gathered features, messages) are at
    block t on the row axis and block 0 on the other; the matrix and the bias row are at block 0 on both. -/
theorem edgeIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The edge features' block at point t, row p: row 3200·t + p of the array. -/
theorem edgeBlk0_0 (c : Dev nD) (t : Fin cfg0.N) (p : Fin 3200) (k : Fin 8) (e : Fin 1600000)
    (he : e.val = t.val * 3200 + p.val) :
    (iblk0 V c 0 t : Vec Ideal S3200x8 .f32) (ix2 p k) = (V c main_arg1 : FVec Ideal ⟨2, ![1600000, 8]⟩ .f32) (ix2 e k) := by
  obtain ⟨a0, a1, -⟩ := edgeIdx0 t
  unfold iblk0
  rw [View.read_apply]
  show V c main_arg1 _ = V c main_arg1 _
  congr 1
  funext a
  apply Fin.ext
  match a with
  | ⟨0, _⟩ => show win0_0.index t 0 * 3200 + 1 * p.val = e.val; rw [a0, he]; omega
  | ⟨1, _⟩ => show win0_0.index t 1 * 8 + 1 * k.val = k.val; rw [a1]; omega

/-- The gathered features' block at point t, row p: row 3200·t + p of the array. -/
theorem edgeBlk0_1 (c : Dev nD) (t : Fin cfg0.N) (p : Fin 3200) (q : Fin 32) (e : Fin 1600000)
    (he : e.val = t.val * 3200 + p.val) :
    (iblk0 V c 1 t : Vec Ideal S3200x32 .f32) (ix2 p q) = (V c main_v10 : FVec Ideal ⟨2, ![1600000, 32]⟩ .f32) (ix2 e q) := by
  obtain ⟨-, -, b0, b1, -⟩ := edgeIdx0 t
  unfold iblk0
  rw [View.read_apply]
  show V c main_v10 _ = V c main_v10 _
  congr 1
  funext a
  apply Fin.ext
  match a with
  | ⟨0, _⟩ => show win0_1.index t 0 * 3200 + 1 * p.val = e.val; rw [b0, he]; omega
  | ⟨1, _⟩ => show win0_1.index t 1 * 32 + 1 * q.val = q.val; rw [b1]; omega

/-- The matrix's block at any point is the matrix. -/
theorem edgeBlk0_2 (c : Dev nD) (t : Fin cfg0.N) (k : Fin 8) (q : Fin 32) :
    (iblk0 V c 2 t : Vec Ideal S8x32 .f32) (ix2 k q) = (V c main_v12 : FVec Ideal ⟨2, ![8, 32]⟩ .f32) (ix2 k q) := by
  obtain ⟨-, -, -, -, c0, c1, -⟩ := edgeIdx0 t
  unfold iblk0
  rw [View.read_apply]
  show V c main_v12 _ = V c main_v12 _
  congr 1
  funext a
  apply Fin.ext
  match a with
  | ⟨0, _⟩ => show win0_2.index t 0 * 8 + 1 * k.val = k.val; rw [c0]; omega
  | ⟨1, _⟩ => show win0_2.index t 1 * 32 + 1 * q.val = q.val; rw [c1]; omega

/-- The bias row's block at any point is the bias row. -/
theorem edgeBlk0_3 (c : Dev nD) (t : Fin cfg0.N) (u : Fin 1) (q : Fin 32) :
    (iblk0 V c 3 t : Vec Ideal S1x32 .f32) (ix2 u q) = (V c main_v15 : FVec Ideal ⟨2, ![1, 32]⟩ .f32) (ix2 u q) := by
  obtain ⟨-, -, -, -, -, -, d0, d1, -⟩ := edgeIdx0 t
  unfold iblk0
  rw [View.read_apply]
  show V c main_v15 _ = V c main_v15 _
  congr 1
  funext a
  apply Fin.ext
  match a with
  | ⟨0, _⟩ => show win0_3.index t 0 * 1 + 1 * u.val = u.val; rw [d0]; omega
  | ⟨1, _⟩ => show win0_3.index t 1 * 32 + 1 * q.val = q.val; rw [d1]; omega

/-- WHAT POINT t WRITES BACK is block t of the messages of the four arrays as the stage finds them. -/
theorem edge0_flushed (c : Dev nD) (t : Fin cfg0.N) :
    (dat0 (F := Ideal) V c).flushed 4 t
      = ((cfg0.win 4).blk t).view.read (Elt Ideal)
          (Cert.Gine.edgeReg (V c main_arg1) (V c main_v10) (V c main_v12) (V c main_v15)) := by
  show (cfg0.win 4).cut (grid0.coords t) ((dat0 V c).after 4 t) = _
  rw [after0_4]
  obtain ⟨-, -, -, -, -, -, -, -, o0, o1⟩ := edgeIdx0 t
  funext j
  obtain ⟨p, q, rfl⟩ : ∃ (p : Fin 3200) (q : Fin 32), j = ix2 p q := ⟨j 0, j 1, eq_ix2 j⟩
  have hN : grid0.N = 500 := N_0
  have he : t.val * 3200 + p.val < 1600000 := by have h1 : t.val < grid0.N := t.isLt; have h2 := p.isLt; omega
  show out0_4 (iblk0 V c 0 t) (iblk0 V c 1 t) (iblk0 V c 2 t) (iblk0 V c 3 t) (ix2 p q)
    = Cert.Gine.edgeReg (V c main_arg1) (V c main_v10) (V c main_v12) (V c main_v15) (((cfg0.win 4).blk t).view.emb (ix2 p q))
  have hi : ((cfg0.win 4).blk t).view.emb (ix2 p q) = ix2 (⟨t.val * 3200 + p.val, he⟩ : Fin 1600000) q := by
    funext a
    apply Fin.ext
    match a with
    | ⟨0, _⟩ => show win0_4.index t 0 * 3200 + 1 * p.val = t.val * 3200 + p.val; rw [o0]; omega
    | ⟨1, _⟩ => show win0_4.index t 1 * 32 + 1 * q.val = q.val; rw [o1]; omega
  rw [hi, Cert.Gine.edgeReg_ix2]
  refine (edgeOut0_at _ _ _ _ p q).trans ?_
  exact edgeAt_block _ _ _ _ _ _ _ _ p q _ (fun k => edgeBlk0_0 V c t p k _ rfl) (edgeBlk0_1 V c t p q _ rfl)
    (fun k => edgeBlk0_2 V c t k q) (edgeBlk0_3 V c t 0 q)

/-- An index of the messages is in point t's block iff each coordinate is in the block's range on its axis. -/
theorem edge0_mem_blk (t : Fin cfg0.N) (i : S1600000x32.Idx) :
    i ∈ ((cfg0.win 4).blk t).view.set ↔ ∀ a : Fin 2, win0_4.index t a * S3200x32.size a ≤ (i a).val
      ∧ (i a).val < win0_4.index t a * S3200x32.size a + S3200x32.size a := by
  show i ∈ ((View.whole main_v16).slice (win0_4.rect t)).set ↔ _
  rw [View.set_slice_whole, Rect.mem_set_unit]
  exact Iff.rfl

/-- Every index of the messages is in some point's block: row e is in the block of point e / 3200. -/
theorem edge0_cover (i : S1600000x32.Idx) :
    ∃ t : Fin cfg0.N, (cfg0.win 4).flush t = true ∧ i ∈ ((cfg0.win 4).blk t).view.set := by
  have hi0 : (i 0).val < 1600000 := (i 0).isLt
  have hi1 : (i 1).val < 32 := (i 1).isLt
  have hN : grid0.N = 500 := N_0
  have ht : (i 0).val / 3200 < grid0.N := by omega
  obtain ⟨-, -, -, -, -, -, -, -, o0, o1⟩ := edgeIdx0 ⟨(i 0).val / 3200, ht⟩
  refine ⟨⟨(i 0).val / 3200, ht⟩, flush0_4 _, ?_⟩
  rw [edge0_mem_blk]
  intro a
  match a with
  | ⟨0, _⟩ =>
    show win0_4.index ⟨(i 0).val / 3200, ht⟩ (0 : Fin 2) * 3200 ≤ (i 0).val
      ∧ (i 0).val < win0_4.index ⟨(i 0).val / 3200, ht⟩ (0 : Fin 2) * 3200 + 3200
    rw [o0]
    show (i 0).val / 3200 * 3200 ≤ (i 0).val ∧ (i 0).val < (i 0).val / 3200 * 3200 + 3200
    omega
  | ⟨1, _⟩ =>
    show win0_4.index ⟨(i 0).val / 3200, ht⟩ (1 : Fin 2) * 32 ≤ (i 1).val
      ∧ (i 1).val < win0_4.index ⟨(i 0).val / 3200, ht⟩ (1 : Fin 2) * 32 + 32
    rw [o1]
    omega

/-- THE MESSAGES after the stage: the whole-array function of the four arrays as the stage finds them. -/
theorem edge0_arr (c : Dev nD) :
    (Gen.dat0 (F := Ideal) V c).arrAt 4 cfg0.N
      = Cert.Gine.edgeReg (V c main_arg1) (V c main_v10) (V c main_v12) (V c main_v15) :=
  (dat0 V c).arrAt_eq_of_cover 4 _ (fun t _ => edge0_flushed V c t) edge0_cover

end Cert.KernelIdeal.Hand

end
-- ==== Proof.EdgeReg2.lean ====
/-
  THE MESSAGES OF LAYER 1 AS ONE ARRAY.

  The edge stage of layer 1 runs over 500 grid points; point t reads rows 3200·t … 3200·t + 3199 of the edge features
  and of the gathered features, the whole [8, 32] matrix and the whole bias row, and writes back rows 3200·t … 3200·t + 3199
  of the messages. Each written block is the block of ONE whole-array function of the four arrays as the stage finds
  them — the message of row e, channel d — because a block's element sits at block index × block size + its coordinate
  in the block on each axis, and the block index on the row axis is t for the three row-blocked windows and 0 elsewhere.
  Row e is covered by point e / 3200, so after the last point the array holds that function everywhere.
-/
import proofs.«112617_j57896159150675_1_alg».proof.Proof.EdgeBody

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The five windows' arrays: edge features, gathered features, matrix, bias row, messages. -/
theorem edgeArrs2 : Pipeline.arrRef spec2 0 = main_arg1 ∧ Pipeline.arrRef spec2 1 = main_v32 ∧ Pipeline.arrRef spec2 2 = main_v34
    ∧ Pipeline.arrRef spec2 3 = main_v37 ∧ Pipeline.arrRef spec2 4 = main_v38 := ⟨rfl, rfl, rfl, rfl, rfl⟩

/-- The printed index maps over the grid: the row-blocked windows (edge features, gathered features, messages) are at
    block t on the row axis and block 0 on the other; the matrix and the bias row are at block 0 on both. -/
theorem edgeIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The edge features' block at point t, row p: row 3200·t + p of the array. -/
theorem edgeBlk2_0 (c : Dev nD) (t : Fin cfg2.N) (p : Fin 3200) (k : Fin 8) (e : Fin 1600000)
    (he : e.val = t.val * 3200 + p.val) :
    (iblk2 V c 0 t : Vec Ideal S3200x8 .f32) (ix2 p k) = (V c main_arg1 : FVec Ideal ⟨2, ![1600000, 8]⟩ .f32) (ix2 e k) := by
  obtain ⟨a0, a1, -⟩ := edgeIdx2 t
  unfold iblk2
  rw [View.read_apply]
  show V c main_arg1 _ = V c main_arg1 _
  congr 1
  funext a
  apply Fin.ext
  match a with
  | ⟨0, _⟩ => show win2_0.index t 0 * 3200 + 1 * p.val = e.val; rw [a0, he]; omega
  | ⟨1, _⟩ => show win2_0.index t 1 * 8 + 1 * k.val = k.val; rw [a1]; omega

/-- The gathered features' block at point t, row p: row 3200·t + p of the array. -/
theorem edgeBlk2_1 (c : Dev nD) (t : Fin cfg2.N) (p : Fin 3200) (q : Fin 32) (e : Fin 1600000)
    (he : e.val = t.val * 3200 + p.val) :
    (iblk2 V c 1 t : Vec Ideal S3200x32 .f32) (ix2 p q) = (V c main_v32 : FVec Ideal ⟨2, ![1600000, 32]⟩ .f32) (ix2 e q) := by
  obtain ⟨-, -, b0, b1, -⟩ := edgeIdx2 t
  unfold iblk2
  rw [View.read_apply]
  show V c main_v32 _ = V c main_v32 _
  congr 1
  funext a
  apply Fin.ext
  match a with
  | ⟨0, _⟩ => show win2_1.index t 0 * 3200 + 1 * p.val = e.val; rw [b0, he]; omega
  | ⟨1, _⟩ => show win2_1.index t 1 * 32 + 1 * q.val = q.val; rw [b1]; omega

/-- The matrix's block at any point is the matrix. -/
theorem edgeBlk2_2 (c : Dev nD) (t : Fin cfg2.N) (k : Fin 8) (q : Fin 32) :
    (iblk2 V c 2 t : Vec Ideal S8x32 .f32) (ix2 k q) = (V c main_v34 : FVec Ideal ⟨2, ![8, 32]⟩ .f32) (ix2 k q) := by
  obtain ⟨-, -, -, -, c0, c1, -⟩ := edgeIdx2 t
  unfold iblk2
  rw [View.read_apply]
  show V c main_v34 _ = V c main_v34 _
  congr 1
  funext a
  apply Fin.ext
  match a with
  | ⟨0, _⟩ => show win2_2.index t 0 * 8 + 1 * k.val = k.val; rw [c0]; omega
  | ⟨1, _⟩ => show win2_2.index t 1 * 32 + 1 * q.val = q.val; rw [c1]; omega

/-- The bias row's block at any point is the bias row. -/
theorem edgeBlk2_3 (c : Dev nD) (t : Fin cfg2.N) (u : Fin 1) (q : Fin 32) :
    (iblk2 V c 3 t : Vec Ideal S1x32 .f32) (ix2 u q) = (V c main_v37 : FVec Ideal ⟨2, ![1, 32]⟩ .f32) (ix2 u q) := by
  obtain ⟨-, -, -, -, -, -, d0, d1, -⟩ := edgeIdx2 t
  unfold iblk2
  rw [View.read_apply]
  show V c main_v37 _ = V c main_v37 _
  congr 1
  funext a
  apply Fin.ext
  match a with
  | ⟨0, _⟩ => show win2_3.index t 0 * 1 + 1 * u.val = u.val; rw [d0]; omega
  | ⟨1, _⟩ => show win2_3.index t 1 * 32 + 1 * q.val = q.val; rw [d1]; omega

/-- WHAT POINT t WRITES BACK is block t of the messages of the four arrays as the stage finds them. -/
theorem edge2_flushed (c : Dev nD) (t : Fin cfg2.N) :
    (dat2 (F := Ideal) V c).flushed 4 t
      = ((cfg2.win 4).blk t).view.read (Elt Ideal)
          (Cert.Gine.edgeReg (V c main_arg1) (V c main_v32) (V c main_v34) (V c main_v37)) := by
  show (cfg2.win 4).cut (grid2.coords t) ((dat2 V c).after 4 t) = _
  rw [after2_4]
  obtain ⟨-, -, -, -, -, -, -, -, o0, o1⟩ := edgeIdx2 t
  funext j
  obtain ⟨p, q, rfl⟩ : ∃ (p : Fin 3200) (q : Fin 32), j = ix2 p q := ⟨j 0, j 1, eq_ix2 j⟩
  have hN : grid2.N = 500 := N_2
  have he : t.val * 3200 + p.val < 1600000 := by have h1 : t.val < grid2.N := t.isLt; have h2 := p.isLt; omega
  show out2_4 (iblk2 V c 0 t) (iblk2 V c 1 t) (iblk2 V c 2 t) (iblk2 V c 3 t) (ix2 p q)
    = Cert.Gine.edgeReg (V c main_arg1) (V c main_v32) (V c main_v34) (V c main_v37) (((cfg2.win 4).blk t).view.emb (ix2 p q))
  have hi : ((cfg2.win 4).blk t).view.emb (ix2 p q) = ix2 (⟨t.val * 3200 + p.val, he⟩ : Fin 1600000) q := by
    funext a
    apply Fin.ext
    match a with
    | ⟨0, _⟩ => show win2_4.index t 0 * 3200 + 1 * p.val = t.val * 3200 + p.val; rw [o0]; omega
    | ⟨1, _⟩ => show win2_4.index t 1 * 32 + 1 * q.val = q.val; rw [o1]; omega
  rw [hi, Cert.Gine.edgeReg_ix2]
  refine (edgeOut2_at _ _ _ _ p q).trans ?_
  exact edgeAt_block _ _ _ _ _ _ _ _ p q _ (fun k => edgeBlk2_0 V c t p k _ rfl) (edgeBlk2_1 V c t p q _ rfl)
    (fun k => edgeBlk2_2 V c t k q) (edgeBlk2_3 V c t 0 q)

/-- An index of the messages is in point t's block iff each coordinate is in the block's range on its axis. -/
theorem edge2_mem_blk (t : Fin cfg2.N) (i : S1600000x32.Idx) :
    i ∈ ((cfg2.win 4).blk t).view.set ↔ ∀ a : Fin 2, win2_4.index t a * S3200x32.size a ≤ (i a).val
      ∧ (i a).val < win2_4.index t a * S3200x32.size a + S3200x32.size a := by
  show i ∈ ((View.whole main_v38).slice (win2_4.rect t)).set ↔ _
  rw [View.set_slice_whole, Rect.mem_set_unit]
  exact Iff.rfl

/-- Every index of the messages is in some point's block: row e is in the block of point e / 3200. -/
theorem edge2_cover (i : S1600000x32.Idx) :
    ∃ t : Fin cfg2.N, (cfg2.win 4).flush t = true ∧ i ∈ ((cfg2.win 4).blk t).view.set := by
  have hi0 : (i 0).val < 1600000 := (i 0).isLt
  have hi1 : (i 1).val < 32 := (i 1).isLt
  have hN : grid2.N = 500 := N_2
  have ht : (i 0).val / 3200 < grid2.N := by omega
  obtain ⟨-, -, -, -, -, -, -, -, o0, o1⟩ := edgeIdx2 ⟨(i 0).val / 3200, ht⟩
  refine ⟨⟨(i 0).val / 3200, ht⟩, flush2_4 _, ?_⟩
  rw [edge2_mem_blk]
  intro a
  match a with
  | ⟨0, _⟩ =>
    show win2_4.index ⟨(i 0).val / 3200, ht⟩ (0 : Fin 2) * 3200 ≤ (i 0).val
      ∧ (i 0).val < win2_4.index ⟨(i 0).val / 3200, ht⟩ (0 : Fin 2) * 3200 + 3200
    rw [o0]
    show (i 0).val / 3200 * 3200 ≤ (i 0).val ∧ (i 0).val < (i 0).val / 3200 * 3200 + 3200
    omega
  | ⟨1, _⟩ =>
    show win2_4.index ⟨(i 0).val / 3200, ht⟩ (1 : Fin 2) * 32 ≤ (i 1).val
      ∧ (i 1).val < win2_4.index ⟨(i 0).val / 3200, ht⟩ (1 : Fin 2) * 32 + 32
    rw [o1]
    omega

/-- THE MESSAGES after the stage: the whole-array function of the four arrays as the stage finds them. -/
theorem edge2_arr (c : Dev nD) :
    (Gen.dat2 (F := Ideal) V c).arrAt 4 cfg2.N
      = Cert.Gine.edgeReg (V c main_arg1) (V c main_v32) (V c main_v34) (V c main_v37) :=
  (dat2 V c).arrAt_eq_of_cover 4 _ (fun t _ => edge2_flushed V c t) edge2_cover

end Cert.KernelIdeal.Hand

end
-- ==== Proof.EdgeReg4.lean ====
/-
  THE MESSAGES OF LAYER 2 AS ONE ARRAY.

  The edge stage of layer 2 runs over 500 grid points; point t reads rows 3200·t … 3200·t + 3199 of the edge features
  and of the gathered features, the whole [8, 32] matrix and the whole bias row, and writes back rows 3200·t … 3200·t + 3199
  of the messages. Each written block is the block of ONE whole-array function of the four arrays as the stage finds
  them — the message of row e, channel d — because a block's element sits at block index × block size + its coordinate
  in the block on each axis, and the block index on the row axis is t for the three row-blocked windows and 0 elsewhere.
  Row e is covered by point e / 3200, so after the last point the array holds that function everywhere.
-/
import proofs.«112617_j57896159150675_1_alg».proof.Proof.EdgeBody

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The five windows' arrays: edge features, gathered features, matrix, bias row, messages. -/
theorem edgeArrs4 : Pipeline.arrRef spec4 0 = main_arg1 ∧ Pipeline.arrRef spec4 1 = main_v54 ∧ Pipeline.arrRef spec4 2 = main_v56
    ∧ Pipeline.arrRef spec4 3 = main_v59 ∧ Pipeline.arrRef spec4 4 = main_v60 := ⟨rfl, rfl, rfl, rfl, rfl⟩

/-- The printed index maps over the grid: the row-blocked windows (edge features, gathered features, messages) are at
    block t on the row axis and block 0 on the other; the matrix and the bias row are at block 0 on both. -/
theorem edgeIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The edge features' block at point t, row p: row 3200·t + p of the array. -/
theorem edgeBlk4_0 (c : Dev nD) (t : Fin cfg4.N) (p : Fin 3200) (k : Fin 8) (e : Fin 1600000)
    (he : e.val = t.val * 3200 + p.val) :
    (iblk4 V c 0 t : Vec Ideal S3200x8 .f32) (ix2 p k) = (V c main_arg1 : FVec Ideal ⟨2, ![1600000, 8]⟩ .f32) (ix2 e k) := by
  obtain ⟨a0, a1, -⟩ := edgeIdx4 t
  unfold iblk4
  rw [View.read_apply]
  show V c main_arg1 _ = V c main_arg1 _
  congr 1
  funext a
  apply Fin.ext
  match a with
  | ⟨0, _⟩ => show win4_0.index t 0 * 3200 + 1 * p.val = e.val; rw [a0, he]; omega
  | ⟨1, _⟩ => show win4_0.index t 1 * 8 + 1 * k.val = k.val; rw [a1]; omega

/-- The gathered features' block at point t, row p: row 3200·t + p of the array. -/
theorem edgeBlk4_1 (c : Dev nD) (t : Fin cfg4.N) (p : Fin 3200) (q : Fin 32) (e : Fin 1600000)
    (he : e.val = t.val * 3200 + p.val) :
    (iblk4 V c 1 t : Vec Ideal S3200x32 .f32) (ix2 p q) = (V c main_v54 : FVec Ideal ⟨2, ![1600000, 32]⟩ .f32) (ix2 e q) := by
  obtain ⟨-, -, b0, b1, -⟩ := edgeIdx4 t
  unfold iblk4
  rw [View.read_apply]
  show V c main_v54 _ = V c main_v54 _
  congr 1
  funext a
  apply Fin.ext
  match a with
  | ⟨0, _⟩ => show win4_1.index t 0 * 3200 + 1 * p.val = e.val; rw [b0, he]; omega
  | ⟨1, _⟩ => show win4_1.index t 1 * 32 + 1 * q.val = q.val; rw [b1]; omega

/-- The matrix's block at any point is the matrix. -/
theorem edgeBlk4_2 (c : Dev nD) (t : Fin cfg4.N) (k : Fin 8) (q : Fin 32) :
    (iblk4 V c 2 t : Vec Ideal S8x32 .f32) (ix2 k q) = (V c main_v56 : FVec Ideal ⟨2, ![8, 32]⟩ .f32) (ix2 k q) := by
  obtain ⟨-, -, -, -, c0, c1, -⟩ := edgeIdx4 t
  unfold iblk4
  rw [View.read_apply]
  show V c main_v56 _ = V c main_v56 _
  congr 1
  funext a
  apply Fin.ext
  match a with
  | ⟨0, _⟩ => show win4_2.index t 0 * 8 + 1 * k.val = k.val; rw [c0]; omega
  | ⟨1, _⟩ => show win4_2.index t 1 * 32 + 1 * q.val = q.val; rw [c1]; omega

/-- The bias row's block at any point is the bias row. -/
theorem edgeBlk4_3 (c : Dev nD) (t : Fin cfg4.N) (u : Fin 1) (q : Fin 32) :
    (iblk4 V c 3 t : Vec Ideal S1x32 .f32) (ix2 u q) = (V c main_v59 : FVec Ideal ⟨2, ![1, 32]⟩ .f32) (ix2 u q) := by
  obtain ⟨-, -, -, -, -, -, d0, d1, -⟩ := edgeIdx4 t
  unfold iblk4
  rw [View.read_apply]
  show V c main_v59 _ = V c main_v59 _
  congr 1
  funext a
  apply Fin.ext
  match a with
  | ⟨0, _⟩ => show win4_3.index t 0 * 1 + 1 * u.val = u.val; rw [d0]; omega
  | ⟨1, _⟩ => show win4_3.index t 1 * 32 + 1 * q.val = q.val; rw [d1]; omega

/-- WHAT POINT t WRITES BACK is block t of the messages of the four arrays as the stage finds them. -/
theorem edge4_flushed (c : Dev nD) (t : Fin cfg4.N) :
    (dat4 (F := Ideal) V c).flushed 4 t
      = ((cfg4.win 4).blk t).view.read (Elt Ideal)
          (Cert.Gine.edgeReg (V c main_arg1) (V c main_v54) (V c main_v56) (V c main_v59)) := by
  show (cfg4.win 4).cut (grid4.coords t) ((dat4 V c).after 4 t) = _
  rw [after4_4]
  obtain ⟨-, -, -, -, -, -, -, -, o0, o1⟩ := edgeIdx4 t
  funext j
  obtain ⟨p, q, rfl⟩ : ∃ (p : Fin 3200) (q : Fin 32), j = ix2 p q := ⟨j 0, j 1, eq_ix2 j⟩
  have hN : grid4.N = 500 := N_4
  have he : t.val * 3200 + p.val < 1600000 := by have h1 : t.val < grid4.N := t.isLt; have h2 := p.isLt; omega
  show out4_4 (iblk4 V c 0 t) (iblk4 V c 1 t) (iblk4 V c 2 t) (iblk4 V c 3 t) (ix2 p q)
    = Cert.Gine.edgeReg (V c main_arg1) (V c main_v54) (V c main_v56) (V c main_v59) (((cfg4.win 4).blk t).view.emb (ix2 p q))
  have hi : ((cfg4.win 4).blk t).view.emb (ix2 p q) = ix2 (⟨t.val * 3200 + p.val, he⟩ : Fin 1600000) q := by
    funext a
    apply Fin.ext
    match a with
    | ⟨0, _⟩ => show win4_4.index t 0 * 3200 + 1 * p.val = t.val * 3200 + p.val; rw [o0]; omega
    | ⟨1, _⟩ => show win4_4.index t 1 * 32 + 1 * q.val = q.val; rw [o1]; omega
  rw [hi, Cert.Gine.edgeReg_ix2]
  refine (edgeOut4_at _ _ _ _ p q).trans ?_
  exact edgeAt_block _ _ _ _ _ _ _ _ p q _ (fun k => edgeBlk4_0 V c t p k _ rfl) (edgeBlk4_1 V c t p q _ rfl)
    (fun k => edgeBlk4_2 V c t k q) (edgeBlk4_3 V c t 0 q)

/-- An index of the messages is in point t's block iff each coordinate is in the block's range on its axis. -/
theorem edge4_mem_blk (t : Fin cfg4.N) (i : S1600000x32.Idx) :
    i ∈ ((cfg4.win 4).blk t).view.set ↔ ∀ a : Fin 2, win4_4.index t a * S3200x32.size a ≤ (i a).val
      ∧ (i a).val < win4_4.index t a * S3200x32.size a + S3200x32.size a := by
  show i ∈ ((View.whole main_v60).slice (win4_4.rect t)).set ↔ _
  rw [View.set_slice_whole, Rect.mem_set_unit]
  exact Iff.rfl

/-- Every index of the messages is in some point's block: row e is in the block of point e / 3200. -/
theorem edge4_cover (i : S1600000x32.Idx) :
    ∃ t : Fin cfg4.N, (cfg4.win 4).flush t = true ∧ i ∈ ((cfg4.win 4).blk t).view.set := by
  have hi0 : (i 0).val < 1600000 := (i 0).isLt
  have hi1 : (i 1).val < 32 := (i 1).isLt
  have hN : grid4.N = 500 := N_4
  have ht : (i 0).val / 3200 < grid4.N := by omega
  obtain ⟨-, -, -, -, -, -, -, -, o0, o1⟩ := edgeIdx4 ⟨(i 0).val / 3200, ht⟩
  refine ⟨⟨(i 0).val / 3200, ht⟩, flush4_4 _, ?_⟩
  rw [edge4_mem_blk]
  intro a
  match a with
  | ⟨0, _⟩ =>
    show win4_4.index ⟨(i 0).val / 3200, ht⟩ (0 : Fin 2) * 3200 ≤ (i 0).val
      ∧ (i 0).val < win4_4.index ⟨(i 0).val / 3200, ht⟩ (0 : Fin 2) * 3200 + 3200
    rw [o0]
    show (i 0).val / 3200 * 3200 ≤ (i 0).val ∧ (i 0).val < (i 0).val / 3200 * 3200 + 3200
    omega
  | ⟨1, _⟩ =>
    show win4_4.index ⟨(i 0).val / 3200, ht⟩ (1 : Fin 2) * 32 ≤ (i 1).val
      ∧ (i 1).val < win4_4.index ⟨(i 0).val / 3200, ht⟩ (1 : Fin 2) * 32 + 32
    rw [o1]
    omega

/-- THE MESSAGES after the stage: the whole-array function of the four arrays as the stage finds them. -/
theorem edge4_arr (c : Dev nD) :
    (Gen.dat4 (F := Ideal) V c).arrAt 4 cfg4.N
      = Cert.Gine.edgeReg (V c main_arg1) (V c main_v54) (V c main_v56) (V c main_v59) :=
  (dat4 V c).arrAt_eq_of_cover 4 _ (fun t _ => edge4_flushed V c t) edge4_cover

end Cert.KernelIdeal.Hand

end
-- ==== Proof.NodeBody.lean ====
/-
  THE NODE UPDATE OF ONE BLOCK OF ROWS, AT AN ELEMENT.

  The node kernel's body takes a block of 2000 rows of the features x and of the summed messages agg, the whole
  [32, 32] matrix W and the [1, 32] bias row br, and stores one [2000, 32] block. At row p, channel q the stored
  value is

      leaky( Σ_k ( x[p, k] + agg[p, k] ) · W[k, q] + br[0, q] ),

  that is, the specification's node function over 2000 rows. Over the extended reals a change of float format is
  the identity, a re-layout to the same shape is the identity, the product into a zero accumulator is the plain
  sum over k, the repeated bias row reads its one row, and the comparison-and-select is the two-branch leaky cut-off.
-/
import proofs.«112617_j57896159150675_1_alg».proof.Proof.Gen.KernelIdeal.Frame
import proofs.«112617_j57896159150675_1_alg».proof.Proof.Spec
import proofs.«112617_j57896159150675_1_alg».proof.Proof.LibRowReads
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The zero offsets of a whole-buffer access. -/
theorem hz : (![0, 0] : Fin 2 → Nat) = fun _ => 0 := funext fun a => by fin_cases a <;> rfl

/-- The comparison "above zero" followed by the choice between v and v · slope is the leaky cut-off. -/
theorem select_gt_zero (v : EReal) :
    Scalar.select (Ideal.cmp .ogt v (Ideal.ofBits .f32 0x00000000#32)) v (v * Ideal.ofBits .f32 0x3C23D70A#32)
      = Cert.Gine.leaky v := by
  unfold Cert.Gine.leaky Scalar.select Ideal.cmp
  by_cases h : Cert.Gine.zero32 < v
  · rw [if_pos h]
    have : decide (Ideal.ofBits .f32 0x00000000#32 < v) = true := decide_eq_true h
    simp only [this]
    rfl
  · rw [if_neg h]
    have : decide (Ideal.ofBits .f32 0x00000000#32 < v) = false := decide_eq_false h
    simp only [this]
    rfl

/-- The body's arithmetic of the first node region, at row p and channel q of the block. -/
theorem pay1_at (v0 v1 : Vec Ideal S2000x32 .f32) (v5 : Vec Ideal S32x32 .f32) (v9 : Vec Ideal S1x32 .f32)
    (p : Fin 2000) (q : Fin 32) :
    k1_pay1 (F := Ideal) v0 v1 v5 v9 (ix2 p q) = Cert.Gine.nodeAt v0 v1 v5 v9 p q := by
  unfold k1_pay1
  simp only [shapeCast_self]
  rw [select_apply, cmpf_apply, mulf_apply, broadcast_apply, broadcast_apply, addf_apply]
  have hm : matmul dot_S2000x32_S32x32_S2000x32_1_0_0_1_n_n none (truncf .bf16 (addf v0 v1) bitsLt_bf16_f32)
      (truncf .bf16 v5 bitsLt_bf16_f32) (constant (F := Ideal) S2000x32 .f32 0x00000000#32) (ix2 p q)
      = ∑ k : Fin 32, (v0 (ix2 p k) + v1 (ix2 p k)) * v5 (ix2 k q) :=
    Cert.Lib.matmul_zero_at _ rfl rfl rfl rfl rfl rfl none _ _ p q
  have hb : broadcastTo S2000x32 v9 broadcasts_S1x32_S2000x32 (ix2 p q) = v9 (ix2 (0 : Fin 1) q) :=
    broadcastTo_1b_ab_apply v9 _ p q
  rw [hm, hb]
  exact select_gt_zero _

/-- The body's arithmetic of node region 3, at row p and channel q of the block: the same function. -/
theorem pay3_at (v0 v2 : Vec Ideal S2000x32 .f32) (v6 : Vec Ideal S32x32 .f32) (v10 : Vec Ideal S1x32 .f32)
    (p : Fin 2000) (q : Fin 32) :
    k3_pay1 (F := Ideal) v0 v2 v6 v10 (ix2 p q) = Cert.Gine.nodeAt v0 v2 v6 v10 p q := by
  unfold k3_pay1
  simp only [shapeCast_self]
  rw [select_apply, cmpf_apply, mulf_apply, broadcast_apply, broadcast_apply, addf_apply]
  have hm : matmul dot_S2000x32_S32x32_S2000x32_1_0_0_1_n_n none (truncf .bf16 (addf v0 v2) bitsLt_bf16_f32)
      (truncf .bf16 v6 bitsLt_bf16_f32) (constant (F := Ideal) S2000x32 .f32 0x00000000#32) (ix2 p q)
      = ∑ k : Fin 32, (v0 (ix2 p k) + v2 (ix2 p k)) * v6 (ix2 k q) :=
    Cert.Lib.matmul_zero_at _ rfl rfl rfl rfl rfl rfl none _ _ p q
  have hb : broadcastTo S2000x32 v10 broadcasts_S1x32_S2000x32 (ix2 p q) = v10 (ix2 (0 : Fin 1) q) :=
    broadcastTo_1b_ab_apply v10 _ p q
  rw [hm, hb]
  exact select_gt_zero _

/-- The body's arithmetic of node region 5, at row p and channel q of the block: the same function. -/
theorem pay5_at (v0 v2 : Vec Ideal S2000x32 .f32) (v6 : Vec Ideal S32x32 .f32) (v10 : Vec Ideal S1x32 .f32)
    (p : Fin 2000) (q : Fin 32) :
    k5_pay1 (F := Ideal) v0 v2 v6 v10 (ix2 p q) = Cert.Gine.nodeAt v0 v2 v6 v10 p q := by
  unfold k5_pay1
  simp only [shapeCast_self]
  rw [select_apply, cmpf_apply, mulf_apply, broadcast_apply, broadcast_apply, addf_apply]
  have hm : matmul dot_S2000x32_S32x32_S2000x32_1_0_0_1_n_n none (truncf .bf16 (addf v0 v2) bitsLt_bf16_f32)
      (truncf .bf16 v6 bitsLt_bf16_f32) (constant (F := Ideal) S2000x32 .f32 0x00000000#32) (ix2 p q)
      = ∑ k : Fin 32, (v0 (ix2 p k) + v2 (ix2 p k)) * v6 (ix2 k q) :=
    Cert.Lib.matmul_zero_at _ rfl rfl rfl rfl rfl rfl none _ _ p q
  have hb : broadcastTo S2000x32 v10 broadcasts_S1x32_S2000x32 (ix2 p q) = v10 (ix2 (0 : Fin 1) q) :=
    broadcastTo_1b_ab_apply v10 _ p q
  rw [hm, hb]
  exact select_gt_zero _

/-- What the body of node region 1 leaves in the output block, as one function of the four input blocks: the node
    function over the block's 2000 rows. -/
theorem out1_eq (x0 x1 : Vec Ideal S2000x32 .f32) (x2 : Vec Ideal S32x32 .f32) (x3 : Vec Ideal S1x32 .f32) :
    out1_4 (F := Ideal) x0 x1 x2 x3 = Cert.Gine.nodeReg x0 x1 x2 x3 := by
  unfold out1_4
  rw [View.canon_unit_zero hz]
  simp only [View.ld_unit_zero (S := S2000x32) hz, View.ld_unit_zero (S := S32x32) hz, View.ld_unit_zero (S := S1x32) hz]
  funext j
  obtain ⟨p, q, rfl⟩ : ∃ (p : Fin 2000) (q : Fin 32), j = ix2 p q := ⟨j 0, j 1, eq_ix2 j⟩
  exact pay1_at x0 x1 x2 x3 p q

/-- What the body of node region 3 leaves in the output block, as one function of the four input blocks: the node
    function over the block's 2000 rows. -/
theorem out3_eq (x0 x1 : Vec Ideal S2000x32 .f32) (x2 : Vec Ideal S32x32 .f32) (x3 : Vec Ideal S1x32 .f32) :
    out3_4 (F := Ideal) x0 x1 x2 x3 = Cert.Gine.nodeReg x0 x1 x2 x3 := by
  unfold out3_4
  rw [View.canon_unit_zero hz]
  simp only [View.ld_unit_zero (S := S2000x32) hz, View.ld_unit_zero (S := S32x32) hz, View.ld_unit_zero (S := S1x32) hz]
  funext j
  obtain ⟨p, q, rfl⟩ : ∃ (p : Fin 2000) (q : Fin 32), j = ix2 p q := ⟨j 0, j 1, eq_ix2 j⟩
  exact pay3_at x0 x1 x2 x3 p q

/-- What the body of node region 5 leaves in the output block, as one function of the four input blocks: the node
    function over the block's 2000 rows. -/
theorem out5_eq (x0 x1 : Vec Ideal S2000x32 .f32) (x2 : Vec Ideal S32x32 .f32) (x3 : Vec Ideal S1x32 .f32) :
    out5_4 (F := Ideal) x0 x1 x2 x3 = Cert.Gine.nodeReg x0 x1 x2 x3 := by
  unfold out5_4
  rw [View.canon_unit_zero hz]
  simp only [View.ld_unit_zero (S := S2000x32) hz, View.ld_unit_zero (S := S32x32) hz, View.ld_unit_zero (S := S1x32) hz]
  funext j
  obtain ⟨p, q, rfl⟩ : ∃ (p : Fin 2000) (q : Fin 32), j = ix2 p q := ⟨j 0, j 1, eq_ix2 j⟩
  exact pay5_at x0 x1 x2 x3 p q

/-- THE NODE FUNCTION DEPENDS ON ONE ROW of the two row-indexed arrays, one column of the matrix and one entry of
    the bias row: if a block (x, a, w, b) agrees with the arrays (X, A, W, br) on row p ↦ row n and column q ↦
    column q', the two node functions agree there. -/
theorem nodeAt_of_rows {N M : Nat} (X A : FVec Ideal ⟨2, ![N, 32]⟩ .f32) (W : FVec Ideal ⟨2, ![32, 32]⟩ .f32)
    (br : FVec Ideal ⟨2, ![1, 32]⟩ .f32) (x a : FVec Ideal ⟨2, ![M, 32]⟩ .f32) (w : FVec Ideal ⟨2, ![32, 32]⟩ .f32)
    (b : FVec Ideal ⟨2, ![1, 32]⟩ .f32) (p : Fin M) (n : Fin N) (q q' : Fin 32)
    (hx : ∀ k : Fin 32, x (ix2 p k) = X (ix2 n k)) (ha : ∀ k : Fin 32, a (ix2 p k) = A (ix2 n k))
    (hw : ∀ k : Fin 32, w (ix2 k q) = W (ix2 k q')) (hb : b (ix2 (0 : Fin 1) q) = br (ix2 (0 : Fin 1) q')) :
    Cert.Gine.nodeAt x a w b p q = Cert.Gine.nodeAt X A W br n q' := by
  unfold Cert.Gine.nodeAt
  rw [hb, Finset.sum_congr rfl fun k _ => by rw [hx k, ha k, hw k]]

end Cert.KernelIdeal.Hand

end
-- ==== Proof.Node1.lean ====
/-
  NODE REGION 1: THE WHOLE OUTPUT ARRAY IS THE NODE FUNCTION OF THE REGION'S FOUR INPUT ARRAYS.

  The region runs the node body at 50 grid points. Point t reads rows 2000·t … 2000·t + 1999 of the features and of
  the summed messages, the whole node matrix and the whole bias row, and writes back rows 2000·t … 2000·t + 1999 of
  the output. Row e of the output depends only on row e of the two row-blocked inputs, so the block point t writes
  back is the block of the whole-array node function; the 50 blocks tile the 100000 rows (row e is in block
  e / 2000), so the array ends holding that function everywhere.
-/
import proofs.«112617_j57896159150675_1_alg».proof.Proof.NodeBody

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the two row-blocked inputs and the output sit at block row t, column
    block 0; the matrix and the bias row are whole arrays at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of the node function of the four input arrays as the region finds them. -/
theorem flushed1_eq (c : Dev nD) (t : Fin cfg1.N) :
    (dat1 (F := Ideal) V c).flushed 4 t = ((cfg1.win 4).blk t).view.read (Elt Ideal)
      (Cert.Gine.nodeReg (V c main_arg0) (V c main_v19) (V c main_v21) (V c main_v24)) := by
  show (cfg1.win 4).cut (grid1.coords t) ((dat1 V c).after 4 t) = _
  rw [after1_4, out1_eq]
  obtain ⟨e00, e01, e10, e11, e20, e21, e30, e31, e40, e41⟩ := idx_facts1 t
  funext j
  show Cert.Gine.nodeAt (iblk1 V c 0 t) (iblk1 V c 1 t) (iblk1 V c 2 t) (iblk1 V c 3 t) (j 0) (j 1)
    = Cert.Gine.nodeAt (V c main_arg0) (V c main_v19) (V c main_v21) (V c main_v24)
        ((((cfg1.win 4).blk t).view.emb j) 0) ((((cfg1.win 4).blk t).view.emb j) 1)
  have hj0 : (j 0).val < 2000 := (j 0).isLt
  have hj1 : (j 1).val < 32 := (j 1).isLt
  -- an element of the output block sits in the array at block index × block size + its coordinate in the block
  have o0 : ((((cfg1.win 4).blk t).view.emb j) 0).val = win1_4.index t (0 : Fin 2) * 2000 + 1 * (j 0).val := rfl
  have o1 : ((((cfg1.win 4).blk t).view.emb j) 1).val = win1_4.index t (1 : Fin 2) * 32 + 1 * (j 1).val := rfl
  refine nodeAt_of_rows (N := 100000) (M := 2000) (V c main_arg0) (V c main_v19) (V c main_v21) (V c main_v24)
    (iblk1 V c 0 t) (iblk1 V c 1 t) (iblk1 V c 2 t) (iblk1 V c 3 t) (j 0) _ (j 1) _ ?_ ?_ ?_ ?_
  · -- the features' block, row j 0: the array's row 2000 t + j 0
    intro k
    show V c main_arg0 (((cfg1.win 0).blk t).view.emb (ix2 (j 0) k)) = V c main_arg0 (ix2 ((((cfg1.win 4).blk t).view.emb j) 0) k)
    refine congrArg (V c main_arg0) ?_
    funext a; apply Fin.ext
    match a with
    | ⟨0, _⟩ => show win1_0.index t (0 : Fin 2) * 2000 + 1 * (j 0).val = ((((cfg1.win 4).blk t).view.emb j) 0).val; omega
    | ⟨1, _⟩ => show win1_0.index t (1 : Fin 2) * 32 + 1 * k.val = k.val; omega
  · -- the summed messages' block, the same row
    intro k
    show V c main_v19 (((cfg1.win 1).blk t).view.emb (ix2 (j 0) k)) = V c main_v19 (ix2 ((((cfg1.win 4).blk t).view.emb j) 0) k)
    refine congrArg (V c main_v19) ?_
    funext a; apply Fin.ext
    match a with
    | ⟨0, _⟩ => show win1_1.index t (0 : Fin 2) * 2000 + 1 * (j 0).val = ((((cfg1.win 4).blk t).view.emb j) 0).val; omega
    | ⟨1, _⟩ => show win1_1.index t (1 : Fin 2) * 32 + 1 * k.val = k.val; omega
  · -- the matrix is one block: the whole array
    intro k
    show V c main_v21 (((cfg1.win 2).blk t).view.emb (ix2 k (j 1))) = V c main_v21 (ix2 k ((((cfg1.win 4).blk t).view.emb j) 1))
    refine congrArg (V c main_v21) ?_
    funext a; apply Fin.ext
    match a with
    | ⟨0, _⟩ => show win1_2.index t (0 : Fin 2) * 32 + 1 * k.val = k.val; omega
    | ⟨1, _⟩ => show win1_2.index t (1 : Fin 2) * 32 + 1 * (j 1).val = ((((cfg1.win 4).blk t).view.emb j) 1).val; omega
  · -- the bias row is one block: the whole array
    show V c main_v24 (((cfg1.win 3).blk t).view.emb (ix2 (0 : Fin 1) (j 1))) = V c main_v24 (ix2 (0 : Fin 1) ((((cfg1.win 4).blk t).view.emb j) 1))
    refine congrArg (V c main_v24) ?_
    funext a; apply Fin.ext
    match a with
    | ⟨0, _⟩ => show win1_3.index t (0 : Fin 2) * 1 + 1 * 0 = 0; omega
    | ⟨1, _⟩ => show win1_3.index t (1 : Fin 2) * 32 + 1 * (j 1).val = ((((cfg1.win 4).blk t).view.emb j) 1).val; omega

/-- An index of the output array is in point t's block iff each coordinate is in the block's range on its axis. -/
theorem mem_blk1 (t : Fin cfg1.N) (i : S100000x32.Idx) :
    i ∈ ((cfg1.win 4).blk t).view.set ↔ ∀ a : Fin 2, win1_4.index t a * S2000x32.size a ≤ (i a).val ∧ (i a).val < win1_4.index t a * S2000x32.size a + S2000x32.size a := by
  show i ∈ ((View.whole main_v25).slice (win1_4.rect t)).set ↔ _
  rw [View.set_slice_whole, Rect.mem_set_unit]
  exact Iff.rfl

/-- THE BLOCKS TILE THE ARRAY: row e of the output is in the block of point e / 2000, and every point writes back. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, e40, e41⟩ := idx_facts1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 32 ≤ (i 1).val ∧ (i 1).val < win1_4.index t (1 : Fin 2) * 32 + 32; omega

/-- THE OUTPUT ARRAY after the region's pipeline: the node function of the four input arrays as the region finds
    them, at every row and channel. -/
theorem node1_arr (c : Dev nD) :
    (Gen.dat1 (F := Ideal) V c).arrAt 4 cfg1.N
      = Cert.Gine.nodeReg (V c main_arg0) (V c main_v19) (V c main_v21) (V c main_v24) :=
  (dat1 (F := Ideal) V c).arrAt_eq_of_cover 4 _ (fun t _ => flushed1_eq V c t) (cover1)

end Cert.KernelIdeal.Hand

end
-- ==== Proof.Node3.lean ====
/-
  NODE REGION 3: THE WHOLE OUTPUT ARRAY IS THE NODE FUNCTION OF THE REGION'S FOUR INPUT ARRAYS.

  The region runs the node body at 50 grid points. Point t reads rows 2000·t … 2000·t + 1999 of the features and of
  the summed messages, the whole node matrix and the whole bias row, and writes back rows 2000·t … 2000·t + 1999 of
  the output. Row e of the output depends only on row e of the two row-blocked inputs, so the block point t writes
  back is the block of the whole-array node function; the 50 blocks tile the 100000 rows (row e is in block
  e / 2000), so the array ends holding that function everywhere.
-/
import proofs.«112617_j57896159150675_1_alg».proof.Proof.NodeBody

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the two row-blocked inputs and the output sit at block row t, column
    block 0; the matrix and the bias row are whole arrays at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT t WRITES BACK is block t of the node function of the four input arrays as the region finds them. -/
theorem flushed3_eq (c : Dev nD) (t : Fin cfg3.N) :
    (dat3 (F := Ideal) V c).flushed 4 t = ((cfg3.win 4).blk t).view.read (Elt Ideal)
      (Cert.Gine.nodeReg (V c main_v25) (V c main_v41) (V c main_v43) (V c main_v46)) := by
  show (cfg3.win 4).cut (grid3.coords t) ((dat3 V c).after 4 t) = _
  rw [after3_4, out3_eq]
  obtain ⟨e00, e01, e10, e11, e20, e21, e30, e31, e40, e41⟩ := idx_facts3 t
  funext j
  show Cert.Gine.nodeAt (iblk3 V c 0 t) (iblk3 V c 1 t) (iblk3 V c 2 t) (iblk3 V c 3 t) (j 0) (j 1)
    = Cert.Gine.nodeAt (V c main_v25) (V c main_v41) (V c main_v43) (V c main_v46)
        ((((cfg3.win 4).blk t).view.emb j) 0) ((((cfg3.win 4).blk t).view.emb j) 1)
  have hj0 : (j 0).val < 2000 := (j 0).isLt
  have hj1 : (j 1).val < 32 := (j 1).isLt
  -- an element of the output block sits in the array at block index × block size + its coordinate in the block
  have o0 : ((((cfg3.win 4).blk t).view.emb j) 0).val = win3_4.index t (0 : Fin 2) * 2000 + 1 * (j 0).val := rfl
  have o1 : ((((cfg3.win 4).blk t).view.emb j) 1).val = win3_4.index t (1 : Fin 2) * 32 + 1 * (j 1).val := rfl
  refine nodeAt_of_rows (N := 100000) (M := 2000) (V c main_v25) (V c main_v41) (V c main_v43) (V c main_v46)
    (iblk3 V c 0 t) (iblk3 V c 1 t) (iblk3 V c 2 t) (iblk3 V c 3 t) (j 0) _ (j 1) _ ?_ ?_ ?_ ?_
  · -- the features' block, row j 0: the array's row 2000 t + j 0
    intro k
    show V c main_v25 (((cfg3.win 0).blk t).view.emb (ix2 (j 0) k)) = V c main_v25 (ix2 ((((cfg3.win 4).blk t).view.emb j) 0) k)
    refine congrArg (V c main_v25) ?_
    funext a; apply Fin.ext
    match a with
    | ⟨0, _⟩ => show win3_0.index t (0 : Fin 2) * 2000 + 1 * (j 0).val = ((((cfg3.win 4).blk t).view.emb j) 0).val; omega
    | ⟨1, _⟩ => show win3_0.index t (1 : Fin 2) * 32 + 1 * k.val = k.val; omega
  · -- the summed messages' block, the same row
    intro k
    show V c main_v41 (((cfg3.win 1).blk t).view.emb (ix2 (j 0) k)) = V c main_v41 (ix2 ((((cfg3.win 4).blk t).view.emb j) 0) k)
    refine congrArg (V c main_v41) ?_
    funext a; apply Fin.ext
    match a with
    | ⟨0, _⟩ => show win3_1.index t (0 : Fin 2) * 2000 + 1 * (j 0).val = ((((cfg3.win 4).blk t).view.emb j) 0).val; omega
    | ⟨1, _⟩ => show win3_1.index t (1 : Fin 2) * 32 + 1 * k.val = k.val; omega
  · -- the matrix is one block: the whole array
    intro k
    show V c main_v43 (((cfg3.win 2).blk t).view.emb (ix2 k (j 1))) = V c main_v43 (ix2 k ((((cfg3.win 4).blk t).view.emb j) 1))
    refine congrArg (V c main_v43) ?_
    funext a; apply Fin.ext
    match a with
    | ⟨0, _⟩ => show win3_2.index t (0 : Fin 2) * 32 + 1 * k.val = k.val; omega
    | ⟨1, _⟩ => show win3_2.index t (1 : Fin 2) * 32 + 1 * (j 1).val = ((((cfg3.win 4).blk t).view.emb j) 1).val; omega
  · -- the bias row is one block: the whole array
    show V c main_v46 (((cfg3.win 3).blk t).view.emb (ix2 (0 : Fin 1) (j 1))) = V c main_v46 (ix2 (0 : Fin 1) ((((cfg3.win 4).blk t).view.emb j) 1))
    refine congrArg (V c main_v46) ?_
    funext a; apply Fin.ext
    match a with
    | ⟨0, _⟩ => show win3_3.index t (0 : Fin 2) * 1 + 1 * 0 = 0; omega
    | ⟨1, _⟩ => show win3_3.index t (1 : Fin 2) * 32 + 1 * (j 1).val = ((((cfg3.win 4).blk t).view.emb j) 1).val; omega

/-- An index of the output array is in point t's block iff each coordinate is in the block's range on its axis. -/
theorem mem_blk3 (t : Fin cfg3.N) (i : S100000x32.Idx) :
    i ∈ ((cfg3.win 4).blk t).view.set ↔ ∀ a : Fin 2, win3_4.index t a * S2000x32.size a ≤ (i a).val ∧ (i a).val < win3_4.index t a * S2000x32.size a + S2000x32.size a := by
  show i ∈ ((View.whole main_v47).slice (win3_4.rect t)).set ↔ _
  rw [View.set_slice_whole, Rect.mem_set_unit]
  exact Iff.rfl

/-- THE BLOCKS TILE THE ARRAY: row e of the output is in the block of point e / 2000, and every point writes back. -/
theorem cover3 (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, -, -, e40, e41⟩ := idx_facts3 t
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 32 ≤ (i 1).val ∧ (i 1).val < win3_4.index t (1 : Fin 2) * 32 + 32; omega

/-- THE OUTPUT ARRAY after the region's pipeline: the node function of the four input arrays as the region finds
    them, at every row and channel. -/
theorem node3_arr (c : Dev nD) :
    (Gen.dat3 (F := Ideal) V c).arrAt 4 cfg3.N
      = Cert.Gine.nodeReg (V c main_v25) (V c main_v41) (V c main_v43) (V c main_v46) :=
  (dat3 (F := Ideal) V c).arrAt_eq_of_cover 4 _ (fun t _ => flushed3_eq V c t) (cover3)

end Cert.KernelIdeal.Hand

end
-- ==== Proof.Node5.lean ====
/-
  NODE REGION 5: THE WHOLE OUTPUT ARRAY IS THE NODE FUNCTION OF THE REGION'S FOUR INPUT ARRAYS.

  The region runs the node body at 50 grid points. Point t reads rows 2000·t … 2000·t + 1999 of the features and of
  the summed messages, the whole node matrix and the whole bias row, and writes back rows 2000·t … 2000·t + 1999 of
  the output. Row e of the output depends only on row e of the two row-blocked inputs, so the block point t writes
  back is the block of the whole-array node function; the 50 blocks tile the 100000 rows (row e is in block
  e / 2000), so the array ends holding that function everywhere.
-/
import proofs.«112617_j57896159150675_1_alg».proof.Proof.NodeBody

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the two row-blocked inputs and the output sit at block row t, column
    block 0; the matrix and the bias row are whole arrays at block (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- WHAT POINT t WRITES BACK is block t of the node function of the four input arrays as the region finds them. -/
theorem flushed5_eq (c : Dev nD) (t : Fin cfg5.N) :
    (dat5 (F := Ideal) V c).flushed 4 t = ((cfg5.win 4).blk t).view.read (Elt Ideal)
      (Cert.Gine.nodeReg (V c main_v47) (V c main_v63) (V c main_v65) (V c main_v68)) := by
  show (cfg5.win 4).cut (grid5.coords t) ((dat5 V c).after 4 t) = _
  rw [after5_4, out5_eq]
  obtain ⟨e00, e01, e10, e11, e20, e21, e30, e31, e40, e41⟩ := idx_facts5 t
  funext j
  show Cert.Gine.nodeAt (iblk5 V c 0 t) (iblk5 V c 1 t) (iblk5 V c 2 t) (iblk5 V c 3 t) (j 0) (j 1)
    = Cert.Gine.nodeAt (V c main_v47) (V c main_v63) (V c main_v65) (V c main_v68)
        ((((cfg5.win 4).blk t).view.emb j) 0) ((((cfg5.win 4).blk t).view.emb j) 1)
  have hj0 : (j 0).val < 2000 := (j 0).isLt
  have hj1 : (j 1).val < 32 := (j 1).isLt
  -- an element of the output block sits in the array at block index × block size + its coordinate in the block
  have o0 : ((((cfg5.win 4).blk t).view.emb j) 0).val = win5_4.index t (0 : Fin 2) * 2000 + 1 * (j 0).val := rfl
  have o1 : ((((cfg5.win 4).blk t).view.emb j) 1).val = win5_4.index t (1 : Fin 2) * 32 + 1 * (j 1).val := rfl
  refine nodeAt_of_rows (N := 100000) (M := 2000) (V c main_v47) (V c main_v63) (V c main_v65) (V c main_v68)
    (iblk5 V c 0 t) (iblk5 V c 1 t) (iblk5 V c 2 t) (iblk5 V c 3 t) (j 0) _ (j 1) _ ?_ ?_ ?_ ?_
  · -- the features' block, row j 0: the array's row 2000 t + j 0
    intro k
    show V c main_v47 (((cfg5.win 0).blk t).view.emb (ix2 (j 0) k)) = V c main_v47 (ix2 ((((cfg5.win 4).blk t).view.emb j) 0) k)
    refine congrArg (V c main_v47) ?_
    funext a; apply Fin.ext
    match a with
    | ⟨0, _⟩ => show win5_0.index t (0 : Fin 2) * 2000 + 1 * (j 0).val = ((((cfg5.win 4).blk t).view.emb j) 0).val; omega
    | ⟨1, _⟩ => show win5_0.index t (1 : Fin 2) * 32 + 1 * k.val = k.val; omega
  · -- the summed messages' block, the same row
    intro k
    show V c main_v63 (((cfg5.win 1).blk t).view.emb (ix2 (j 0) k)) = V c main_v63 (ix2 ((((cfg5.win 4).blk t).view.emb j) 0) k)
    refine congrArg (V c main_v63) ?_
    funext a; apply Fin.ext
    match a with
    | ⟨0, _⟩ => show win5_1.index t (0 : Fin 2) * 2000 + 1 * (j 0).val = ((((cfg5.win 4).blk t).view.emb j) 0).val; omega
    | ⟨1, _⟩ => show win5_1.index t (1 : Fin 2) * 32 + 1 * k.val = k.val; omega
  · -- the matrix is one block: the whole array
    intro k
    show V c main_v65 (((cfg5.win 2).blk t).view.emb (ix2 k (j 1))) = V c main_v65 (ix2 k ((((cfg5.win 4).blk t).view.emb j) 1))
    refine congrArg (V c main_v65) ?_
    funext a; apply Fin.ext
    match a with
    | ⟨0, _⟩ => show win5_2.index t (0 : Fin 2) * 32 + 1 * k.val = k.val; omega
    | ⟨1, _⟩ => show win5_2.index t (1 : Fin 2) * 32 + 1 * (j 1).val = ((((cfg5.win 4).blk t).view.emb j) 1).val; omega
  · -- the bias row is one block: the whole array
    show V c main_v68 (((cfg5.win 3).blk t).view.emb (ix2 (0 : Fin 1) (j 1))) = V c main_v68 (ix2 (0 : Fin 1) ((((cfg5.win 4).blk t).view.emb j) 1))
    refine congrArg (V c main_v68) ?_
    funext a; apply Fin.ext
    match a with
    | ⟨0, _⟩ => show win5_3.index t (0 : Fin 2) * 1 + 1 * 0 = 0; omega
    | ⟨1, _⟩ => show win5_3.index t (1 : Fin 2) * 32 + 1 * (j 1).val = ((((cfg5.win 4).blk t).view.emb j) 1).val; omega

/-- An index of the output array is in point t's block iff each coordinate is in the block's range on its axis. -/
theorem mem_blk5 (t : Fin cfg5.N) (i : S100000x32.Idx) :
    i ∈ ((cfg5.win 4).blk t).view.set ↔ ∀ a : Fin 2, win5_4.index t a * S2000x32.size a ≤ (i a).val ∧ (i a).val < win5_4.index t a * S2000x32.size a + S2000x32.size a := by
  show i ∈ ((View.whole main_v69).slice (win5_4.rect t)).set ↔ _
  rw [View.set_slice_whole, Rect.mem_set_unit]
  exact Iff.rfl

/-- THE BLOCKS TILE THE ARRAY: row e of the output is in the block of point e / 2000, and every point writes back. -/
theorem cover5 (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨-, -, -, -, -, -, -, -, e40, e41⟩ := idx_facts5 t
  refine ⟨t, flush5_4 t, ?_⟩
  rw [mem_blk5]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 32 ≤ (i 1).val ∧ (i 1).val < win5_4.index t (1 : Fin 2) * 32 + 32; omega

/-- THE OUTPUT ARRAY after the region's pipeline: the node function of the four input arrays as the region finds
    them, at every row and channel. -/
theorem node5_arr (c : Dev nD) :
    (Gen.dat5 (F := Ideal) V c).arrAt 4 cfg5.N
      = Cert.Gine.nodeReg (V c main_v47) (V c main_v63) (V c main_v65) (V c main_v68) :=
  (dat5 (F := Ideal) V c).arrAt_eq_of_cover 4 _ (fun t _ => flushed5_eq V c t) (cover5)

end Cert.KernelIdeal.Hand

end
-- ==== Proof.RefOps.lean ====
/-
  THE REFERENCE PROGRAM AS ONE STRAIGHT LINE OF HOST OPERATIONS.

  The program is a short preamble and three layers. Each layer calls a cut-off at zero on the edge rows and a leaky
  cut-off on the node rows; a call runs the callee's operations on the caller's operands into buffers of the call's own,
  so the whole program is one line of 4 + 3 · 45 = 139 operations. The line is stated in four stretches — the preamble
  and one per layer — so that what a stretch leaves in a buffer can be read from contents that are a variable. That the
  line IS the program is `main_eq`: sequencing reassociated, both sides are the same chain of steps.
-/
import proofs.«112617_j57896159150675_1_alg».proof.ReferenceIdeal
import proofs.«112617_j57896159150675_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

/-- The two rows of the edge table, each cut out and flattened to a vector: four operations. -/
abbrev pre : List (HloOp τ sig (Elt F)) :=
  [ unary main_arg6 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg6 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The first layer's forty-five operations, the cut-offs' own operations in place: it reads the node features and the
    two index vectors and leaves the next node features. -/
abbrev lay0 : List (HloOp τ sig (Elt F)) :=
  [ unary main_arg4 main_v4 ((extractStridedSlice S1x8x32 ![0, 0, 0] · slices_S3x8x32_S1x8x32_0_0_0) : (⟨S3x8x32, .f32⟩ : BufTy).Contents (Elt F) → (⟨S1x8x32, .f32⟩ : BufTy).Contents (Elt F)),
    reshape main_v4 main_v5 rfl shapeCasts_S1x8x32_S8x32,
    binary main_arg1 main_v5 main_v6 ((fun l r => Host.dotGeneral dot_S1600000x8_S8x32_S1600000x32_1_0_0_1_n_n none l r) : (⟨S1600000x8, .f32⟩ : BufTy).Contents (Elt F) → (⟨S8x32, .f32⟩ : BufTy).Contents (Elt F) → (⟨S1600000x32, .f32⟩ : BufTy).Contents (Elt F)),
    unary main_arg5 main_v7 ((extractStridedSlice S1x32 ![0, 0] · slices_S3x32_S1x32_0_0) : (⟨S3x32, .f32⟩ : BufTy).Contents (Elt F) → (⟨S1x32, .f32⟩ : BufTy).Contents (Elt F)),
    reshape main_v7 main_v8 rfl shapeCasts_S1x32_S32,
    unary main_v8 main_v9 (broadcastInDim S1x32 ![1] bcast_S32_S1x32_1 : (⟨S32, .f32⟩ : BufTy).Contents (Elt F) → (⟨S1x32, .f32⟩ : BufTy).Contents (Elt F)),
    unary main_v9 main_v10 (broadcastInDim S1600000x32 ![0, 1] bcast_S1x32_S1600000x32_0_1 : (⟨S1x32, .f32⟩ : BufTy).Contents (Elt F) → (⟨S1600000x32, .f32⟩ : BufTy).Contents (Elt F)),
    binary main_v6 main_v10 main_v11 (addf : (⟨S1600000x32, .f32⟩ : BufTy).Contents (Elt F) → (⟨S1600000x32, .f32⟩ : BufTy).Contents (Elt F) → (⟨S1600000x32, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    binary main_v18 main_v11 main_v19 (addf : (⟨S1600000x32, .f32⟩ : BufTy).Contents (Elt F) → (⟨S1600000x32, .f32⟩ : BufTy).Contents (Elt F) → (⟨S1600000x32, .f32⟩ : BufTy).Contents (Elt F)),
    TRef.nullary main_call0.cst (constant S_ .f32 0x00000000#32),
    TRef.unary main_call0.cst main_call0.v0 (broadcastInDim S1600000x32 ![] bcast_S_S1600000x32),
    TRef.binary (.of main_v19) main_call0.v0 main_call0.v1 maximumf,
    nullary main_cst (constant S_ .f32 0x00000000#32),
    unary main_cst main_v21 (broadcastInDim S100000x32 ![] bcast_S_S100000x32 : (⟨S_, .f32⟩ : BufTy).Contents (Elt F) → (⟨S100000x32, .f32⟩ : BufTy).Contents (Elt F)),
    unary main_v3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_1 (constant S_ .f32 0x3F800000#32),
    unary main_cst_1 main_v24 (broadcastInDim S100000x32 ![] bcast_S_S100000x32 : (⟨S_, .f32⟩ : BufTy).Contents (Elt F) → (⟨S100000x32, .f32⟩ : BufTy).Contents (Elt F)),
    binary main_v24 main_arg0 main_v25 (mulf : (⟨S100000x32, .f32⟩ : BufTy).Contents (Elt F) → (⟨S100000x32, .f32⟩ : BufTy).Contents (Elt F) → (⟨S100000x32, .f32⟩ : BufTy).Contents (Elt F)),
    binary main_v25 main_v23 main_v26 (addf : (⟨S100000x32, .f32⟩ : BufTy).Contents (Elt F) → (⟨S100000x32, .f32⟩ : BufTy).Contents (Elt F) → (⟨S100000x32, .f32⟩ : BufTy).Contents (Elt F)),
    unary main_arg2 main_v27 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v27 main_v28 rfl shapeCasts_S1x32x32_S32x32,
    binary main_v26 main_v28 main_v29 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_arg3 main_v30 ((extractStridedSlice S1x32 ![0, 0] · slices_S3x32_S1x32_0_0) : (⟨S3x32, .f32⟩ : BufTy).Contents (Elt F) → (⟨S1x32, .f32⟩ : BufTy).Contents (Elt F)),
    reshape main_v30 main_v31 rfl shapeCasts_S1x32_S32,
    unary main_v31 main_v32 (broadcastInDim S1x32 ![1] bcast_S32_S1x32_1 : (⟨S32, .f32⟩ : BufTy).Contents (Elt F) → (⟨S1x32, .f32⟩ : BufTy).Contents (Elt F)),
    unary main_v32 main_v33 (broadcastInDim S100000x32 ![0, 1] bcast_S1x32_S100000x32_0_1 : (⟨S1x32, .f32⟩ : BufTy).Contents (Elt F) → (⟨S100000x32, .f32⟩ : BufTy).Contents (Elt F)),
    binary main_v29 main_v33 main_v34 (addf : (⟨S100000x32, .f32⟩ : BufTy).Contents (Elt F) → (⟨S100000x32, .f32⟩ : BufTy).Contents (Elt F) → (⟨S100000x32, .f32⟩ : BufTy).Contents (Elt F)),
    nullary main_cst_2 (constant S_ .f32 0x3C23D70A#32),
    TRef.nullary main_call1.cst (constant S_ .f32 0x00000000#32),
    TRef.unary main_call1.cst main_call1.v0 (broadcastInDim S100000x32 ![] bcast_S_S100000x32),
    TRef.binary (.of main_v34) main_call1.v0 main_call1.v1 (cmpf .oge),
    TRef.unary (.of main_cst_2) main_call1.v2 id,
    TRef.unary main_call1.v2 main_call1.v3 (broadcastInDim S100000x32 ![] bcast_S_S100000x32),
    TRef.binary main_call1.v3 (.of main_v34) main_call1.v4 mulf,
    TRef.ternary main_call1.v1 (.of main_v34) main_call1.v4 main_call1.call0.v0 select ]

/-- The second layer's forty-five operations: the first's with parameter slab 1, reading what the first left. -/
abbrev lay1 : List (HloOp τ sig (Elt F)) :=
  [ unary main_arg4 main_v36 ((extractStridedSlice S1x8x32 ![1, 0, 0] · slices_S3x8x32_S1x8x32_1_0_0) : (⟨S3x8x32, .f32⟩ : BufTy).Contents (Elt F) → (⟨S1x8x32, .f32⟩ : BufTy).Contents (Elt F)),
    reshape main_v36 main_v37 rfl shapeCasts_S1x8x32_S8x32,
    binary main_arg1 main_v37 main_v38 ((fun l r => Host.dotGeneral dot_S1600000x8_S8x32_S1600000x32_1_0_0_1_n_n none l r) : (⟨S1600000x8, .f32⟩ : BufTy).Contents (Elt F) → (⟨S8x32, .f32⟩ : BufTy).Contents (Elt F) → (⟨S1600000x32, .f32⟩ : BufTy).Contents (Elt F)),
    unary main_arg5 main_v39 ((extractStridedSlice S1x32 ![1, 0] · slices_S3x32_S1x32_1_0) : (⟨S3x32, .f32⟩ : BufTy).Contents (Elt F) → (⟨S1x32, .f32⟩ : BufTy).Contents (Elt F)),
    reshape main_v39 main_v40 rfl shapeCasts_S1x32_S32,
    unary main_v40 main_v41 (broadcastInDim S1x32 ![1] bcast_S32_S1x32_1 : (⟨S32, .f32⟩ : BufTy).Contents (Elt F) → (⟨S1x32, .f32⟩ : BufTy).Contents (Elt F)),
    unary main_v41 main_v42 (broadcastInDim S1600000x32 ![0, 1] bcast_S1x32_S1600000x32_0_1 : (⟨S1x32, .f32⟩ : BufTy).Contents (Elt F) → (⟨S1600000x32, .f32⟩ : BufTy).Contents (Elt F)),
    binary main_v38 main_v42 main_v43 (addf : (⟨S1600000x32, .f32⟩ : BufTy).Contents (Elt F) → (⟨S1600000x32, .f32⟩ : BufTy).Contents (Elt F) → (⟨S1600000x32, .f32⟩ : BufTy).Contents (Elt F)),
    nullary main_c_3 (constantI S_ 32 0#32),
    unary main_c_3 main_v44 (broadcastInDim S1600000 ![] bcast_S_S1600000 : (⟨S_, .i32⟩ : BufTy).Contents (Elt F) → (⟨S1600000, .i32⟩ : BufTy).Contents (Elt F)),
    binary main_v1 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v46 (broadcastInDim S1600000 ![] bcast_S_S1600000 : (⟨S_, .i32⟩ : BufTy).Contents (Elt F) → (⟨S1600000, .i32⟩ : BufTy).Contents (Elt F)),
    binary main_v1 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_v35 main_v49 main_v50 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    binary main_v50 main_v43 main_v51 (addf : (⟨S1600000x32, .f32⟩ : BufTy).Contents (Elt F) → (⟨S1600000x32, .f32⟩ : BufTy).Contents (Elt F) → (⟨S1600000x32, .f32⟩ : BufTy).Contents (Elt F)),
    TRef.nullary main_call2.cst (constant S_ .f32 0x00000000#32),
    TRef.unary main_call2.cst main_call2.v0 (broadcastInDim S1600000x32 ![] bcast_S_S1600000x32),
    TRef.binary (.of main_v51) main_call2.v0 main_call2.v1 maximumf,
    nullary main_cst_5 (constant S_ .f32 0x00000000#32),
    unary main_cst_5 main_v53 (broadcastInDim S100000x32 ![] bcast_S_S100000x32 : (⟨S_, .f32⟩ : BufTy).Contents (Elt F) → (⟨S100000x32, .f32⟩ : BufTy).Contents (Elt F)),
    unary main_v3 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_6 (constant S_ .f32 0x3F800000#32),
    unary main_cst_6 main_v56 (broadcastInDim S100000x32 ![] bcast_S_S100000x32 : (⟨S_, .f32⟩ : BufTy).Contents (Elt F) → (⟨S100000x32, .f32⟩ : BufTy).Contents (Elt F)),
    binary main_v56 main_v35 main_v57 (mulf : (⟨S100000x32, .f32⟩ : BufTy).Contents (Elt F) → (⟨S100000x32, .f32⟩ : BufTy).Contents (Elt F) → (⟨S100000x32, .f32⟩ : BufTy).Contents (Elt F)),
    binary main_v57 main_v55 main_v58 (addf : (⟨S100000x32, .f32⟩ : BufTy).Contents (Elt F) → (⟨S100000x32, .f32⟩ : BufTy).Contents (Elt F) → (⟨S100000x32, .f32⟩ : BufTy).Contents (Elt F)),
    unary main_arg2 main_v59 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v59 main_v60 rfl shapeCasts_S1x32x32_S32x32,
    binary main_v58 main_v60 main_v61 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_arg3 main_v62 ((extractStridedSlice S1x32 ![1, 0] · slices_S3x32_S1x32_1_0) : (⟨S3x32, .f32⟩ : BufTy).Contents (Elt F) → (⟨S1x32, .f32⟩ : BufTy).Contents (Elt F)),
    reshape main_v62 main_v63 rfl shapeCasts_S1x32_S32,
    unary main_v63 main_v64 (broadcastInDim S1x32 ![1] bcast_S32_S1x32_1 : (⟨S32, .f32⟩ : BufTy).Contents (Elt F) → (⟨S1x32, .f32⟩ : BufTy).Contents (Elt F)),
    unary main_v64 main_v65 (broadcastInDim S100000x32 ![0, 1] bcast_S1x32_S100000x32_0_1 : (⟨S1x32, .f32⟩ : BufTy).Contents (Elt F) → (⟨S100000x32, .f32⟩ : BufTy).Contents (Elt F)),
    binary main_v61 main_v65 main_v66 (addf : (⟨S100000x32, .f32⟩ : BufTy).Contents (Elt F) → (⟨S100000x32, .f32⟩ : BufTy).Contents (Elt F) → (⟨S100000x32, .f32⟩ : BufTy).Contents (Elt F)),
    nullary main_cst_7 (constant S_ .f32 0x3C23D70A#32),
    TRef.nullary main_call3.cst (constant S_ .f32 0x00000000#32),
    TRef.unary main_call3.cst main_call3.v0 (broadcastInDim S100000x32 ![] bcast_S_S100000x32),
    TRef.binary (.of main_v66) main_call3.v0 main_call3.v1 (cmpf .oge),
    TRef.unary (.of main_cst_7) main_call3.v2 id,
    TRef.unary main_call3.v2 main_call3.v3 (broadcastInDim S100000x32 ![] bcast_S_S100000x32),
    TRef.binary main_call3.v3 (.of main_v66) main_call3.v4 mulf,
    TRef.ternary main_call3.v1 (.of main_v66) main_call3.v4 main_call3.call0.v0 select ]

/-- The third layer's forty-five operations: the same with parameter slab 2; what it leaves is the program's result. -/
abbrev lay2 : List (HloOp τ sig (Elt F)) :=
  [ unary main_arg4 main_v68 ((extractStridedSlice S1x8x32 ![2, 0, 0] · slices_S3x8x32_S1x8x32_2_0_0) : (⟨S3x8x32, .f32⟩ : BufTy).Contents (Elt F) → (⟨S1x8x32, .f32⟩ : BufTy).Contents (Elt F)),
    reshape main_v68 main_v69 rfl shapeCasts_S1x8x32_S8x32,
    binary main_arg1 main_v69 main_v70 ((fun l r => Host.dotGeneral dot_S1600000x8_S8x32_S1600000x32_1_0_0_1_n_n none l r) : (⟨S1600000x8, .f32⟩ : BufTy).Contents (Elt F) → (⟨S8x32, .f32⟩ : BufTy).Contents (Elt F) → (⟨S1600000x32, .f32⟩ : BufTy).Contents (Elt F)),
    unary main_arg5 main_v71 ((extractStridedSlice S1x32 ![2, 0] · slices_S3x32_S1x32_2_0) : (⟨S3x32, .f32⟩ : BufTy).Contents (Elt F) → (⟨S1x32, .f32⟩ : BufTy).Contents (Elt F)),
    reshape main_v71 main_v72 rfl shapeCasts_S1x32_S32,
    unary main_v72 main_v73 (broadcastInDim S1x32 ![1] bcast_S32_S1x32_1 : (⟨S32, .f32⟩ : BufTy).Contents (Elt F) → (⟨S1x32, .f32⟩ : BufTy).Contents (Elt F)),
    unary main_v73 main_v74 (broadcastInDim S1600000x32 ![0, 1] bcast_S1x32_S1600000x32_0_1 : (⟨S1x32, .f32⟩ : BufTy).Contents (Elt F) → (⟨S1600000x32, .f32⟩ : BufTy).Contents (Elt F)),
    binary main_v70 main_v74 main_v75 (addf : (⟨S1600000x32, .f32⟩ : BufTy).Contents (Elt F) → (⟨S1600000x32, .f32⟩ : BufTy).Contents (Elt F) → (⟨S1600000x32, .f32⟩ : BufTy).Contents (Elt F)),
    nullary main_c_8 (constantI S_ 32 0#32),
    unary main_c_8 main_v76 (broadcastInDim S1600000 ![] bcast_S_S1600000 : (⟨S_, .i32⟩ : BufTy).Contents (Elt F) → (⟨S1600000, .i32⟩ : BufTy).Contents (Elt F)),
    binary main_v1 main_v76 main_v77 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v78 (broadcastInDim S1600000 ![] bcast_S_S1600000 : (⟨S_, .i32⟩ : BufTy).Contents (Elt F) → (⟨S1600000, .i32⟩ : BufTy).Contents (Elt F)),
    binary main_v1 main_v78 main_v79 (addi : (⟨S1600000, .i32⟩ : BufTy).Contents (Elt F) → (⟨S1600000, .i32⟩ : BufTy).Contents (Elt F) → (⟨S1600000, .i32⟩ : BufTy).Contents (Elt F)),
    ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v80 main_v81 (broadcastInDim S1600000x1 ![0] bcast_S1600000_S1600000x1_0 : (⟨S1600000, .i32⟩ : BufTy).Contents (Elt F) → (⟨S1600000x1, .i32⟩ : BufTy).Contents (Elt F)),
    binary main_v67 main_v81 main_v82 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    binary main_v82 main_v75 main_v83 (addf : (⟨S1600000x32, .f32⟩ : BufTy).Contents (Elt F) → (⟨S1600000x32, .f32⟩ : BufTy).Contents (Elt F) → (⟨S1600000x32, .f32⟩ : BufTy).Contents (Elt F)),
    TRef.nullary main_call4.cst (constant S_ .f32 0x00000000#32),
    TRef.unary main_call4.cst main_call4.v0 (broadcastInDim S1600000x32 ![] bcast_S_S1600000x32),
    TRef.binary (.of main_v83) main_call4.v0 main_call4.v1 maximumf,
    nullary main_cst_10 (constant S_ .f32 0x00000000#32),
    unary main_cst_10 main_v85 (broadcastInDim S100000x32 ![] bcast_S_S100000x32 : (⟨S_, .f32⟩ : BufTy).Contents (Elt F) → (⟨S100000x32, .f32⟩ : BufTy).Contents (Elt F)),
    unary main_v3 main_v86 (broadcastInDim S1600000x1 ![0] bcast_S1600000_S1600000x1_0 : (⟨S1600000, .i32⟩ : BufTy).Contents (Elt F) → (⟨S1600000x1, .i32⟩ : BufTy).Contents (Elt F)),
    ternary main_v85 main_v86 main_v84 main_v87 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_11 (constant S_ .f32 0x3F800000#32),
    unary main_cst_11 main_v88 (broadcastInDim S100000x32 ![] bcast_S_S100000x32 : (⟨S_, .f32⟩ : BufTy).Contents (Elt F) → (⟨S100000x32, .f32⟩ : BufTy).Contents (Elt F)),
    binary main_v88 main_v67 main_v89 (mulf : (⟨S100000x32, .f32⟩ : BufTy).Contents (Elt F) → (⟨S100000x32, .f32⟩ : BufTy).Contents (Elt F) → (⟨S100000x32, .f32⟩ : BufTy).Contents (Elt F)),
    binary main_v89 main_v87 main_v90 (addf : (⟨S100000x32, .f32⟩ : BufTy).Contents (Elt F) → (⟨S100000x32, .f32⟩ : BufTy).Contents (Elt F) → (⟨S100000x32, .f32⟩ : BufTy).Contents (Elt F)),
    unary main_arg2 main_v91 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v91 main_v92 rfl shapeCasts_S1x32x32_S32x32,
    binary main_v90 main_v92 main_v93 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_arg3 main_v94 ((extractStridedSlice S1x32 ![2, 0] · slices_S3x32_S1x32_2_0) : (⟨S3x32, .f32⟩ : BufTy).Contents (Elt F) → (⟨S1x32, .f32⟩ : BufTy).Contents (Elt F)),
    reshape main_v94 main_v95 rfl shapeCasts_S1x32_S32,
    unary main_v95 main_v96 (broadcastInDim S1x32 ![1] bcast_S32_S1x32_1 : (⟨S32, .f32⟩ : BufTy).Contents (Elt F) → (⟨S1x32, .f32⟩ : BufTy).Contents (Elt F)),
    unary main_v96 main_v97 (broadcastInDim S100000x32 ![0, 1] bcast_S1x32_S100000x32_0_1 : (⟨S1x32, .f32⟩ : BufTy).Contents (Elt F) → (⟨S100000x32, .f32⟩ : BufTy).Contents (Elt F)),
    binary main_v93 main_v97 main_v98 (addf : (⟨S100000x32, .f32⟩ : BufTy).Contents (Elt F) → (⟨S100000x32, .f32⟩ : BufTy).Contents (Elt F) → (⟨S100000x32, .f32⟩ : BufTy).Contents (Elt F)),
    nullary main_cst_12 (constant S_ .f32 0x3C23D70A#32),
    TRef.nullary main_call5.cst (constant S_ .f32 0x00000000#32),
    TRef.unary main_call5.cst main_call5.v0 (broadcastInDim S100000x32 ![] bcast_S_S100000x32),
    TRef.binary (.of main_v98) main_call5.v0 main_call5.v1 (cmpf .oge),
    TRef.unary (.of main_cst_12) main_call5.v2 id,
    TRef.unary main_call5.v2 main_call5.v3 (broadcastInDim S100000x32 ![] bcast_S_S100000x32),
    TRef.binary main_call5.v3 (.of main_v98) main_call5.v4 mulf,
    TRef.ternary main_call5.v1 (.of main_v98) main_call5.v4 main_call5.call0.v0 select ]

/-- The whole line: the preamble, then the three layers in order. -/
abbrev ops : List (HloOp τ sig (Elt F)) := pre ++ (lay0 ++ (lay1 ++ lay2))

/-- The program is that line: its two halves and the cut-offs' bodies unfolded at their calls, sequencing grafts each
    continuation onto the step before it, and both sides are the same chain of steps. -/
theorem main_eq (c : Dev nD) : main (F := F) c = seq ops := rfl

theorem pre_sub : (pre : List (HloOp τ sig (Elt F))).Forall fun op => op.bufs ⊆ tcRefs τ sig :=
  ⟨unary_bufs_sub .., reshape_bufs_sub .., unary_bufs_sub .., reshape_bufs_sub ..⟩

theorem pre_fresh : (pre : List (HloOp τ sig (Elt F))).Forall fun op => op.fresh = ∅ :=
  ⟨rfl, rfl, rfl, rfl⟩

theorem lay0_sub : (lay0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem lay0_fresh : (lay0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem lay1_sub : (lay1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem lay1_fresh : (lay1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem lay2_sub : (lay2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem lay2_fresh : (lay2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line touches TensorCore references only. -/
theorem ops_sub : (ops : List (HloOp τ sig (Elt F))).Forall fun op => op.bufs ⊆ tcRefs τ sig :=
  List.forall_append.mpr ⟨pre_sub, List.forall_append.mpr ⟨lay0_sub, List.forall_append.mpr ⟨lay1_sub, lay2_sub⟩⟩⟩

/-- Every operation of the line determines its results. -/
theorem ops_fresh : (ops : List (HloOp τ sig (Elt F))).Forall fun op => op.fresh = ∅ :=
  List.forall_append.mpr ⟨pre_fresh, List.forall_append.mpr ⟨lay0_fresh, List.forall_append.mpr ⟨lay1_fresh, lay2_fresh⟩⟩⟩

theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of the program terminates,
    and every final state has each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.Hand

end
-- ==== Proof.LibAfter.lean ====
/-
  A LINE OF HOST OPERATIONS, CUT IN TWO.

  The contents a device's buffers hold after a straight line of host operations is a fold of the operations' results
  over the contents the line starts from. The fold over a concatenation is the fold over the second part, started from
  the fold over the first; so a long line can be read a stretch at a time, each stretch from contents that are a
  variable: what a stretch leaves in a buffer is then a small term over the few buffers the stretch reads.
-/
import Idealize.ShloMosaic.Lib.StableHlo.Run

noncomputable section

namespace Cert.Lib

open Idealize.ShloMosaic Idealize.ShloMosaic.StableHlo

variable {τ : Topo} {sig : RefSig} {Val : EltTy → Type}

/-- The fold over two lines one after the other is the second's fold from the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `k` operations: the rest's fold, from the first `k`'s. -/
theorem after_take_drop (l : List (HloOp τ sig Val)) (k : Nat) (V : Valuation τ sig Val) :
    after l V = after (l.drop k) (after (l.take k) V) := by
  rw [← after_append, List.take_append_drop]

end Cert.Lib

end
-- ==== Proof.RefRead.lean ====
/-
  WHAT THE REFERENCE'S LINE OF OPERATIONS LEAVES, READ A STRETCH AT A TIME.

  The contents after the whole line are the third layer's fold from the second's from the first's from the preamble's.
  From contents that are a variable, a layer's forty-five operations leave in the layer's result buffer exactly the
  layer's composed term over the few buffers the layer reads: each operation's result at its own buffer is its function
  of its operands' contents, at any other buffer what was there. A stretch writes only its own intermediate buffers, so
  the arguments and the two index vectors pass through every later stretch unchanged. Composing the three layers over the
  preamble's two index vectors gives the whole network's term at the result buffer, the seven arguments as launched.
-/
import proofs.«112617_j57896159150675_1_alg».proof.Proof.RefOps
import proofs.«112617_j57896159150675_1_alg».proof.Proof.RefTerms
import proofs.«112617_j57896159150675_1_alg».proof.Proof.LibAfter

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

/-! ## The line, cut at the stretches -/

/-- The fold over the whole line is the layers' folds one inside the other, innermost the preamble's. -/
theorem after_ops (V : Valuation τ sig (Elt F)) :
    after ops V = after lay2 (after lay1 (after lay0 (after pre V))) :=
  (Cert.Lib.after_append pre _ V).trans
    ((Cert.Lib.after_append lay0 _ _).trans (Cert.Lib.after_append lay1 lay2 _))

/-! ## What a stretch does not write, it keeps -/

/-- A one-buffer set of writes lies inside a list of references that names the buffer. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The buffers the stretch `pre` writes, one per operation, in order. -/
def preW : List (Ref sig .tc) :=
  [main_v0, main_v1, main_v2, main_v3]

theorem pre_writes : (pre : List (HloOp τ sig (Elt F))).Forall fun op =>
    op.writes ⊆ ((preW).map (Proc.devRef (τ := τ) .tc)).toFinset :=
  ⟨single_sub_of_mem (by decide), single_sub_of_mem (by decide), single_sub_of_mem (by decide), single_sub_of_mem (by decide)⟩

/-- A buffer `pre` does not write holds after it what it held before. -/
theorem pre_keep (V : Valuation τ sig (Elt F)) {r : Ref sig .tc} (hr : r ∉ preW) :
    after pre V (r : DevRef τ sig) = V (r : DevRef τ sig) :=
  after_of_writes_sub pre V pre_writes hr

theorem pre_arg0 (V : Valuation τ sig (Elt F)) : after pre V (main_arg0 : DevRef τ sig) = V (main_arg0 : DevRef τ sig) := pre_keep V (by decide)
theorem pre_arg1 (V : Valuation τ sig (Elt F)) : after pre V (main_arg1 : DevRef τ sig) = V (main_arg1 : DevRef τ sig) := pre_keep V (by decide)
theorem pre_arg2 (V : Valuation τ sig (Elt F)) : after pre V (main_arg2 : DevRef τ sig) = V (main_arg2 : DevRef τ sig) := pre_keep V (by decide)
theorem pre_arg3 (V : Valuation τ sig (Elt F)) : after pre V (main_arg3 : DevRef τ sig) = V (main_arg3 : DevRef τ sig) := pre_keep V (by decide)
theorem pre_arg4 (V : Valuation τ sig (Elt F)) : after pre V (main_arg4 : DevRef τ sig) = V (main_arg4 : DevRef τ sig) := pre_keep V (by decide)
theorem pre_arg5 (V : Valuation τ sig (Elt F)) : after pre V (main_arg5 : DevRef τ sig) = V (main_arg5 : DevRef τ sig) := pre_keep V (by decide)
theorem pre_arg6 (V : Valuation τ sig (Elt F)) : after pre V (main_arg6 : DevRef τ sig) = V (main_arg6 : DevRef τ sig) := pre_keep V (by decide)

/-- The buffers the stretch `lay0` writes, one per operation, in order. -/
def lay0W : List (Ref sig .tc) :=
  [main_v4, main_v5, main_v6, main_v7, main_v8, main_v9, main_v10, main_v11, main_c, main_v12, main_v13, main_c_0, main_v14, main_v15, main_v16, main_v17, main_v18, main_v19, (main_call0.cst).ref, (main_call0.v0).ref, (main_call0.v1).ref, main_cst, main_v21, main_v22, main_v23, main_cst_1, main_v24, main_v25, main_v26, main_v27, main_v28, main_v29, main_v30, main_v31, main_v32, main_v33, main_v34, main_cst_2, (main_call1.cst).ref, (main_call1.v0).ref, (main_call1.v1).ref, (main_call1.v2).ref, (main_call1.v3).ref, (main_call1.v4).ref, (main_call1.call0.v0).ref]

theorem lay0_writes : (lay0 : List (HloOp τ sig (Elt F))).Forall fun op =>
    op.writes ⊆ ((lay0W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer `lay0` does not write holds after it what it held before. -/
theorem lay0_keep (V : Valuation τ sig (Elt F)) {r : Ref sig .tc} (hr : r ∉ lay0W) :
    after lay0 V (r : DevRef τ sig) = V (r : DevRef τ sig) :=
  after_of_writes_sub lay0 V lay0_writes hr

theorem lay0_arg0 (V : Valuation τ sig (Elt F)) : after lay0 V (main_arg0 : DevRef τ sig) = V (main_arg0 : DevRef τ sig) := lay0_keep V (by decide)
theorem lay0_arg1 (V : Valuation τ sig (Elt F)) : after lay0 V (main_arg1 : DevRef τ sig) = V (main_arg1 : DevRef τ sig) := lay0_keep V (by decide)
theorem lay0_arg2 (V : Valuation τ sig (Elt F)) : after lay0 V (main_arg2 : DevRef τ sig) = V (main_arg2 : DevRef τ sig) := lay0_keep V (by decide)
theorem lay0_arg3 (V : Valuation τ sig (Elt F)) : after lay0 V (main_arg3 : DevRef τ sig) = V (main_arg3 : DevRef τ sig) := lay0_keep V (by decide)
theorem lay0_arg4 (V : Valuation τ sig (Elt F)) : after lay0 V (main_arg4 : DevRef τ sig) = V (main_arg4 : DevRef τ sig) := lay0_keep V (by decide)
theorem lay0_arg5 (V : Valuation τ sig (Elt F)) : after lay0 V (main_arg5 : DevRef τ sig) = V (main_arg5 : DevRef τ sig) := lay0_keep V (by decide)
theorem lay0_arg6 (V : Valuation τ sig (Elt F)) : after lay0 V (main_arg6 : DevRef τ sig) = V (main_arg6 : DevRef τ sig) := lay0_keep V (by decide)
theorem lay0_v1 (V : Valuation τ sig (Elt F)) : after lay0 V (main_v1 : DevRef τ sig) = V (main_v1 : DevRef τ sig) := lay0_keep V (by decide)
theorem lay0_v3 (V : Valuation τ sig (Elt F)) : after lay0 V (main_v3 : DevRef τ sig) = V (main_v3 : DevRef τ sig) := lay0_keep V (by decide)

/-- The buffers the stretch `lay1` writes, one per operation, in order. -/
def lay1W : List (Ref sig .tc) :=
  [main_v36, main_v37, main_v38, main_v39, main_v40, main_v41, main_v42, main_v43, main_c_3, main_v44, main_v45, main_c_4, main_v46, main_v47, main_v48, main_v49, main_v50, main_v51, (main_call2.cst).ref, (main_call2.v0).ref, (main_call2.v1).ref, main_cst_5, main_v53, main_v54, main_v55, main_cst_6, main_v56, main_v57, main_v58, main_v59, main_v60, main_v61, main_v62, main_v63, main_v64, main_v65, main_v66, main_cst_7, (main_call3.cst).ref, (main_call3.v0).ref, (main_call3.v1).ref, (main_call3.v2).ref, (main_call3.v3).ref, (main_call3.v4).ref, (main_call3.call0.v0).ref]

theorem lay1_writes : (lay1 : List (HloOp τ sig (Elt F))).Forall fun op =>
    op.writes ⊆ ((lay1W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer `lay1` does not write holds after it what it held before. -/
theorem lay1_keep (V : Valuation τ sig (Elt F)) {r : Ref sig .tc} (hr : r ∉ lay1W) :
    after lay1 V (r : DevRef τ sig) = V (r : DevRef τ sig) :=
  after_of_writes_sub lay1 V lay1_writes hr

theorem lay1_arg0 (V : Valuation τ sig (Elt F)) : after lay1 V (main_arg0 : DevRef τ sig) = V (main_arg0 : DevRef τ sig) := lay1_keep V (by decide)
theorem lay1_arg1 (V : Valuation τ sig (Elt F)) : after lay1 V (main_arg1 : DevRef τ sig) = V (main_arg1 : DevRef τ sig) := lay1_keep V (by decide)
theorem lay1_arg2 (V : Valuation τ sig (Elt F)) : after lay1 V (main_arg2 : DevRef τ sig) = V (main_arg2 : DevRef τ sig) := lay1_keep V (by decide)
theorem lay1_arg3 (V : Valuation τ sig (Elt F)) : after lay1 V (main_arg3 : DevRef τ sig) = V (main_arg3 : DevRef τ sig) := lay1_keep V (by decide)
theorem lay1_arg4 (V : Valuation τ sig (Elt F)) : after lay1 V (main_arg4 : DevRef τ sig) = V (main_arg4 : DevRef τ sig) := lay1_keep V (by decide)
theorem lay1_arg5 (V : Valuation τ sig (Elt F)) : after lay1 V (main_arg5 : DevRef τ sig) = V (main_arg5 : DevRef τ sig) := lay1_keep V (by decide)
theorem lay1_arg6 (V : Valuation τ sig (Elt F)) : after lay1 V (main_arg6 : DevRef τ sig) = V (main_arg6 : DevRef τ sig) := lay1_keep V (by decide)
theorem lay1_v1 (V : Valuation τ sig (Elt F)) : after lay1 V (main_v1 : DevRef τ sig) = V (main_v1 : DevRef τ sig) := lay1_keep V (by decide)
theorem lay1_v3 (V : Valuation τ sig (Elt F)) : after lay1 V (main_v3 : DevRef τ sig) = V (main_v3 : DevRef τ sig) := lay1_keep V (by decide)

/-- The buffers the stretch `lay2` writes, one per operation, in order. -/
def lay2W : List (Ref sig .tc) :=
  [main_v68, main_v69, main_v70, main_v71, main_v72, main_v73, main_v74, main_v75, main_c_8, main_v76, main_v77, main_c_9, main_v78, main_v79, main_v80, main_v81, main_v82, main_v83, (main_call4.cst).ref, (main_call4.v0).ref, (main_call4.v1).ref, main_cst_10, main_v85, main_v86, main_v87, main_cst_11, main_v88, main_v89, main_v90, main_v91, main_v92, main_v93, main_v94, main_v95, main_v96, main_v97, main_v98, main_cst_12, (main_call5.cst).ref, (main_call5.v0).ref, (main_call5.v1).ref, (main_call5.v2).ref, (main_call5.v3).ref, (main_call5.v4).ref, (main_call5.call0.v0).ref]

theorem lay2_writes : (lay2 : List (HloOp τ sig (Elt F))).Forall fun op =>
    op.writes ⊆ ((lay2W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer `lay2` does not write holds after it what it held before. -/
theorem lay2_keep (V : Valuation τ sig (Elt F)) {r : Ref sig .tc} (hr : r ∉ lay2W) :
    after lay2 V (r : DevRef τ sig) = V (r : DevRef τ sig) :=
  after_of_writes_sub lay2 V lay2_writes hr

theorem lay2_arg0 (V : Valuation τ sig (Elt F)) : after lay2 V (main_arg0 : DevRef τ sig) = V (main_arg0 : DevRef τ sig) := lay2_keep V (by decide)
theorem lay2_arg1 (V : Valuation τ sig (Elt F)) : after lay2 V (main_arg1 : DevRef τ sig) = V (main_arg1 : DevRef τ sig) := lay2_keep V (by decide)
theorem lay2_arg2 (V : Valuation τ sig (Elt F)) : after lay2 V (main_arg2 : DevRef τ sig) = V (main_arg2 : DevRef τ sig) := lay2_keep V (by decide)
theorem lay2_arg3 (V : Valuation τ sig (Elt F)) : after lay2 V (main_arg3 : DevRef τ sig) = V (main_arg3 : DevRef τ sig) := lay2_keep V (by decide)
theorem lay2_arg4 (V : Valuation τ sig (Elt F)) : after lay2 V (main_arg4 : DevRef τ sig) = V (main_arg4 : DevRef τ sig) := lay2_keep V (by decide)
theorem lay2_arg5 (V : Valuation τ sig (Elt F)) : after lay2 V (main_arg5 : DevRef τ sig) = V (main_arg5 : DevRef τ sig) := lay2_keep V (by decide)
theorem lay2_arg6 (V : Valuation τ sig (Elt F)) : after lay2 V (main_arg6 : DevRef τ sig) = V (main_arg6 : DevRef τ sig) := lay2_keep V (by decide)

/-! ## What a stretch leaves in its result buffers -/

/-- After the preamble the source vector is row 0 of the edge table. -/
theorem pre_v1 (V : Valuation τ sig (Elt F)) :
    after pre V (main_v1 : DevRef τ sig) = idxRow 0 slices_S2x1600000_S1x1600000_0_0 (V (main_arg6 : DevRef τ sig)) := by
  after_results_simp
  rfl

/-- After the preamble the target vector is row 1 of the edge table. -/
theorem pre_v3 (V : Valuation τ sig (Elt F)) :
    after pre V (main_v3 : DevRef τ sig) = idxRow 1 slices_S2x1600000_S1x1600000_1_0 (V (main_arg6 : DevRef τ sig)) := by
  after_results_simp
  rfl

attribute [local irreducible] Host.gather Host.scatterAdd in
set_option maxRecDepth 8192 in
/-- The first layer's operations leave the layer's term in its result buffer: the fold unrolled, each operation's
    result read at its own buffer and passed over at the others; the gather and the scatter-add stay closed throughout. -/
theorem lay0_out (V : Valuation τ sig (Elt F)) :
    after lay0 V (main_v35 : DevRef τ sig)
      = layer 0 slices_S3x8x32_S1x8x32_0_0_0 slices_S3x32_S1x32_0_0 slices_S3x32x32_S1x32x32_0_0_0 slices_S3x32_S1x32_0_0
          (V (main_arg1 : DevRef τ sig)) (V (main_arg2 : DevRef τ sig)) (V (main_arg3 : DevRef τ sig)) (V (main_arg4 : DevRef τ sig)) (V (main_arg5 : DevRef τ sig))
          (V (main_v1 : DevRef τ sig)) (V (main_v3 : DevRef τ sig)) (V (main_arg0 : DevRef τ sig)) := by
  after_results_simp
  rfl

attribute [local irreducible] Host.gather Host.scatterAdd in
set_option maxRecDepth 8192 in
/-- The second layer's operations leave the layer's term in its result buffer: the fold unrolled, each operation's
    result read at its own buffer and passed over at the others; the gather and the scatter-add stay closed throughout. -/
theorem lay1_out (V : Valuation τ sig (Elt F)) :
    after lay1 V (main_v67 : DevRef τ sig)
      = layer 1 slices_S3x8x32_S1x8x32_1_0_0 slices_S3x32_S1x32_1_0 slices_S3x32x32_S1x32x32_1_0_0 slices_S3x32_S1x32_1_0
          (V (main_arg1 : DevRef τ sig)) (V (main_arg2 : DevRef τ sig)) (V (main_arg3 : DevRef τ sig)) (V (main_arg4 : DevRef τ sig)) (V (main_arg5 : DevRef τ sig))
          (V (main_v1 : DevRef τ sig)) (V (main_v3 : DevRef τ sig)) (V (main_v35 : DevRef τ sig)) := by
  after_results_simp
  rfl

attribute [local irreducible] Host.gather Host.scatterAdd in
set_option maxRecDepth 8192 in
/-- The third layer's operations leave the layer's term in its result buffer: the fold unrolled, each operation's
    result read at its own buffer and passed over at the others; the gather and the scatter-add stay closed throughout. -/
theorem lay2_out (V : Valuation τ sig (Elt F)) :
    after lay2 V (main_v99 : DevRef τ sig)
      = layer 2 slices_S3x8x32_S1x8x32_2_0_0 slices_S3x32_S1x32_2_0 slices_S3x32x32_S1x32x32_2_0_0 slices_S3x32_S1x32_2_0
          (V (main_arg1 : DevRef τ sig)) (V (main_arg2 : DevRef τ sig)) (V (main_arg3 : DevRef τ sig)) (V (main_arg4 : DevRef τ sig)) (V (main_arg5 : DevRef τ sig))
          (V (main_v1 : DevRef τ sig)) (V (main_v3 : DevRef τ sig)) (V (main_v67 : DevRef τ sig)) := by
  after_results_simp
  rfl

/-! ## The whole line -/

/-- After the whole line the result buffer holds the network's term of the seven arguments as launched. -/
theorem after_out (V : Valuation τ sig (Elt F)) :
    after ops V (main_v99 : DevRef τ sig)
      = net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [after_ops, lay2_out, lay1_out, lay0_out]
  rw [lay1_arg1, lay1_arg2, lay1_arg3, lay1_arg4, lay1_arg5, lay1_v1, lay1_v3,
    lay0_arg1, lay0_arg2, lay0_arg3, lay0_arg4, lay0_arg5, lay0_v1, lay0_v3,
    pre_arg0, pre_arg1, pre_arg2, pre_arg3, pre_arg4, pre_arg5, pre_v1, pre_v3]
  rfl

/-- No operation of the line writes argument 0: it ends as launched. -/
theorem after_arg0 (V : Valuation τ sig (Elt F)) : after ops V (main_arg0 : DevRef τ sig) = V (main_arg0 : DevRef τ sig) := by
  rw [after_ops, lay2_arg0, lay1_arg0, lay0_arg0, pre_arg0]

/-- No operation of the line writes argument 1: it ends as launched. -/
theorem after_arg1 (V : Valuation τ sig (Elt F)) : after ops V (main_arg1 : DevRef τ sig) = V (main_arg1 : DevRef τ sig) := by
  rw [after_ops, lay2_arg1, lay1_arg1, lay0_arg1, pre_arg1]

/-- No operation of the line writes argument 2: it ends as launched. -/
theorem after_arg2 (V : Valuation τ sig (Elt F)) : after ops V (main_arg2 : DevRef τ sig) = V (main_arg2 : DevRef τ sig) := by
  rw [after_ops, lay2_arg2, lay1_arg2, lay0_arg2, pre_arg2]

/-- No operation of the line writes argument 3: it ends as launched. -/
theorem after_arg3 (V : Valuation τ sig (Elt F)) : after ops V (main_arg3 : DevRef τ sig) = V (main_arg3 : DevRef τ sig) := by
  rw [after_ops, lay2_arg3, lay1_arg3, lay0_arg3, pre_arg3]

/-- No operation of the line writes argument 4: it ends as launched. -/
theorem after_arg4 (V : Valuation τ sig (Elt F)) : after ops V (main_arg4 : DevRef τ sig) = V (main_arg4 : DevRef τ sig) := by
  rw [after_ops, lay2_arg4, lay1_arg4, lay0_arg4, pre_arg4]

/-- No operation of the line writes argument 5: it ends as launched. -/
theorem after_arg5 (V : Valuation τ sig (Elt F)) : after ops V (main_arg5 : DevRef τ sig) = V (main_arg5 : DevRef τ sig) := by
  rw [after_ops, lay2_arg5, lay1_arg5, lay0_arg5, pre_arg5]

/-- No operation of the line writes argument 6: it ends as launched. -/
theorem after_arg6 (V : Valuation τ sig (Elt F)) : after ops V (main_arg6 : DevRef τ sig) = V (main_arg6 : DevRef τ sig) := by
  rw [after_ops, lay2_arg6, lay1_arg6, lay0_arg6, pre_arg6]

/-! ## The run -/

/-- For any float values, from any memory with zero counters: every weakly fair execution of the reference program
    terminates with the result buffer at the network's term of the launched arguments, and the seven arguments as
    launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99)
          = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v99).trans (after_out _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _)⟩)
    (run_main m ρ)

end Cert.ReferenceIdeal.Hand

end
-- ==== Proof.lean ====
/-
  Three message-passing layers on a graph of 100000 nodes and 1600000 edges, as a program of six pipelined kernels (per
  layer one over the edges, one over the nodes) with the host's gathers and scatter-adds between them, against the same
  network written as plain array operations.

  Per layer both programs compute, over the extended reals,

      msg[e, ·]  =  max( x[src e, ·] + ( ea[e, ·] · We + be ), 0 )
      agg[n, ·]  =  Σ over the edges e with target n of msg[e, ·]
      x'[n, ·]   =  leaky( ( x[n, ·] + agg[n, ·] ) · W + b )

  The kernels round their matrix operands to a narrower format first, which is the identity on the extended reals; a
  kernel's matrix product into a zero accumulator and the host's dot are the same finite sum; the reference multiplies x
  by the constant one, and 1 · x = x; the kernel's cut-off tests v > 0 and multiplies v · 0.01, the reference's tests
  v ≥ 0 and multiplies 0.01 · v, which differ only at v = 0, where both give 0. The gather by source node and the
  scatter-add by target node are the same host operations in both programs and are never opened. Nothing here needs an
  entry to be finite, so the precondition is not used.

  The kernel program's run is its six kernels' frames launched in order over the host stretches; each kernel's output
  array is the element-level stage of its input arrays (block by block, the blocks covering the array), and the fold of
  the twelve segments then reads, layer by layer, as the reference's layer. The reference's run is its straight line of
  host operations read back a layer at a time.
-/
import proofs.«112617_j57896159150675_1_alg».proof.Defs
import proofs.«112617_j57896159150675_1_alg».proof.Proof.Gen.Kernel
import proofs.«112617_j57896159150675_1_alg».proof.Proof.Gen.Kernel.Frame
import proofs.«112617_j57896159150675_1_alg».proof.Proof.Gen.KernelIdeal
import proofs.«112617_j57896159150675_1_alg».proof.Proof.Gen.KernelIdeal.Frame
import proofs.«112617_j57896159150675_1_alg».proof.Proof.Gen.ReferenceIdeal
import proofs.«112617_j57896159150675_1_alg».proof.Proof.Gen.Pre_finite_inputs
import proofs.«112617_j57896159150675_1_alg».proof.Proof.KChain
import proofs.«112617_j57896159150675_1_alg».proof.Proof.EdgeReg0
import proofs.«112617_j57896159150675_1_alg».proof.Proof.EdgeReg2
import proofs.«112617_j57896159150675_1_alg».proof.Proof.EdgeReg4
import proofs.«112617_j57896159150675_1_alg».proof.Proof.Node1
import proofs.«112617_j57896159150675_1_alg».proof.Proof.Node3
import proofs.«112617_j57896159150675_1_alg».proof.Proof.Node5
import proofs.«112617_j57896159150675_1_alg».proof.Proof.RefRead

noncomputable section

namespace Cert.Proof

open Idealize.ShloMosaic Idealize.SL.Sem

/-- The word-level kernel program runs and returns its arguments: its six kernels' frames, launched in order. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and returns its arguments: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both idealized programs end with the reference's network of the (agreeing) arguments in their result buffers. -/
theorem algebraic : Cert.algebraic_KernelIdeal_ReferenceIdeal := by
  intro m ρ m' ρ' _ hagree
  refine ⟨fun c => Cert.ReferenceIdeal.Hand.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.fold_out m ρ
          Cert.KernelIdeal.Hand.edge0_arr Cert.KernelIdeal.Hand.node1_arr Cert.KernelIdeal.Hand.edge2_arr
          Cert.KernelIdeal.Hand.node3_arr Cert.KernelIdeal.Hand.edge4_arr Cert.KernelIdeal.Hand.node5_arr c), (h c).2⟩)
      (Cert.KernelIdeal.Hand.run_out m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
